-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v49)) (v1 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_v43) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S400000x32 : Shape := ⟨2, ![400000, 32]⟩
abbrev S2x400000 : Shape := ⟨2, ![2, 400000]⟩
abbrev S128x64 : Shape := ⟨2, ![128, 64]⟩
abbrev S64 : Shape := ⟨1, ![64]⟩
abbrev S160x1 : Shape := ⟨2, ![160, 1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S400000x32 : S_.BroadcastsInDim S400000x32 (![] : Fin 0 → Fin S400000x32.rank)
  reducesTo_S400000x32_S_d0_1 : S400000x32.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S160x1 : S_.BroadcastsInDim S160x1 (![] : Fin 0 → Fin S160x1.rank)
  reducesTo_S160x1_S_d0_1 : S160x1.ReducesTo [0, 1] S_
  reducesTo_S_S_d : S_.ReducesTo [] S_

variable [Facts]

def fn_part1 {F : FTy → Type} [FloatOps F] (main_arg5 : FVec F S160x1 .f32) (main_arg6 : FVec F S_ .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S160x1 .f32 := Host.absf main_arg5
  let main_cst_6 : FVec F S_ .f32 := constant S_ .f32 0x7F800000#32
  let main_v20 : FVec F S160x1 .f32 := broadcastInDim S160x1 ![] bcast_S_S160x1 main_cst_6
  let main_v21 : IVec S160x1 1 := cmpf .olt main_v19 main_v20
  let main_c_7 : IVec S_ 1 := constantI S_ 1 1#1
  let main_v22 : IVec S_ 1 := (fun x v => Host.reduce IntOp.andi x v reducesTo_S160x1_S_d0_1 h_S_) main_v21 main_c_7
  let main_v23 : IVec S_ 1 := andi main_v18 main_v22
  let main_v24 : FVec F S_ .f32 := Host.absf main_arg6
  let main_cst_8 : FVec F S_ .f32 := constant S_ .f32 0x7F800000#32
  let main_v25 : IVec S_ 1 := cmpf .olt main_v24 main_cst_8
  let main_c_9 : IVec S_ 1 := constantI S_ 1 1#1
  let main_v26 : IVec S_ 1 := (fun x v => Host.reduce IntOp.andi x v reducesTo_S_S_d h_S_) main_v25 main_c_9
  let main_v27 : IVec S_ 1 := andi main_v23 main_v26
  main_v27

def fn {F : FTy → Type} [FloatOps F] (main_arg0 : FVec F S50000x128 .f32) (main_arg1 : FVec F S400000x32 .f32) (main_arg2 : IVec S2x400000 32) (main_arg3 : FVec F S128x64 .f32) (main_arg4 : FVec F S64 .f32) (main_arg5 : FVec F S160x1 .f32) (main_arg6 : FVec F S_ .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S400000x32 .f32 := Host.absf main_arg1
  let main_cst_0 : FVec F S_ .f32 := constant S_ .f32 0x7F800000#32
  let main_v5 : FVec F S400000x32 .f32 := broadcastInDim S400000x32 ![] bcast_S_S400000x32 main_cst_0
  let main_v6 : IVec S400000x32 1 := cmpf .olt main_v4 main_v5
  let main_c_1 : IVec S_ 1 := constantI S_ 1 1#1
  let main_v7 : IVec S_ 1 := (fun x v => Host.reduce IntOp.andi x v reducesTo_S400000x32_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S50000x128 : Shape := ⟨2, ![50000, 128]⟩
abbrev S400000x32 : Shape := ⟨2, ![400000, 32]⟩
abbrev S2x400000 : Shape := ⟨2, ![2, 400000]⟩
abbrev S128x64 : Shape := ⟨2, ![128, 64]⟩
abbrev S64 : Shape := ⟨1, ![64]⟩
abbrev S160x1 : Shape := ⟨2, ![160, 1]⟩
abbrev S_ : Shape := ⟨0, ![]⟩
abbrev S1x64 : Shape := ⟨2, ![1, 64]⟩
abbrev S50000x64 : Shape := ⟨2, ![50000, 64]⟩
abbrev S5000x128 : Shape := ⟨2, ![5000, 128]⟩
abbrev S5000x64 : Shape := ⟨2, ![5000, 64]⟩
abbrev S400000x2 : Shape := ⟨2, ![400000, 2]⟩
abbrev S800000x2 : Shape := ⟨2, ![800000, 2]⟩
abbrev S800000x32 : Shape := ⟨2, ![800000, 32]⟩
abbrev S800000x1 : Shape := ⟨2, ![800000, 1]⟩
abbrev S800000 : Shape := ⟨1, ![800000]⟩
abbrev S800000x64 : Shape := ⟨2, ![800000, 64]⟩
abbrev S64x1 : Shape := ⟨2, ![64, 1]⟩
abbrev S32x1 : Shape := ⟨2, ![32, 1]⟩
abbrev S1x32 : Shape := ⟨2, ![1, 32]⟩
abbrev S4000x64 : Shape := ⟨2, ![4000, 64]⟩
abbrev S4000x32 : Shape := ⟨2, ![4000, 32]⟩
abbrev S4000x1 : Shape := ⟨2, ![4000, 1]⟩
abbrev S4000 : Shape := ⟨1, ![4000]⟩
abbrev S50000x1 : Shape := ⟨2, ![50000, 1]⟩
abbrev S1x1 : Shape := ⟨2, ![1, 1]⟩
abbrev S5000 : Shape := ⟨1, ![5000]⟩
abbrev S5000x1 : Shape := ⟨2, ![5000, 1]⟩

abbrev nBuf : Space → Nat
  | .hbm => 85
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S400000x32, .f32⟩
  | .hbm, ⟨2, _⟩ => ⟨S2x400000, .i32⟩
  | .hbm, ⟨3, _⟩ => ⟨S128x64, .f32⟩
  | .hbm, ⟨4, _⟩ => ⟨S64, .f32⟩
  | .hbm, ⟨5, _⟩ => ⟨S160x1, .f32⟩
  | .hbm, ⟨6, _⟩ => ⟨S_, .f32⟩
  | .hbm, ⟨7, _⟩ => ⟨S1x64, .f32⟩
  | .hbm, ⟨8, _⟩ => ⟨S50000x64, .f32⟩
  | .hbm, ⟨9, _⟩ => ⟨S400000x2, .i32⟩
  | .hbm, ⟨10, _⟩ => ⟨S400000x2, .i32⟩
  | .hbm, ⟨11, _⟩ => ⟨S800000x2, .i32⟩
  | .hbm, ⟨12, _⟩ => ⟨S800000x32, .f32⟩
  | .hbm, ⟨13, _⟩ => ⟨S800000x1, .i32⟩
  | .hbm, ⟨14, _⟩ => ⟨S800000, .i32⟩
  | .hbm, ⟨15, _⟩ => ⟨S800000x1, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x64, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x64, .f32⟩
  | .hbm, ⟨35, _⟩ => ⟨S64x1, .f32⟩
  | .hbm, ⟨36, _⟩ => ⟨S1x64, .f32⟩
  | .hbm, ⟨37, _⟩ => ⟨S64x1, .f32⟩
  | .hbm, ⟨38, _⟩ => ⟨S1x64, .f32⟩
  | .hbm, ⟨39, _⟩ => ⟨S32x1, .f32⟩
  | .hbm, ⟨40, _⟩ => ⟨S1x32, .f32⟩
  | .hbm, ⟨41, _⟩ => ⟨S800000x1, .f32⟩
  | .hbm, ⟨42, _⟩ => ⟨S_, .f32⟩
  | .hbm, ⟨43, _⟩ => ⟨S50000x1, .f32⟩
  | .hbm, ⟨44, _⟩ => ⟨S800000x1, .i32⟩
  | .hbm, ⟨45, _⟩ => ⟨S50000x1, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x1, .f32⟩
  | .hbm, ⟨55, _⟩ => ⟨S800000x1, .f32⟩
  | .hbm, ⟨56, _⟩ => ⟨S800000x1, .f32⟩
  | .hbm, ⟨57, _⟩ => ⟨S_, .i32⟩
  | .hbm, ⟨58, _⟩ => ⟨S_, .f32⟩
  | .hbm, ⟨59, _⟩ => ⟨S_, .f32⟩
  | .hbm, ⟨60, _⟩ => ⟨S1x1, .f32⟩
  | .hbm, ⟨61, _⟩ => ⟨S_, .f32⟩
  | .hbm, ⟨62, _⟩ => ⟨S1x1, .f32⟩
  | .hbm, ⟨63, _⟩ => ⟨S1x1, .f32⟩
  | .hbm, ⟨64, _⟩ => ⟨S800000x1, .f32⟩
  | .hbm, ⟨65, _⟩ => ⟨S800000x1, .f32⟩
  | .hbm, ⟨66, _⟩ => ⟨S800000x1, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .i1⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S800000x64, .f32⟩
  | .hbm, ⟨79, _⟩ => ⟨S_, .f32⟩
  | .hbm, ⟨80, _⟩ => ⟨S50000x64, .f32⟩
  | .hbm, ⟨81, _⟩ => ⟨S800000x1, .i32⟩
  | .hbm, ⟨82, _⟩ => ⟨S50000x64, .f32⟩
  | .hbm, ⟨83, _⟩ => ⟨S1x1, .f32⟩
  | .hbm, ⟨84, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S4000x64, .f32⟩
  | .local _ .vmem, ⟨7, _⟩ => ⟨S4000x64, .f32⟩
  | .local _ .vmem, ⟨8, _⟩ => ⟨S4000x64, .f32⟩
  | .local _ .vmem, ⟨9, _⟩ => ⟨S4000x64, .f32⟩
  | .local _ .vmem, ⟨10, _⟩ => ⟨S4000x32, .f32⟩
  | .local _ .vmem, ⟨11, _⟩ => ⟨S4000x32, .f32⟩
  | .local _ .vmem, ⟨12, _⟩ => ⟨S1x64, .f32⟩
  | .local _ .vmem, ⟨13, _⟩ => ⟨S1x64, .f32⟩
  | .local _ .vmem, ⟨14, _⟩ => ⟨S1x32, .f32⟩
  | .local _ .vmem, ⟨15, _⟩ => ⟨S4000x1, .f32⟩
  | .local _ .vmem, ⟨16, _⟩ => ⟨S4000x1, .f32⟩
  | .local _ .vmem, ⟨17, _⟩ => ⟨S4000x64, .f32⟩
  | .local _ .vmem, ⟨18, _⟩ => ⟨S4000x64, .f32⟩
  | .local _ .vmem, ⟨19, _⟩ => ⟨S4000x1, .f32⟩
  | .local _ .vmem, ⟨20, _⟩ => ⟨S4000x1, .f32⟩
  | .local _ .vmem, ⟨21, _⟩ => ⟨S4000x64, .f32⟩
  | .local _ .vmem, ⟨22, _⟩ => ⟨S4000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S1x1, .f32⟩
  | .local _ .vmem, ⟨28, _⟩ => ⟨S5000x128, .f32⟩
  | .local _ .vmem, ⟨29, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_1 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_3 : Ref sig .tc := ⟨.hbm, 46, rfl⟩
abbrev main_v34 : Ref sig .tc := ⟨.hbm, 47, rfl⟩
abbrev main_v35 : Ref sig .tc := ⟨.hbm, 48, rfl⟩
abbrev main_c_4 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c_5 : Ref sig .tc := ⟨.hbm, 57, rfl⟩
abbrev main_call0_cst : Ref sig .tc := ⟨.hbm, 58, rfl⟩
abbrev main_call0_v0 : Ref sig .tc := ⟨.hbm, 59, rfl⟩
abbrev main_call0_v1 : Ref sig .tc := ⟨.hbm, 60, rfl⟩
abbrev main_call0_cst_0 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_call0_v5 : Ref sig .tc := ⟨.hbm, 65, rfl⟩
abbrev main_call0_v6 : Ref sig .tc := ⟨.hbm, 66, rfl⟩
abbrev main_call0_v7 : Ref sig .tc := ⟨.hbm, 67, rfl⟩
abbrev main_call0_cst_1 : Ref sig .tc := ⟨.hbm, 68, rfl⟩
abbrev main_call0_v8 : Ref sig .tc := ⟨.hbm, 69, rfl⟩
abbrev main_call0_cst_2 : Ref sig .tc := ⟨.hbm, 70, rfl⟩
abbrev main_call0_v9 : Ref sig .tc := ⟨.hbm, 71, rfl⟩
abbrev main_call0_v10 : Ref sig .tc := ⟨.hbm, 72, rfl⟩
abbrev main_call0_cst_3 : Ref sig .tc := ⟨.hbm, 73, rfl⟩
abbrev main_call0_v11 : Ref sig .tc := ⟨.hbm, 74, rfl⟩
abbrev main_call0_cst_4 : Ref sig .tc := ⟨.hbm, 75, rfl⟩
abbrev main_call0_call0_v0 : Ref sig .tc := ⟨.hbm, 76, rfl⟩
abbrev main_v43 : Ref sig .tc := ⟨.hbm, 77, rfl⟩
abbrev main_v44 : Ref sig .tc := ⟨.hbm, 78, rfl⟩
abbrev main_cst_6 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem3_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  shapeCasts_S2x400000_S400000x2 : S2x400000.ShapeCasts S400000x2
  concatenates_S400000x2_S400000x2_S800000x2_d0 : Shape.Concatenates [S400000x2, S400000x2] S800000x2 0
  concatenates_S400000x32_S400000x32_S800000x32_d0 : Shape.Concatenates [S400000x32, S400000x32] S800000x32 0
  slices_S800000x2_S800000x1_0_0 : S800000x2.Slices ![0, 0] S800000x1
  shapeCasts_S800000x1_S800000 : S800000x1.ShapeCasts S800000
  slices_S800000x2_S800000x1_0_1 : S800000x2.Slices ![0, 1] S800000x1
  bcast_S_S800000 : S_.BroadcastsInDim S800000 (![] : Fin 0 → Fin S800000.rank)
  bcast_S800000_S800000x1_0 : S800000.BroadcastsInDim S800000x1 (![0] : Fin 1 → Fin S800000x1.rank)
  slices_S160x1_S64x1_0_0 : S160x1.Slices ![0, 0] S64x1
  shapeCasts_S64x1_S1x64 : S64x1.ShapeCasts S1x64
  slices_S160x1_S64x1_64_0 : S160x1.Slices ![64, 0] S64x1
  slices_S160x1_S32x1_128_0 : S160x1.Slices ![128, 0] S32x1
  shapeCasts_S32x1_S1x32 : S32x1.ShapeCasts S1x32
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  broadcasts_S1x64_S4000x64 : S1x64.Broadcasts S4000x64
  reduces_S4000x64_S4000 : S4000x64.Reduces [1] S4000
  shapeCasts_S4000_S4000x1 : S4000.ShapeCasts S4000x1
  inb_S4000x32_S4000x32_0_0 : ∀ a, (![0, 0] : Fin 2 → Nat) a + S4000x32.size a ≤ S4000x32.size a
  h_S4000x32 : 0 < S4000x32.numel
  shapeCasts_S4000x32_S4000x32 : S4000x32.ShapeCasts S4000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  reduces_S4000x32_S4000 : S4000x32.Reduces [1] S4000
  inb_S4000x1_S4000x1_0_0 : ∀ a, (![0, 0] : Fin 2 → Nat) a + S4000x1.size a ≤ S4000x1.size a
  h_S4000x1 : 0 < S4000x1.numel
  bcast_S_S50000x1 : S_.BroadcastsInDim S50000x1 (![] : Fin 0 → Fin S50000x1.rank)
  reducesTo_S800000x1_S_d0_1 : S800000x1.ReducesTo [0, 1] S_
  h_S_ : 0 < S_.numel
  bcast_S_S1x1 : S_.BroadcastsInDim S1x1 (![] : Fin 0 → Fin S1x1.rank)
  bcast_S1x1_S800000x1_0_1 : S1x1.BroadcastsInDim S800000x1 (![0, 1] : Fin 2 → Fin S800000x1.rank)
  shapeCasts_S4000x1_S4000x1 : S4000x1.ShapeCasts S4000x1
  broadcasts_S4000x1_S4000x64 : S4000x1.Broadcasts S4000x64
  bcast_S_S50000x64 : S_.BroadcastsInDim S50000x64 (![] : Fin 0 → Fin S50000x64.rank)
  shapeCasts_S_S1x1 : S_.ShapeCasts S1x1
  shapeCasts_S5000x64_S5000x64 : S5000x64.ShapeCasts S5000x64
  reduces_S5000x64_S5000 : S5000x64.Reduces [1] S5000
  shapeCasts_S5000_S5000x1 : S5000.ShapeCasts S5000x1
  broadcasts_S5000x1_S5000x64 : S5000x1.Broadcasts S5000x64
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  concatenates_S5000x64_S5000x64_S5000x128_d1 : Shape.Concatenates [S5000x64, S5000x64] S5000x128 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x1_S800000x1_S800000x1_1_0_0_1_wf : ScatterDims.WF S50000x1 S800000x1 S800000x1 [1] [0] [0] 1
  gather_S50000x1_S800000x1_S800000x1_1_0_n_n_0_1_11_wf : GatherDims.WF S50000x1 S800000x1 S800000x1 [1] [0] [] [0] [] 1 ![1, 1]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S800000x64.size a
  hwx1_0 : ∀ i : grid1.Coords, EltTy.bits .f32 = 32 ∨ (Rect.block (s := S800000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S800000x64.size a
  hwx1_1 : ∀ i : grid1.Coords, EltTy.bits .f32 = 32 ∨ (Rect.block (s := S800000x64) S4000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x32.size a ≤ S800000x32.size a
  hwx1_2 : ∀ i : grid1.Coords, EltTy.bits .f32 = 32 ∨ (Rect.block (s := S800000x32) S4000x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x1.size a ≤ S800000x1.size a
  hwx1_6 : ∀ i : grid1.Coords, EltTy.bits .f32 = 32 ∨ (Rect.block (s := S800000x1) S4000x1.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S800000x64.size a
  hwx2_0 : ∀ i : grid2.Coords, EltTy.bits .f32 = 32 ∨ (Rect.block (s := S800000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S800000x1.size a
  hwx2_1 : ∀ i : grid2.Coords, EltTy.bits .f32 = 32 ∨ (Rect.block (s := S800000x1) S4000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x64.size a ≤ S800000x64.size a
  hwx2_2 : ∀ i : grid2.Coords, EltTy.bits .f32 = 32 ∨ (Rect.block (s := S800000x64) S4000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v16) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S4000x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S1x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S4000x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v23) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v44) S4000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v47) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v1) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v48) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v49) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S400000x32 : Shape := ⟨2, ![400000, 32]⟩
abbrev S2x400000 : Shape := ⟨2, ![2, 400000]⟩
abbrev S128x64 : Shape := ⟨2, ![128, 64]⟩
abbrev S64 : Shape := ⟨1, ![64]⟩
abbrev S160x1 : Shape := ⟨2, ![160, 1]⟩
abbrev S_ : Shape := ⟨0, ![]⟩
abbrev S400000x2 : Shape := ⟨2, ![400000, 2]⟩
abbrev S800000x2 : Shape := ⟨2, ![800000, 2]⟩
abbrev S800000x32 : Shape := ⟨2, ![800000, 32]⟩
abbrev S800000x1 : Shape := ⟨2, ![800000, 1]⟩
abbrev S800000 : Shape := ⟨1, ![800000]⟩
abbrev S50000x64 : Shape := ⟨2, ![50000, 64]⟩
abbrev S1x64 : Shape := ⟨2, ![1, 64]⟩
abbrev S800000x64 : Shape := ⟨2, ![800000, 64]⟩
abbrev S800000x160 : Shape := ⟨2, ![800000, 160]⟩
abbrev S50000x1 : Shape := ⟨2, ![50000, 1]⟩
abbrev S1x1 : Shape := ⟨2, ![1, 1]⟩
abbrev S50000 : Shape := ⟨1, ![50000]⟩

abbrev nBuf : Space → Nat
  | .hbm => 119
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S400000x32, .f32⟩
  | .hbm, ⟨2, _⟩ => ⟨S2x400000, .i32⟩
  | .hbm, ⟨3, _⟩ => ⟨S128x64, .f32⟩
  | .hbm, ⟨4, _⟩ => ⟨S64, .f32⟩
  | .hbm, ⟨5, _⟩ => ⟨S160x1, .f32⟩
  | .hbm, ⟨6, _⟩ => ⟨S_, .f32⟩
  | .hbm, ⟨7, _⟩ => ⟨S400000x2, .i32⟩
  | .hbm, ⟨8, _⟩ => ⟨S400000x2, .i32⟩
  | .hbm, ⟨9, _⟩ => ⟨S800000x2, .i32⟩
  | .hbm, ⟨10, _⟩ => ⟨S800000x32, .f32⟩
  | .hbm, ⟨11, _⟩ => ⟨S800000x1, .i32⟩
  | .hbm, ⟨12, _⟩ => ⟨S800000, .i32⟩
  | .hbm, ⟨13, _⟩ => ⟨S800000x1, .i32⟩
  | .hbm, ⟨14, _⟩ => ⟨S800000, .i32⟩
  | .hbm, ⟨15, _⟩ => ⟨S50000x64, .f32⟩
  | .hbm, ⟨16, _⟩ => ⟨S1x64, .f32⟩
  | .hbm, ⟨17, _⟩ => ⟨S50000x64, .f32⟩
  | .hbm, ⟨18, _⟩ => ⟨S50000x64, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x64, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x64, .f32⟩
  | .hbm, ⟨37, _⟩ => ⟨S800000x160, .f32⟩
  | .hbm, ⟨38, _⟩ => ⟨S800000x1, .f32⟩
  | .hbm, ⟨39, _⟩ => ⟨S_, .f32⟩
  | .hbm, ⟨40, _⟩ => ⟨S_, .f32⟩
  | .hbm, ⟨41, _⟩ => ⟨S800000x1, .f32⟩
  | .hbm, ⟨42, _⟩ => ⟨S800000x1, .i1⟩
  | .hbm, ⟨43, _⟩ => ⟨S_, .f32⟩
  | .hbm, ⟨44, _⟩ => ⟨S800000x1, .f32⟩
  | .hbm, ⟨45, _⟩ => ⟨S800000x1, .f32⟩
  | .hbm, ⟨46, _⟩ => ⟨S800000x1, .f32⟩
  | .hbm, ⟨47, _⟩ => ⟨S800000x1, .f32⟩
  | .hbm, ⟨48, _⟩ => ⟨S_, .f32⟩
  | .hbm, ⟨49, _⟩ => ⟨S50000x1, .f32⟩
  | .hbm, ⟨50, _⟩ => ⟨S800000x1, .i32⟩
  | .hbm, ⟨51, _⟩ => ⟨S50000x1, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x1, .f32⟩
  | .hbm, ⟨61, _⟩ => ⟨S800000x1, .f32⟩
  | .hbm, ⟨62, _⟩ => ⟨S800000x1, .f32⟩
  | .hbm, ⟨63, _⟩ => ⟨S_, .i32⟩
  | .hbm, ⟨64, _⟩ => ⟨S_, .f32⟩
  | .hbm, ⟨65, _⟩ => ⟨S_, .f32⟩
  | .hbm, ⟨66, _⟩ => ⟨S1x1, .f32⟩
  | .hbm, ⟨67, _⟩ => ⟨S_, .f32⟩
  | .hbm, ⟨68, _⟩ => ⟨S1x1, .f32⟩
  | .hbm, ⟨69, _⟩ => ⟨S1x1, .f32⟩
  | .hbm, ⟨70, _⟩ => ⟨S800000x1, .f32⟩
  | .hbm, ⟨71, _⟩ => ⟨S800000x1, .f32⟩
  | .hbm, ⟨72, _⟩ => ⟨S800000x1, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .i1⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .i32⟩
  | .hbm, ⟨85, _⟩ => ⟨S800000, .i32⟩
  | .hbm, ⟨86, _⟩ => ⟨S800000, .i1⟩
  | .hbm, ⟨87, _⟩ => ⟨S_, .i32⟩
  | .hbm, ⟨88, _⟩ => ⟨S800000, .i32⟩
  | .hbm, ⟨89, _⟩ => ⟨S800000, .i32⟩
  | .hbm, ⟨90, _⟩ => ⟨S800000, .i32⟩
  | .hbm, ⟨91, _⟩ => ⟨S800000x1, .i32⟩
  | .hbm, ⟨92, _⟩ => ⟨S800000x64, .f32⟩
  | .hbm, ⟨93, _⟩ => ⟨S800000x64, .f32⟩
  | .hbm, ⟨94, _⟩ => ⟨S800000x64, .f32⟩
  | .hbm, ⟨95, _⟩ => ⟨S_, .f32⟩
  | .hbm, ⟨96, _⟩ => ⟨S50000x64, .f32⟩
  | .hbm, ⟨97, _⟩ => ⟨S800000x1, .i32⟩
  | .hbm, ⟨98, _⟩ => ⟨S50000x64, .f32⟩
  | .hbm, ⟨99, _⟩ => ⟨S50000x64, .f32⟩
  | .hbm, ⟨100, _⟩ => ⟨S_, .f32⟩
  | .hbm, ⟨101, _⟩ => ⟨S50000, .f32⟩
  | .hbm, ⟨102, _⟩ => ⟨S50000x1, .f32⟩
  | .hbm, ⟨103, _⟩ => ⟨S50000x1, .f32⟩
  | .hbm, ⟨104, _⟩ => ⟨S_, .f32⟩
  | .hbm, ⟨105, _⟩ => ⟨S50000x1, .f32⟩
  | .hbm, ⟨106, _⟩ => ⟨S50000x1, .f32⟩
  | .hbm, ⟨107, _⟩ => ⟨S50000x64, .f32⟩
  | .hbm, ⟨108, _⟩ => ⟨S50000x64, .f32⟩
  | .hbm, ⟨109, _⟩ => ⟨S50000x64, .f32⟩
  | .hbm, ⟨110, _⟩ => ⟨S_, .f32⟩
  | .hbm, ⟨111, _⟩ => ⟨S50000, .f32⟩
  | .hbm, ⟨112, _⟩ => ⟨S50000x1, .f32⟩
  | .hbm, ⟨113, _⟩ => ⟨S50000x1, .f32⟩
  | .hbm, ⟨114, _⟩ => ⟨S50000x64, .f32⟩
  | .hbm, ⟨115, _⟩ => ⟨S50000x64, .f32⟩
  | .hbm, ⟨116, _⟩ => ⟨S50000x64, .f32⟩
  | .hbm, ⟨117, _⟩ => ⟨S50000x64, .f32⟩
  | .hbm, ⟨118, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_1 : Ref sig .tc := ⟨.hbm, 28, rfl⟩
abbrev main_v19 : Ref sig .tc := ⟨.hbm, 29, rfl⟩
abbrev main_v20 : Ref sig .tc := ⟨.hbm, 30, rfl⟩
abbrev main_c_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst : Ref sig .tc := ⟨.hbm, 39, rfl⟩
abbrev main_call0_cst : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_4 : Ref sig .tc := ⟨.hbm, 52, rfl⟩
abbrev main_v33 : Ref sig .tc := ⟨.hbm, 53, rfl⟩
abbrev main_v34 : Ref sig .tc := ⟨.hbm, 54, rfl⟩
abbrev main_c_5 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_6 : Ref sig .tc := ⟨.hbm, 63, rfl⟩
abbrev main_call1_cst : Ref sig .tc := ⟨.hbm, 64, rfl⟩
abbrev main_call1_v0 : Ref sig .tc := ⟨.hbm, 65, rfl⟩
abbrev main_call1_v1 : Ref sig .tc := ⟨.hbm, 66, rfl⟩
abbrev main_call1_cst_0 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_v6 : Ref sig .tc := ⟨.hbm, 72, rfl⟩
abbrev main_call1_v7 : Ref sig .tc := ⟨.hbm, 73, rfl⟩
abbrev main_call1_cst_1 : Ref sig .tc := ⟨.hbm, 74, rfl⟩
abbrev main_call1_v8 : Ref sig .tc := ⟨.hbm, 75, rfl⟩
abbrev main_call1_cst_2 : Ref sig .tc := ⟨.hbm, 76, rfl⟩
abbrev main_call1_v9 : Ref sig .tc := ⟨.hbm, 77, rfl⟩
abbrev main_call1_v10 : Ref sig .tc := ⟨.hbm, 78, rfl⟩
abbrev main_call1_cst_3 : Ref sig .tc := ⟨.hbm, 79, rfl⟩
abbrev main_call1_v11 : Ref sig .tc := ⟨.hbm, 80, rfl⟩
abbrev main_call1_cst_4 : Ref sig .tc := ⟨.hbm, 81, rfl⟩
abbrev main_call1_call0_v0 : Ref sig .tc := ⟨.hbm, 82, rfl⟩
abbrev main_v42 : Ref sig .tc := ⟨.hbm, 83, rfl⟩
abbrev main_c_7 : Ref sig .tc := ⟨.hbm, 84, rfl⟩
abbrev main_v43 : Ref sig .tc := ⟨.hbm, 85, rfl⟩
abbrev main_v44 : Ref sig .tc := ⟨.hbm, 86, rfl⟩
abbrev main_c_8 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_cst_9 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_call2_v0 : Ref sig .tc := ⟨.hbm, 99, rfl⟩
abbrev main_call2_cst : Ref sig .tc := ⟨.hbm, 100, rfl⟩
abbrev main_call2_v1 : Ref sig .tc := ⟨.hbm, 101, rfl⟩
abbrev main_call2_v2 : Ref sig .tc := ⟨.hbm, 102, rfl⟩
abbrev main_v55 : Ref sig .tc := ⟨.hbm, 103, rfl⟩
abbrev main_cst_10 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_call3_v0 : Ref sig .tc := ⟨.hbm, 109, rfl⟩
abbrev main_call3_cst : Ref sig .tc := ⟨.hbm, 110, rfl⟩
abbrev main_call3_v1 : Ref sig .tc := ⟨.hbm, 111, rfl⟩
abbrev main_call3_v2 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩

abbrev nD : Nat := 1
abbrev τ : Topo := Topo.v7x

variable {F : FTy → Type} [FloatOps F]

class Facts₀ : Prop where
  shapeCasts_S2x400000_S400000x2 : S2x400000.ShapeCasts S400000x2
  concatenates_S400000x2_S400000x2_S800000x2_d0 : Shape.Concatenates [S400000x2, S400000x2] S800000x2 0
  concatenates_S400000x32_S400000x32_S800000x32_d0 : Shape.Concatenates [S400000x32, S400000x32] S800000x32 0
  slices_S800000x2_S800000x1_0_0 : S800000x2.Slices ![0, 0] S800000x1
  shapeCasts_S800000x1_S800000 : S800000x1.ShapeCasts S800000
  slices_S800000x2_S800000x1_0_1 : S800000x2.Slices ![0, 1] S800000x1
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x32_S800000x160_d1 : Shape.Concatenates [S800000x64, S800000x64, S800000x32] S800000x160 1
  bcast_S_S800000x1 : S_.BroadcastsInDim S800000x1 (![] : Fin 0 → Fin S800000x1.rank)
  bcast_S_S50000x1 : S_.BroadcastsInDim S50000x1 (![] : Fin 0 → Fin S50000x1.rank)
  reducesTo_S800000x1_S_d0_1 : S800000x1.ReducesTo [0, 1] S_
  h_S_ : 0 < S_.numel
  bcast_S_S1x1 : S_.BroadcastsInDim S1x1 (![] : Fin 0 → Fin S1x1.rank)
  bcast_S1x1_S800000x1_0_1 : S1x1.BroadcastsInDim S800000x1 (![0, 1] : Fin 2 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  reducesTo_S50000x64_S50000_d1 : S50000x64.ReducesTo [1] S50000
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  concatenates_S50000x64_S50000x64_S50000x128_d1 : Shape.Concatenates [S50000x64, S50000x64] S50000x128 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  dot_S800000x160_S160x1_S800000x1_1_0_0_1_n_n_wf : DotDims.WF S800000x160 S160x1 S800000x1 [1] [0] [0] [1] [] []
  scatter_S50000x1_S800000x1_S800000x1_1_0_0_1_wf : ScatterDims.WF S50000x1 S800000x1 S800000x1 [1] [0] [0] 1
  gather_S50000x1_S800000x1_S800000x1_1_0_n_n_0_1_11_wf : GatherDims.WF S50000x1 S800000x1 S800000x1 [1] [0] [] [0] [] 1 ![1, 1]
  scatter_S50000x64_S800000x1_S800000x64_1_0_0_1_wf : ScatterDims.WF S50000x64 S800000x1 S800000x64 [1] [0] [0] 1

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x160_S160x1_S800000x1_1_0_0_1_n_n : DotDims S800000x160 S160x1 S800000x1 where
  lhsContracting := [1]
  rhsContracting := [0]
  lhsNonContracting := [0]
  rhsNonContracting := [1]
  lhsBatch := []
  rhsBatch := []
  wf := dot_S800000x160_S160x1_S800000x1_1_0_0_1_n_n_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KernelRun.lean ====
/-
  The idealized kernel's run with its two results named.

  The program is four kernel regions among five stretches of host operations.  Its run is the launch over those
  segments; the contents of every device buffer at each segment boundary is the fold `W0 … W9` (a stretch: its
  operations applied in order; a region: its arrays at what the write-backs of all grid points leave, every other
  buffer as the region found it).  Every weakly fair execution terminates without a fault with every unscoped
  buffer at `W9`; read at the two result buffers and at the seven arguments this is the statement below.
-/
import proofs.«156379_j75642964017820_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the two result buffers at the last
    boundary's contents `W9` and the arguments as launched. -/
theorem run_values : θ_run defs (onTc (τ := τ) (main (F := F))) ⟨m, fun _ => 0, ρ⟩ (fun r => ∀ c : Dev nD,
      r.2.mem ((c.tc : Thread nD τ).loc main_v49) = W9 m ρ c (Proc.devRef .tc main_v49)
      ∧ r.2.mem ((c.tc : Thread nD τ).loc main_v43) = W9 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v49 (by decide)),
       h c _ (mem_uc main_v43 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.KernelIdeal.ValueRun

end
-- ==== Proof.Stages.lean ====
/-
  The reference program's mathematics as named stages.

  Each definition below is a run of consecutive operations of the reference's `main`, composed as one pure
  function of the values it reads, in the reference's own spelling:

    * `src`, `dst`      : the two columns of the undirected edge list `[e ; reverse e]` (800000 entries each);
    * `wrap`            : a node index with a negative value shifted by the node count, laid down a column
                          (what a gather by that index reads its start indices from);
    * `col`             : a node index laid down a column unshifted (what a scatter reads);
    * `efu`             : the edge features repeated for the two directions;
    * `hv`              : the node projection `x W + b`;
    * `logitsOf`, `logits`: the 160-wide contraction of `[h[src] | h[dst] | ef]` with the attention vector;
    * `leaky`, `att`    : `exp (leaky_relu s)`;
    * `attNormOf`, `attNorm` : `log (att / (segment_sum att src)[src])`;
    * `variance`        : the unbiased variance of all 800000 entries;
    * `contribOf`, `contrib`, `msgOf`, `msg` : `h[dst] * attNorm` and its segment sum over `src`;
    * `rowNorm`, `embed`: the Euclidean norm of each row, and
                          `[h | msg / max (‖msg‖, ε) * ‖h‖ * scale]`.

  The reference's two results are `embed (msg …) (hv …) scale` and `variance (attNorm …)`.
-/
import proofs.«156379_j75642964017820_2_alg».proof.ReferenceIdeal

noncomputable section

namespace Cert.ReferenceIdeal.Stages

open Cert.ReferenceIdeal Idealize.ShloMosaic Idealize.SL.Sem
open Facts₀ Facts

variable {F : FTy → Type} [FloatOps F] [Facts]

/-- The contents of a tensor value of shape `s` and element type `e`. -/
abbrev Ten (F : FTy → Type) (s : Shape) (e : EltTy) : Type := (⟨s, e⟩ : BufTy).Contents (Elt F)

/-- The undirected edge list `[e ; reverse e]`, 800000 pairs. -/
def pairs (e : Ten F S2x400000 .i32) : Ten F S800000x2 .i32 :=
  concatenate S800000x2 0
    [⟨S400000x2, shapeCast S400000x2 e shapeCasts_S2x400000_S400000x2⟩,
     ⟨S400000x2, Host.reverse [1] (shapeCast S400000x2 e shapeCasts_S2x400000_S400000x2)⟩]
    concatenates_S400000x2_S400000x2_S800000x2_d0

/-- The source node of each directed edge. -/
def src (e : Ten F S2x400000 .i32) : Ten F S800000 .i32 :=
  shapeCast S800000 (extractStridedSlice S800000x1 ![0, 0] (pairs e) slices_S800000x2_S800000x1_0_0) shapeCasts_S800000x1_S800000

/-- The destination node of each directed edge. -/
def dst (e : Ten F S2x400000 .i32) : Ten F S800000 .i32 :=
  shapeCast S800000 (extractStridedSlice S800000x1 ![0, 1] (pairs e) slices_S800000x2_S800000x1_0_1) shapeCasts_S800000x1_S800000

/-- A node index with negative values shifted by the node count 50000, down a column. -/
def wrap (s : Ten F S800000 .i32) : Ten F S800000x1 .i32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- A node index down a column, as a scatter reads it. -/
def col (s : Ten F S800000 .i32) : Ten F S800000x1 .i32 :=
  broadcastInDim S800000x1 ![0] bcast_S800000_S800000x1_0 s

/-- The edge features, once per direction. -/
def efu (ef : Ten F S400000x32 .f32) : Ten F S800000x32 .f32 :=
  concatenate S800000x32 0 [⟨S400000x32, ef⟩, ⟨S400000x32, ef⟩] concatenates_S400000x32_S400000x32_S800000x32_d0

/-- The node projection `x W + b`. -/
def hv (x : Ten F S50000x128 .f32) (W : Ten F S128x64 .f32) (b : Ten F S64 .f32) : Ten F S50000x64 .f32 :=
  addf (Host.dotGeneral dot_S50000x128_S128x64_S50000x64_1_0_0_1_n_n none x W)
    (broadcastInDim S50000x64 ![0, 1] bcast_S1x64_S50000x64_0_1 (broadcastInDim S1x64 ![1] bcast_S64_S1x64_1 b))

/-- Rows of `h` gathered at a column of node indices. -/
def rows (h : Ten F S50000x64 .f32) (i : Ten F S800000x1 .i32) : Ten F S800000x64 .f32 :=
  Host.gather gather_S50000x64_S800000x1_S800000x64_1_0_n_n_0_1_164 h i

/-- The 160-wide contraction of the rows `[hs | hd | f]` with the attention vector. -/
def logitsOf (hs hd : Ten F S800000x64 .f32) (f : Ten F S800000x32 .f32) (a : Ten F S160x1 .f32) : Ten F S800000x1 .f32 :=
  Host.dotGeneral dot_S800000x160_S160x1_S800000x1_1_0_0_1_n_n none
    (concatenate S800000x160 1 [⟨S800000x64, hs⟩, ⟨S800000x64, hd⟩, ⟨S800000x32, f⟩]
      concatenates_S800000x64_S800000x64_S800000x32_S800000x160_d1) a

/-- The attention logit of each directed edge: `[h[src] | h[dst] | ef] · a`. -/
def logits (h : Ten F S50000x64 .f32) (e : Ten F S2x400000 .i32) (ef : Ten F S400000x32 .f32) (a : Ten F S160x1 .f32) :
    Ten F S800000x1 .f32 :=
  logitsOf (rows h (wrap (src e))) (rows h (wrap (dst e))) (efu ef) a

/-- `leaky_relu` with slope 0.2 (the word `0x3E4CCCCD`). -/
def leaky (s : Ten F S800000x1 .f32) : Ten F S800000x1 .f32 :=
  select (cmpf .oge s (broadcastInDim S800000x1 ![] bcast_S_S800000x1 (constant S_ .f32 0x00000000#32))) s
    (mulf (broadcastInDim S800000x1 ![] bcast_S_S800000x1 (id (constant S_ .f32 0x3E4CCCCD#32))) s)

/-- The unnormalised attention weight `exp (leaky_relu s)`. -/
def att (s : Ten F S800000x1 .f32) : Ten F S800000x1 .f32 := Host.exp (leaky s)

/-- `log (w / (segment_sum w s)[s])` for a source-node vector `s`. -/
def attNormOf (w : Ten F S800000x1 .f32) (s : Ten F S800000 .i32) : Ten F S800000x1 .f32 :=
  Host.log (Host.divf w
    (Host.gather gather_S50000x1_S800000x1_S800000x1_1_0_n_n_0_1_11
      (Host.scatterAdd scatter_S50000x1_S800000x1_S800000x1_1_0_0_1
        (broadcastInDim S50000x1 ![] bcast_S_S50000x1 (constant S_ .f32 0x00000000#32)) (col s) w)
      (wrap s)))

/-- `log (att / (segment_sum att src)[src])`. -/
def attNorm (w : Ten F S800000x1 .f32) (e : Ten F S2x400000 .i32) : Ten F S800000x1 .f32 := attNormOf w (src e)

/-- The unbiased variance of all 800000 entries (`jnp.var` with one degree of freedom removed). -/
def variance (z : Ten F S800000x1 .f32) : Ten F S_ .f32 :=
  let mean : Ten F S1x1 .f32 :=
    Host.divf (broadcastInDim S1x1 ![] bcast_S_S1x1 (Host.reduceAdd z (constant S_ .f32 0x00000000#32) reducesTo_S800000x1_S_d0_1 h_S_))
      (broadcastInDim S1x1 ![] bcast_S_S1x1 (constant S_ .f32 0x49435000#32))
  let dev : Ten F S800000x1 .f32 := subf z (broadcastInDim S800000x1 ![0, 1] bcast_S1x1_S800000x1_0_1 mean)
  let dof : Ten F S_ .f32 := subf (constant S_ .f32 0x49435000#32) (sitofp .f32 (constantI S_ 32 1#32))
  select (cmpf .ogt dof (constant S_ .f32 0x00000000#32))
    (Host.divf (Host.reduceAdd (mulf dev dev) (constant S_ .f32 0x00000000#32) reducesTo_S800000x1_S_d0_1 h_S_) dof)
    (id (constant S_ .f32 0x7FC00000#32))

/-- Rows scaled by a column: `hd * z`, the column repeated along each row. -/
def contribOf (hd : Ten F S800000x64 .f32) (z : Ten F S800000x1 .f32) : Ten F S800000x64 .f32 :=
  mulf hd (broadcastInDim S800000x64 ![0, 1] bcast_S800000x1_S800000x64_0_1 z)

/-- The message each directed edge carries: `h[dst] * attNorm`. -/
def contrib (h : Ten F S50000x64 .f32) (z : Ten F S800000x1 .f32) (e : Ten F S2x400000 .i32) : Ten F S800000x64 .f32 :=
  contribOf (rows h (wrap (dst e))) z

/-- Rows summed into the nodes a source-node vector `s` names. -/
def msgOf (u : Ten F S800000x64 .f32) (s : Ten F S800000 .i32) : Ten F S50000x64 .f32 :=
  Host.scatterAdd scatter_S50000x64_S800000x1_S800000x64_1_0_0_1
    (broadcastInDim S50000x64 ![] bcast_S_S50000x64 (constant S_ .f32 0x00000000#32)) (col s) u

/-- The messages summed into their source nodes. -/
def msg (u : Ten F S800000x64 .f32) (e : Ten F S2x400000 .i32) : Ten F S50000x64 .f32 := msgOf u (src e)

/-- The Euclidean norm of each row, down a column. -/
def rowNorm (y : Ten F S50000x64 .f32) : Ten F S50000x1 .f32 :=
  Host.sqrt (broadcastInDim S50000x1 ![0] bcast_S50000_S50000x1_0
    (Host.reduceAdd (mulf y y) (constant S_ .f32 0x00000000#32) reducesTo_S50000x64_S50000_d1 h_S_))

/-- `[h | msg / max (‖msg‖, ε) * ‖h‖ * scale]`, ε the word `0x2B8CBCCC`. -/
def embed (g : Ten F S50000x64 .f32) (h : Ten F S50000x64 .f32) (scale : Ten F S_ .f32) : Ten F S50000x128 .f32 :=
  concatenate S50000x128 1
    [⟨S50000x64, h⟩,
     ⟨S50000x64,
       mulf
         (mulf
           (Host.divf g (broadcastInDim S50000x64 ![0, 1] bcast_S50000x1_S50000x64_0_1
             (maximumf (rowNorm g) (broadcastInDim S50000x1 ![] bcast_S_S50000x1 (constant S_ .f32 0x2B8CBCCC#32)))))
           (broadcastInDim S50000x64 ![0, 1] bcast_S50000x1_S50000x64_0_1 (rowNorm h)))
         (broadcastInDim S50000x64 ![] bcast_S_S50000x64 scale)⟩]
    concatenates_S50000x64_S50000x64_S50000x128_d1

/-- The reference's first result as a function of its arguments. -/
def result0 (x : Ten F S50000x128 .f32) (ef : Ten F S400000x32 .f32) (e : Ten F S2x400000 .i32) (W : Ten F S128x64 .f32)
    (b : Ten F S64 .f32) (a : Ten F S160x1 .f32) (scale : Ten F S_ .f32) : Ten F S50000x128 .f32 :=
  embed (msg (contrib (hv x W b) (attNorm (att (logits (hv x W b) e ef a)) e) e) e) (hv x W b) scale

/-- The reference's second result as a function of its arguments. -/
def result1 (x : Ten F S50000x128 .f32) (ef : Ten F S400000x32 .f32) (e : Ten F S2x400000 .i32) (W : Ten F S128x64 .f32)
    (b : Ten F S64 .f32) (a : Ten F S160x1 .f32) : Ten F S_ .f32 :=
  variance (attNorm (att (logits (hv x W b) e ef a)) e)

end Cert.ReferenceIdeal.Stages

end
-- ==== Proof.HostStretches.lean ====
/-
  The idealized kernel's five stretches of host operations, read at the buffers later segments consume.

  Each statement is for an arbitrary contents `V` of the device buffers before the stretch: after the stretch's
  operations, applied in order, the named buffer holds the stated function of the buffers the stretch reads.  The
  functions are the reference program's stages (the two programs spell these operations identically):
  the bias laid out as one row; the source and destination node of each directed edge, the gathered rows, the
  repeated edge features and the three pieces of the attention vector laid out as rows; the normalised log
  attention and its variance; the messages summed into their source nodes and the scale as a 1×1 matrix.
  A buffer no operation of a stretch writes keeps its contents.
-/
import proofs.«156379_j75642964017820_2_alg».proof.Proof.Gen.KernelIdeal.Launch
import proofs.«156379_j75642964017820_2_alg».proof.Proof.Stages
import Idealize.ShloMosaic.Lib.StableHlo.Run

set_option maxRecDepth 16384

noncomputable section

namespace Cert.KernelIdeal.Stretches

open Cert.KernelIdeal Cert.KernelIdeal.Gen
open Idealize.ShloMosaic Idealize.ShloMosaic.TcCoe Idealize.SL.Sem Idealize.ShloMosaic.StableHlo
open Cert.ReferenceIdeal.Stages

variable {F : FTy → Type} [FloatOps F] [Cert.ReferenceIdeal.Facts]
variable (V : Valuation τ sig (Elt F))

attribute [local irreducible] Host.gather Host.scatterAdd Host.reverse Host.reduceAdd

/-! ## Before the projection kernel -/

theorem bias_row : after hostOps0 V (Proc.devRef .tc main_v0)
    = fun i => shapeCast S1x64 (V (Proc.devRef .tc main_arg4)) Facts₀.shapeCasts_S64_S1x64 i := by
  after_results_simp
  rfl
theorem keep0_arg0 : after hostOps0 V (Proc.devRef .tc main_arg0) = V (Proc.devRef .tc main_arg0) := by after_results
theorem keep0_arg3 : after hostOps0 V (Proc.devRef .tc main_arg3) = V (Proc.devRef .tc main_arg3) := by after_results
theorem keep0_arg1 : after hostOps0 V (Proc.devRef .tc main_arg1) = V (Proc.devRef .tc main_arg1) := by after_results
theorem keep0_arg2 : after hostOps0 V (Proc.devRef .tc main_arg2) = V (Proc.devRef .tc main_arg2) := by after_results
theorem keep0_arg5 : after hostOps0 V (Proc.devRef .tc main_arg5) = V (Proc.devRef .tc main_arg5) := by after_results
theorem keep0_arg6 : after hostOps0 V (Proc.devRef .tc main_arg6) = V (Proc.devRef .tc main_arg6) := by after_results

/-! ## Between the projection and the attention kernel -/

theorem src_buf : after hostOps1 V (Proc.devRef .tc main_v7) = src (V (Proc.devRef .tc main_arg2)) := by
  after_results_simp
  rfl
set_option maxHeartbeats 2000000 in
theorem hsrc_buf : after hostOps1 V (Proc.devRef .tc main_v16)
    = rows (V (Proc.devRef .tc main_v1)) (wrap (src (V (Proc.devRef .tc main_arg2)))) := by
  after_results_simp
  rfl
set_option maxHeartbeats 2000000 in
theorem hdst_buf : after hostOps1 V (Proc.devRef .tc main_v23)
    = rows (V (Proc.devRef .tc main_v1)) (wrap (dst (V (Proc.devRef .tc main_arg2)))) := by
  after_results_simp
  rfl
theorem efu_buf : after hostOps1 V (Proc.devRef .tc main_v5) = efu (V (Proc.devRef .tc main_arg1)) := by
  after_results_simp
  rfl
set_option maxHeartbeats 2000000 in
theorem a1_buf : after hostOps1 V (Proc.devRef .tc main_v25)
    = fun i => shapeCast S1x64 (extractStridedSlice S64x1 ![0, 0] (V (Proc.devRef .tc main_arg5)) Facts₀.slices_S160x1_S64x1_0_0) Facts₀.shapeCasts_S64x1_S1x64 i := by
  after_results_simp
  rfl
set_option maxHeartbeats 2000000 in
theorem a2_buf : after hostOps1 V (Proc.devRef .tc main_v27)
    = fun i => shapeCast S1x64 (extractStridedSlice S64x1 ![64, 0] (V (Proc.devRef .tc main_arg5)) Facts₀.slices_S160x1_S64x1_64_0) Facts₀.shapeCasts_S64x1_S1x64 i := by
  after_results_simp
  rfl
set_option maxHeartbeats 2000000 in
theorem a3_buf : after hostOps1 V (Proc.devRef .tc main_v29)
    = fun i => shapeCast S1x32 (extractStridedSlice S32x1 ![128, 0] (V (Proc.devRef .tc main_arg5)) Facts₀.slices_S160x1_S32x1_128_0) Facts₀.shapeCasts_S32x1_S1x32 i := by
  after_results_simp
  rfl
theorem keep1_v1 : after hostOps1 V (Proc.devRef .tc main_v1) = V (Proc.devRef .tc main_v1) := by after_results
theorem keep1_arg2 : after hostOps1 V (Proc.devRef .tc main_arg2) = V (Proc.devRef .tc main_arg2) := by after_results
theorem keep1_arg5 : after hostOps1 V (Proc.devRef .tc main_arg5) = V (Proc.devRef .tc main_arg5) := by after_results
theorem keep1_arg6 : after hostOps1 V (Proc.devRef .tc main_arg6) = V (Proc.devRef .tc main_arg6) := by after_results

/-! ## Between the attention and the message kernel -/

set_option maxHeartbeats 2000000 in
theorem attNorm_buf : after hostOps2_1 (after hostOps2 V) (Proc.devRef .tc main_v42)
    = attNormOf (V (Proc.devRef .tc main_v30)) (V (Proc.devRef .tc main_v7)) := by
  after_results_simp
  rfl
set_option maxHeartbeats 2000000 in
theorem variance_buf : after hostOps2_1 (after hostOps2 V) (Proc.devRef .tc main_v43)
    = variance (attNormOf (V (Proc.devRef .tc main_v30)) (V (Proc.devRef .tc main_v7))) := by
  after_results_simp
  rfl
theorem keep2_v23 : after hostOps2_1 (after hostOps2 V) (Proc.devRef .tc main_v23) = V (Proc.devRef .tc main_v23) := by after_results
theorem keep2_v7 : after hostOps2_1 (after hostOps2 V) (Proc.devRef .tc main_v7) = V (Proc.devRef .tc main_v7) := by after_results
theorem keep2_v1 : after hostOps2_1 (after hostOps2 V) (Proc.devRef .tc main_v1) = V (Proc.devRef .tc main_v1) := by after_results
theorem keep2_arg6 : after hostOps2_1 (after hostOps2 V) (Proc.devRef .tc main_arg6) = V (Proc.devRef .tc main_arg6) := by after_results

/-! ## Between the message and the last kernel -/

theorem msg_buf : after hostOps3 V (Proc.devRef .tc main_v47)
    = msgOf (V (Proc.devRef .tc main_v44)) (V (Proc.devRef .tc main_v7)) := by
  after_results_simp
  rfl
theorem scale_buf : after hostOps3 V (Proc.devRef .tc main_v48)
    = fun i => shapeCast S1x1 (V (Proc.devRef .tc main_arg6)) Facts₀.shapeCasts_S_S1x1 i := by
  after_results_simp
  rfl
theorem keep3_v1 : after hostOps3 V (Proc.devRef .tc main_v1) = V (Proc.devRef .tc main_v1) := by after_results
theorem keep3_v43 : after hostOps3 V (Proc.devRef .tc main_v43) = V (Proc.devRef .tc main_v43) := by after_results

end Cert.KernelIdeal.Stretches

end
-- ==== Proof.LibPlainMatmul.lean ====
/-
  A plain two-dimensional matrix product into a zero accumulator, read at a row and a column.

  For dimension numbers that contract the left operand's columns with the right operand's rows, with no batch axis,
  entry `(r, c)` of the product of an `[M, K]` matrix and a `[K, N]` matrix accumulated into zero is the sum over
  `k` of `lhs (r, k) * rhs (k, c)` on the extended reals: the accumulator contributes `0`, and the contraction
  index, a rank-one index, is re-indexed by its one coordinate. Stated for any extents and float formats, with the
  dimension numbers given by their six lists, so that any printed record with these lists unifies.
-/
import Idealize.ShloMosaic.PureOps.Ideal.Laws
import Idealize.ShloMosaic.Lib.ValueIdx

namespace Cert.Lib.PlainMatmul

open Idealize.ShloMosaic Idealize.ShloMosaic.ValueIdx

set_option backward.isDefEq.respectTransparency.types false in
/-- The product of `[M, K]` by `[K, N]` into the zero splat, at `(r, c)`: `∑ k, lhs (r, k) * rhs (k, c)`. -/
theorem matmul_zero_apply {M K N : ℕ} {φ₁ φ₂ : FTy}
    (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (c : Fin N) :
    FloatOps.matmul d prec lhs rhs (constant ⟨2, ![M, N]⟩ .f32 0x00000000#32) (ix2 r c)
      = ∑ k : Fin K, lhs (ix2 r k) * rhs (ix2 k c) := by
  obtain ⟨lc, rc, ln, rn, lb, rb, wf⟩ := d
  dsimp only at hlc hrc hln hrn hlb hrb
  subst hlc hrc hln hrn hlb hrb
  rw [Ideal.matmul_constant_zero_apply]
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 r c)
      ((contrEquiv1 (⟨[1], [0], [0], [1], [], [], wf⟩ : DotDims ⟨2, ![M, K]⟩ ⟨2, ![K, N]⟩ ⟨2, ![M, N]⟩) K rfl rfl).symm k) = ix2 r k :=
    funext fun a => Fin.ext (by
      match a with
      | ⟨0, h0⟩ =>
        unfold DotDims.lhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 r c)
      ((contrEquiv1 (⟨[1], [0], [0], [1], [], [], wf⟩ : DotDims ⟨2, ![M, K]⟩ ⟨2, ![K, N]⟩ ⟨2, ![M, N]⟩) K rfl rfl).symm k) = ix2 k c :=
    funext fun a => Fin.ext (by
      match a with
      | ⟨0, _⟩ => exact (DotDims.rhsIdx_val_of_single _ rfl _ _).trans hk
      | ⟨1, h1⟩ =>
        unfold DotDims.rhsIdx
        rw [dif_neg (show ¬ (⟨1, h1⟩ : Fin 2) ∈ ([] : List (Fin 2)) from List.not_mem_nil),
          dif_pos (show (⟨1, h1⟩ : Fin 2) ∈ [(1 : Fin 2)] from List.mem_singleton.mpr rfl)]
        rfl)
  rw [el, er]

end Cert.Lib.PlainMatmul
-- ==== Proof.LibPlainDotGeneral.lean ====
/-
  A plain two-dimensional matrix product computed on the host, read at a row and a column.

  For dimension numbers that contract the left operand's columns with the right operand's rows, with no batch axis,
  entry `(r, c)` of the `dot_general` of an `[M, K]` matrix and a `[K, N]` matrix is, on the extended reals, the sum
  over `k` of `lhs (r, k) * rhs (k, c)`, whatever the precision and schedule keys: the contraction index, a rank-one
  index, is re-indexed by its one coordinate. Stated for any extents and float formats, with the dimension numbers
  given by their six lists, so that any printed record with these lists unifies. The counterpart, for the host's
  product, of the same reading of a kernel's matrix unit into a zero accumulator.
-/
import Idealize.ShloMosaic.PureOps.Ideal.Laws
import Idealize.ShloMosaic.Lib.ValueIdx

namespace Cert.Lib.PlainDotGeneral

open Idealize.ShloMosaic Idealize.ShloMosaic.ValueIdx

set_option backward.isDefEq.respectTransparency.types false in
/-- The host product of `[M, K]` by `[K, N]`, at `(r, c)`: `∑ k, lhs (r, k) * rhs (k, c)`. -/
theorem dotGeneral_apply {M K N : ℕ} {φ₁ φ₂ : FTy}
    (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (lhs : FVec Ideal ⟨2, ![M, K]⟩ φ₁) (rhs : FVec Ideal ⟨2, ![K, N]⟩ φ₂)
    (r : Fin M) (c : Fin N) :
    FloatOps.dotGeneral d prec sched lhs rhs (ix2 r c) = ∑ k : Fin K, lhs (ix2 r k) * rhs (ix2 k c) := by
  obtain ⟨lc, rc, ln, rn, lb, rb, wf⟩ := d
  dsimp only at hlc hrc hln hrn hlb hrb
  subst hlc hrc hln hrn hlb hrb
  rw [Ideal.dotGeneral_apply]
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 r c)
      ((contrEquiv1 (⟨[1], [0], [0], [1], [], [], wf⟩ : DotDims ⟨2, ![M, K]⟩ ⟨2, ![K, N]⟩ ⟨2, ![M, N]⟩) K rfl rfl).symm k) = ix2 r k :=
    funext fun a => Fin.ext (by
      match a with
      | ⟨0, h0⟩ =>
        unfold DotDims.lhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 r c)
      ((contrEquiv1 (⟨[1], [0], [0], [1], [], [], wf⟩ : DotDims ⟨2, ![M, K]⟩ ⟨2, ![K, N]⟩ ⟨2, ![M, N]⟩) K rfl rfl).symm k) = ix2 k c :=
    funext fun a => Fin.ext (by
      match a with
      | ⟨0, _⟩ => exact (DotDims.rhsIdx_val_of_single _ rfl _ _).trans hk
      | ⟨1, h1⟩ =>
        unfold DotDims.rhsIdx
        rw [dif_neg (show ¬ (⟨1, h1⟩ : Fin 2) ∈ ([] : List (Fin 2)) from List.not_mem_nil),
          dif_pos (show (⟨1, h1⟩ : Fin 2) ∈ [(1 : Fin 2)] from List.mem_singleton.mpr rfl)]
        rfl)
  rw [el, er]

end Cert.Lib.PlainDotGeneral
-- ==== Proof.LibColumnLayout.lean ====
/-
  COLUMN FORMS OF THE LAYOUT OPERATIONS, READ AT AN INDEX GIVEN BY COORDINATES. A sum over the last axis kept as a
  column (`keepdims`) is a vector `[a]` cast to `[a, 1]` and then broadcast along the new unit axis to `[a, b]`:
  at `(i, j)` both read the vector at `i`. The two lemmas below say so for indices written `ix1` / `ix2`, for any
  element type and any extents; they are the column counterparts of the row forms `shapeCast_a_1a_apply` and
  `broadcastTo_1b_ab_apply`.
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- An `[a]` array cast to the column `[a, 1]` reads, at `(i, u)`, the operand at `i`, whatever the unit coordinate
    `u`: the two row-major positions are `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry in row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ColumnLayout
-- ==== Proof.LibHostColumns.lean ====
/-
  The host's keepdims layouts read at coordinates, for any element type and extents: a vector [a] laid down a
  column [a, 1] (broadcast_in_dim with dims = [0]) reads the vector at the row; a column [a, 1] repeated along the row
  into [a, b] (dims = [0, 1]) reads the column at the row.
-/
import Idealize.ShloMosaic.Lib.Pipeline.Value
import Idealize.ShloMosaic.Lib.ValueIdx

namespace Cert.Lib.HostColumns

open Idealize.ShloMosaic Idealize.ShloMosaic.ValueIdx

variable {α : Type}

/-- A vector laid down a column reads the vector at the row. -/
theorem bcast_a_a1_apply {a : ℕ} (h : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] h x (ix2 i u) = x (ix1 i) :=
  broadcastInDim_apply ![0] h x (ix2 i u) (ix1 i) (fun k => by
    match k with
    | ⟨0, _⟩ =>
      show i.val = if a = 1 then 0 else i.val
      split_ifs with h1
      · have := i.isLt; omega
      · rfl)

/-- A column repeated along the row reads the column at the row. -/
theorem bcast_a1_ab_apply {a b : ℕ} (h : (⟨2, ![a, 1]⟩ : Shape).BroadcastsInDim ⟨2, ![a, b]⟩ ![0, 1])
    (x : (⟨2, ![a, 1]⟩ : Shape).Idx → α) (i : Fin a) (j : Fin b) :
    broadcastInDim ⟨2, ![a, b]⟩ ![0, 1] h x (ix2 i j) = x (ix2 i (0 : Fin 1)) :=
  broadcastInDim_apply ![0, 1] h x (ix2 i j) (ix2 i (0 : Fin 1)) (fun k => by
    match k with
    | ⟨0, _⟩ =>
      show i.val = if a = 1 then 0 else i.val
      split_ifs with h1
      · have := i.isLt; omega
      · rfl
    | ⟨1, _⟩ =>
      show (0 : ℕ) = if (1 : ℕ) = 1 then 0 else j.val
      rfl)

end Cert.Lib.HostColumns
-- ==== Proof.LibHostRows.lean ====
/-
  The host's two bias-row broadcasts read at coordinates, for any element type and any extents.

  A host program adds a bias vector to every row of a matrix in two steps: the vector `[b]` is laid along a new
  leading unit axis (`broadcast_in_dim`, dims = [1], into `[1, b]`), and that unit row is repeated down the rows
  (`broadcast_in_dim`, dims = [0, 1], into `[a, b]`).  Read at `(u, c)` the first is the vector at `c`; read at
  `(p, c)` the second is the unit row at `(0, c)`.  (The column counterparts, dims = [0] and a column repeated along
  the row, are the host keepdims forms.)
-/
import Idealize.ShloMosaic.Lib.ValueIdx
import Idealize.ShloMosaic.Lib.Pipeline.Value
import Idealize.ShloMosaic.Lib.ValueLayout

noncomputable section

namespace Cert.Lib.HostRows

open Idealize.ShloMosaic Idealize.ShloMosaic.ValueIdx

/-- A vector laid along a unit row reads, at `(u, c)`, the vector at `c`. -/
theorem bcast_b_1b_apply {α : Type} {b : ℕ} (h : (⟨1, ![b]⟩ : Shape).BroadcastsInDim ⟨2, ![1, b]⟩ ![1])
    (x : (⟨1, ![b]⟩ : Shape).Idx → α) (u : Fin 1) (c : Fin b) :
    broadcastInDim ⟨2, ![1, b]⟩ ![1] h x (ix2 u c) = x (ix1 c) :=
  broadcastInDim_apply ![1] h x (ix2 u c) (ix1 c) (fun k => by
    match k with
    | ⟨0, _⟩ =>
      show c.val = if b = 1 then 0 else c.val
      split_ifs with h1
      · have := c.isLt; omega
      · rfl)

/-- A unit row repeated down the rows reads, at `(p, c)`, the row at `c`. -/
theorem bcast_1b_ab_apply {α : Type} {a b : ℕ} (h : (⟨2, ![1, b]⟩ : Shape).BroadcastsInDim ⟨2, ![a, b]⟩ ![0, 1])
    (x : (⟨2, ![1, b]⟩ : Shape).Idx → α) (p : Fin a) (c : Fin b) :
    broadcastInDim ⟨2, ![a, b]⟩ ![0, 1] h x (ix2 p c) = x (ix2 (0 : Fin 1) c) :=
  broadcastInDim_apply ![0, 1] h x (ix2 p c) (ix2 (0 : Fin 1) c) (fun k => by
    match k with
    | ⟨0, _⟩ =>
      show (0 : ℕ) = if (1 : ℕ) = 1 then 0 else p.val
      rfl
    | ⟨1, _⟩ =>
      show c.val = if b = 1 then 0 else c.val
      split_ifs with h1
      · have := c.isLt; omega
      · rfl)

end Cert.Lib.HostRows

end
-- ==== Proof.BridgeProj.lean ====
/-
  Two bridges between a kernel payload read at a row and the reference stage read at the matching row, on the
  extended reals.

  * The node projection: entry `(r, c)` of a matrix product into a zero accumulator plus a bias row repeated down
    the rows is `∑ k, x (r, k) * W (k, c) + b c`, and so is entry `(q, c)` of the reference's product plus the bias
    vector laid along a unit row and then repeated down the rows, whenever row `r` of the kernel's block is row `q`
    of the reference's array. A change of float format is the identity on the extended reals.
  * The per-edge message: entry `(r, c)` of a block multiplied by a column repeated along the row is
    `hd (r, c) * z r`, on both sides.
-/
import proofs.«156379_j75642964017820_2_alg».proof.Proof.Stages
import proofs.«156379_j75642964017820_2_alg».proof.Proof.Gen.KernelIdeal.Skeleton
import proofs.«156379_j75642964017820_2_alg».proof.Proof.LibPlainMatmul
import proofs.«156379_j75642964017820_2_alg».proof.Proof.LibPlainDotGeneral
import proofs.«156379_j75642964017820_2_alg».proof.Proof.LibColumnLayout
import proofs.«156379_j75642964017820_2_alg».proof.Proof.LibHostColumns
import proofs.«156379_j75642964017820_2_alg».proof.Proof.LibHostRows
import Idealize.ShloMosaic.Lib.ValueIdx
import Idealize.ShloMosaic.Lib.Pipeline.Value
import Idealize.ShloMosaic.Lib.ValueLayout

noncomputable section

namespace Cert.Bridge

open Idealize.ShloMosaic Idealize.ShloMosaic.ValueIdx
open Cert.Lib.HostRows

variable [Cert.KernelIdeal.Facts] [Cert.ReferenceIdeal.Facts]

/-- The per-edge message at a row: the block times the column repeated along the row, on both sides. -/
theorem msg_at (x0 : Vec Ideal Cert.KernelIdeal.S4000x64 .f32) (x1 : Vec Ideal Cert.KernelIdeal.S4000x1 .f32)
    (HD : Cert.ReferenceIdeal.Stages.Ten Ideal Cert.ReferenceIdeal.S800000x64 .f32)
    (Z : Cert.ReferenceIdeal.Stages.Ten Ideal Cert.ReferenceIdeal.S800000x1 .f32)
    (r : Fin 4000) (q : Fin 800000) (c : Fin 64)
    (h0 : x0 (ix2 r c) = HD (ix2 q c)) (h1 : x1 (ix2 r (0 : Fin 1)) = Z (ix2 q (0 : Fin 1))) :
    Cert.KernelIdeal.Gen.k2_pay1 (F := Ideal) x0 x1 (ix2 r c)
      = Cert.ReferenceIdeal.Stages.contribOf (F := Ideal) HD Z (ix2 q c) := by
  unfold Cert.KernelIdeal.Gen.k2_pay1 Cert.ReferenceIdeal.Stages.contribOf
  simp only [shapeCast_self]
  rw [mulf_apply, mulf_apply, ColumnLayout.broadcastTo_a1_ab_apply, Cert.Lib.HostColumns.bcast_a1_ab_apply, h0, h1]

/-- The node projection at a row: `∑ k, x (r, k) * W (k, c) + b c` on both sides. -/
theorem proj_at (x0 : Vec Ideal Cert.KernelIdeal.S5000x128 .f32) (x1 : Vec Ideal Cert.KernelIdeal.S128x64 .f32)
    (x2 : Vec Ideal Cert.KernelIdeal.S1x64 .f32)
    (X : Cert.ReferenceIdeal.Stages.Ten Ideal Cert.ReferenceIdeal.S50000x128 .f32)
    (W : Cert.ReferenceIdeal.Stages.Ten Ideal Cert.ReferenceIdeal.S128x64 .f32)
    (b : Cert.ReferenceIdeal.Stages.Ten Ideal Cert.ReferenceIdeal.S64 .f32)
    (r : Fin 5000) (q : Fin 50000) (c : Fin 64)
    (h0 : ∀ k : Fin 128, x0 (ix2 r k) = X (ix2 q k))
    (h1 : ∀ (k : Fin 128) (c' : Fin 64), x1 (ix2 k c') = W (ix2 k c'))
    (h2 : x2 (ix2 (0 : Fin 1) c) = b (ix1 c)) :
    Cert.KernelIdeal.Gen.k0_pay1 (F := Ideal) x0 x1 x2 (ix2 r c)
      = Cert.ReferenceIdeal.Stages.hv (F := Ideal) X W b (ix2 q c) := by
  unfold Cert.KernelIdeal.Gen.k0_pay1 Cert.ReferenceIdeal.Stages.hv
  simp only [shapeCast_self]
  rw [addf_apply, addf_apply, broadcastTo_1b_ab_apply, bcast_1b_ab_apply, bcast_b_1b_apply, h2]
  congr 1
  refine (Cert.Lib.PlainMatmul.matmul_zero_apply Cert.KernelIdeal.dot_S5000x128_S128x64_S5000x64_1_0_0_1_n_n
    rfl rfl rfl rfl rfl rfl none _ _ r c).trans ?_
  refine Eq.trans ?_ (Cert.Lib.PlainDotGeneral.dotGeneral_apply
    Cert.ReferenceIdeal.dot_S50000x128_S128x64_S50000x64_1_0_0_1_n_n rfl rfl rfl rfl rfl rfl none HostSchedule.single X W q c).symm
  refine Finset.sum_congr rfl fun k _ => ?_
  rw [truncf_apply, truncf_apply, h0 k, h1 k c]

end Cert.Bridge

end
-- ==== Proof.RegionProj.lean ====
/-
  The projection kernel's output array.

  The kernel runs over 10 grid points; point `t` reads rows `5000 t … 5000 t + 4999` of the node features, the whole
  weight matrix and the bias row, and writes the same rows of the output: each row is its feature row times the
  weight matrix plus the bias.  The whole array is therefore the reference's node projection `hv`.
-/
import proofs.«156379_j75642964017820_2_alg».proof.Proof.Gen.KernelIdeal.Frame
import proofs.«156379_j75642964017820_2_alg».proof.Proof.Stages
import proofs.«156379_j75642964017820_2_alg».proof.Proof.BridgeProj
import Idealize.ShloMosaic.Lib.Pipeline.Value
import Idealize.ShloMosaic.Lib.ValueIdx

set_option maxRecDepth 16384

noncomputable section

namespace Cert.KernelIdeal.Regions

open Cert.KernelIdeal Cert.KernelIdeal.Gen
open Idealize.ShloMosaic Idealize.ShloMosaic.ValueIdx Idealize.ShloMosaic.TcCoe Idealize.SL.Sem
open Idealize.ShloMosaic.Pipeline (Dat Cfg Window)
open Cert.ReferenceIdeal.Stages

variable [Cert.ReferenceIdeal.Facts]

variable (V : (c : Dev nD) → (b : Ref sig .tc) → Buf (Elt Ideal) ((c : Thread nD τ).loc b))

theorem hz0 : (![0, 0] : Fin 2 → Nat) = fun _ => 0 := funext fun a => by fin_cases a <;> rfl

/-- The four windows' block indices at a point (the output window first): the node rows move with the point, the
    weight matrix and the bias row are one block each. -/
theorem idx0 : ∀ t : Fin cfg0.N, win0_3.index t (0 : Fin 2) = t.val ∧ win0_3.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

theorem lt0 (t : Fin cfg0.N) : t.val < 10 := lt_of_lt_of_eq t.isLt N_0

/-- What point `t` writes back is block `t` of the node projection of the arrays the region finds, the bias row
    read as the bias vector `b`. -/
theorem flushed0 (c : Dev nD) (t : Fin cfg0.N) (b : Ten Ideal Cert.ReferenceIdeal.S64 .f32)
    (hb : ∀ k : Fin 64, V c main_v0 (ix2 (0 : Fin 1) k) = b (ix1 k)) :
    (dat0 V c).flushed 3 t = ((cfg0.win 3).blk t).view.read (Elt Ideal) (hv (F := Ideal) (V c main_arg0) (V c main_arg3) b) := by
  show (cfg0.win 3).cut (grid0.coords t) ((dat0 V c).after 3 t) = _
  rw [after0_3]
  unfold out0_3
  rw [View.canon_unit_zero hz0]
  simp only [View.ld_unit_zero (S := S5000x128) hz0, View.ld_unit_zero (S := S128x64) hz0, View.ld_unit_zero (S := S1x64) hz0]
  obtain ⟨e6, e7, e0, e1, e2, e3, e4, e5⟩ := idx0 t
  have ht := lt0 t
  funext j
  obtain ⟨r, cc, rfl⟩ : ∃ (r : Fin 5000) (cc : Fin 64), j = ix2 r cc := ⟨j 0, j 1, eq_ix2 j⟩
  have hr : r.val < 5000 := r.isLt
  show k0_pay1 (iblk0 V c 0 t) (iblk0 V c 1 t) (iblk0 V c 2 t) (ix2 r cc)
      = hv (F := Ideal) (V c main_arg0) (V c main_arg3) b (((cfg0.win 3).blk t).view.emb (ix2 r cc))
  rw [(show ((cfg0.win 3).blk t).view.emb (ix2 r cc) = ix2 (⟨5000 * t.val + r.val, by omega⟩ : Fin 50000) cc from by
      funext a; apply Fin.ext
      match a with
      | ⟨0, _⟩ => show win0_3.index t (0 : Fin 2) * 5000 + 1 * r.val = 5000 * t.val + r.val; omega
      | ⟨1, _⟩ => show win0_3.index t (1 : Fin 2) * 64 + 1 * cc.val = cc.val; omega)]
  refine Cert.Bridge.proj_at (iblk0 V c 0 t) (iblk0 V c 1 t) (iblk0 V c 2 t) (V c main_arg0) (V c main_arg3) b r ⟨5000 * t.val + r.val, by omega⟩ cc ?_ ?_ ?_
  · intro k
    show V c main_arg0 (((cfg0.win 0).blk t).view.emb (ix2 r k)) = _
    rw [(show ((cfg0.win 0).blk t).view.emb (ix2 r k) = ix2 (⟨5000 * t.val + r.val, by omega⟩ : Fin 50000) k from by
      funext a; apply Fin.ext
      match a with
      | ⟨0, _⟩ => show win0_0.index t (0 : Fin 2) * 5000 + 1 * r.val = 5000 * t.val + r.val; omega
      | ⟨1, _⟩ => show win0_0.index t (1 : Fin 2) * 128 + 1 * k.val = k.val; omega)]
  · intro k c'
    show V c main_arg3 (((cfg0.win 1).blk t).view.emb (ix2 k c')) = _
    rw [(show ((cfg0.win 1).blk t).view.emb (ix2 k c') = ix2 k c' from by
      funext a; apply Fin.ext
      match a with
      | ⟨0, _⟩ => show win0_1.index t (0 : Fin 2) * 128 + 1 * k.val = k.val; omega
      | ⟨1, _⟩ => show win0_1.index t (1 : Fin 2) * 64 + 1 * c'.val = c'.val; omega)]
  · show V c main_v0 (((cfg0.win 2).blk t).view.emb (ix2 (0 : Fin 1) cc)) = _
    rw [(show ((cfg0.win 2).blk t).view.emb (ix2 (0 : Fin 1) cc) = ix2 (0 : Fin 1) cc from by
      funext a; apply Fin.ext
      match a with
      | ⟨0, _⟩ => show win0_2.index t (0 : Fin 2) * 1 + 1 * (0 : Fin 1).val = (0 : Fin 1).val; omega
      | ⟨1, _⟩ => show win0_2.index t (1 : Fin 2) * 64 + 1 * cc.val = cc.val; omega)]
    exact hb cc

/-- An index is in point `t`'s block iff each coordinate is in the block's range on its axis. -/
theorem mem_blk0 (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v1).slice (win0_3.rect t)).set ↔ _
  rw [View.set_slice_whole, Rect.mem_set_unit]
  exact Iff.rfl

/-- Every row of the output lies in the block of the point `row / 5000`. -/
theorem cover0 (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  have hN : (i 0).val / 5000 < cfg0.N := by rw [show cfg0.N = 10 from N_0]; omega
  refine ⟨⟨(i 0).val / 5000, hN⟩, flush0_3 _, ?_⟩
  rw [mem_blk0]
  have eR : win0_3.index ⟨(i 0).val / 5000, hN⟩ (0 : Fin 2) = (i 0).val / 5000 := (idx0 ⟨(i 0).val / 5000, hN⟩).1
  have eC : win0_3.index ⟨(i 0).val / 5000, hN⟩ (1 : Fin 2) = 0 := (idx0 ⟨(i 0).val / 5000, hN⟩).2.1
  intro a
  match a with
  | ⟨0, _⟩ => show win0_3.index _ (0 : Fin 2) * 5000 ≤ (i 0).val ∧ (i 0).val < win0_3.index _ (0 : Fin 2) * 5000 + 5000; rw [eR]; omega
  | ⟨1, _⟩ => show win0_3.index _ (1 : Fin 2) * 64 ≤ (i 1).val ∧ (i 1).val < win0_3.index _ (1 : Fin 2) * 64 + 64; rw [eC]; omega

/-- The output array after the region: the node projection of the arrays the region finds. -/
theorem arr0 (c : Dev nD) (b : Ten Ideal Cert.ReferenceIdeal.S64 .f32)
    (hb : ∀ k : Fin 64, V c main_v0 (ix2 (0 : Fin 1) k) = b (ix1 k)) :
    (dat0 V c).arrAt 3 cfg0.N = hv (F := Ideal) (V c main_arg0) (V c main_arg3) b :=
  (dat0 V c).arrAt_eq_of_cover 3 _ (fun t _ => flushed0 V c t b hb) cover0

end Cert.KernelIdeal.Regions

end
-- ==== Proof.LibAxisSums.lean ====
/-
  Sums along axes of small-rank arrays, read at coordinates, at the ideal values (floats are extended reals,
  every sum exact). For any extents and any float type:

  * a vector sum over the MIDDLE axis of a rank-3 array [a, b, c] into [a, c], at (p, w), is the sum over
    n < b of the array at (p, n, w) (`multiReduction_add_mid_apply`);
  * a vector sum over the LAST axis of a rank-2 array [a, b] into [a], at p, is the sum over k < b of the array
    at (p, k) (`multiReduction_add_last_apply`);
  * a host sum over the TWO TRAILING axes of a rank-3 array [a, b, c] into [a], at p, is the initial value plus
    the double sum over n < b and k < c of the array at (p, n, k) (`hostReduceAdd_trailing_two_apply`): the
    indices that drop to p are exactly the (p, n, k), in bijection with the pairs (n, k).
-/
import Idealize.ShloMosaic.PureOps.Ideal.Laws
import Idealize.ShloMosaic.Lib.ValueIdx

noncomputable section

namespace Cert.Lib.AxisSums

open Idealize.ShloMosaic Idealize.ShloMosaic.ValueIdx

variable {φ : FTy}

/-- A vector sum over the middle axis of [a, b, c], read at (p, w): the sum over the middle coordinate. -/
theorem multiReduction_add_mid_apply {a b c : Nat} (src : FVec Ideal ⟨3, ![a, b, c]⟩ φ) (acc : BitVec φ.bits)
    (h : (⟨3, ![a, b, c]⟩ : Shape).Reduces [1] ⟨2, ![a, c]⟩) (hφ : FKind.Formats φ)
    (hacc : acc = FKind.add.neutral φ hφ) (p : Fin a) (w : Fin c) :
    multiReduction .add [1] ⟨2, ![a, c]⟩ src acc h hφ hacc (ix2 p w) = ∑ n : Fin b, src (ix3 p n w) := by
  rw [Ideal.multiReduction_add_single]
  refine Finset.sum_congr rfl fun n _ => ?_
  exact congrArg src (funext fun d => Fin.ext (by match d with | ⟨0, _⟩ => rfl | ⟨1, _⟩ => rfl | ⟨2, _⟩ => rfl))

/-- A vector sum over the last axis of [a, b], read at p: the sum over the last coordinate. -/
theorem multiReduction_add_last_apply {a b : Nat} (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => ?_
  exact congrArg src (funext fun d => Fin.ext (by match d with | ⟨0, _⟩ => rfl | ⟨1, _⟩ => rfl))

/-- An index of [a, b, c] drops, over its two trailing axes, to its leading coordinate. -/
theorem drop_trailing_two {a b c : Nat} (h : (⟨3, ![a, b, c]⟩ : Shape).ReducesTo [1, 2] ⟨1, ![a]⟩)
    (i : (⟨3, ![a, b, c]⟩ : Shape).Idx) : h.drop i = ix1 (i 0) := by
  funext d
  match d with
  | ⟨0, _⟩ => exact Fin.ext (h.drop_apply_val_of_eq i ⟨0, Nat.zero_lt_one⟩ 0 (Nat.zero_lt_one) rfl)

/-- A host sum over the two trailing axes of [a, b, c], read at p: the initial value plus the double sum over
    the two trailing coordinates. -/
theorem hostReduceAdd_trailing_two_apply {a b c : Nat} (h : (⟨3, ![a, b, c]⟩ : Shape).ReducesTo [1, 2] ⟨1, ![a]⟩)
    (x : (⟨3, ![a, b, c]⟩ : Shape).Idx → EReal) (init : EReal) (p : Fin a) :
    Ideal.hostReduceAdd h x init (ix1 p) = init + ∑ n : Fin b, ∑ k : Fin c, x (ix3 p n k) := by
  unfold Ideal.hostReduceAdd
  refine congrArg (init + ·) ?_
  rw [← Finset.sum_product' (Finset.univ : Finset (Fin b)) (Finset.univ : Finset (Fin c)) fun n k => x (ix3 p n k)]
  refine Finset.sum_nbij' (fun i => (i 1, i 2)) (fun q => ix3 p q.1 q.2) ?_ ?_ ?_ ?_ ?_
  · intro i _; exact Finset.mem_product.2 ⟨Finset.mem_univ _, Finset.mem_univ _⟩
  · intro q _
    refine Finset.mem_filter.2 ⟨Finset.mem_univ _, ?_⟩
    rw [drop_trailing_two]
    rfl
  · intro i hi
    have hj := (Finset.mem_filter.1 hi).2
    rw [drop_trailing_two] at hj
    have h0 : i 0 = p := congrFun hj 0
    funext d
    match d with
    | ⟨0, _⟩ => exact h0.symm
    | ⟨1, _⟩ => rfl
    | ⟨2, _⟩ => rfl
  · intro q _; rfl
  · intro i hi
    have hj := (Finset.mem_filter.1 hi).2
    rw [drop_trailing_two] at hj
    have h0 : i 0 = p := congrFun hj 0
    refine congrArg x ?_
    funext d
    match d with
    | ⟨0, _⟩ => exact h0
    | ⟨1, _⟩ => rfl
    | ⟨2, _⟩ => rfl

end Cert.Lib.AxisSums

end
-- ==== Proof.BridgeAttn.lean ====
/-
  The attention kernel against the reference's attention weight, at one row.

  The kernel computes, for each row of a block of 4000 edges, three lane sums — 64 products of the source row with
  the first stretch of the attention vector, 64 of the destination row with the second, 32 of the edge features
  with the third —, adds them, and applies `exp ∘ leaky_relu` (slope the word `0x3E4CCCCD`). The reference lays the
  three rows side by side into one of 160 columns, contracts it with the attention vector [160, 1] by one
  `dot_general`, and applies the same two functions. On the extended reals every sum is exact and addition is
  associative and commutative, so a sum over 160 terms is the sum of its stretches of 64, 64 and 32 terms; the
  concatenation read at a column is the piece the column falls in; hence both sides are the same function of the
  same number.
-/
import proofs.«156379_j75642964017820_2_alg».proof.Proof.Stages
import proofs.«156379_j75642964017820_2_alg».proof.Proof.Gen.KernelIdeal.Skeleton
import proofs.«156379_j75642964017820_2_alg».proof.Proof.LibPlainDotGeneral
import proofs.«156379_j75642964017820_2_alg».proof.Proof.LibAxisSums
import proofs.«156379_j75642964017820_2_alg».proof.Proof.LibColumnLayout
import Idealize.ShloMosaic.Lib.Pipeline.Value
import Idealize.ShloMosaic.Lib.ValueLayout
import Idealize.ShloMosaic.Lib.ValueIdx
import Idealize.ShloMosaic.Lib.IdealHost

noncomputable section

namespace Cert.Bridge

open Idealize.ShloMosaic Idealize.ShloMosaic.ValueIdx

/-- The unnormalised attention weight of one logit: `exp (leaky_relu s)` with slope the word `0x3E4CCCCD`. -/
def act (s : EReal) : EReal :=
  Ideal.exp (Scalar.select (FloatOps.cmpf (F := Ideal) (φ := .f32) .oge s (Ideal.ofBits .f32 0x00000000#32)) s
    (Ideal.ofBits .f32 0x3E4CCCCD#32 * s))

/-- A sum over 160 terms is the sum of its first 64, its next 64 and its last 32 terms. No finiteness is
    needed: the regrouping is that of a commutative monoid. -/
theorem sum_split3 {M : Type} [AddCommMonoid M] (f : Fin 160 → M) :
    ∑ k, f k = (∑ k : Fin 64, f ⟨k.val, by omega⟩) + (∑ k : Fin 64, f ⟨64 + k.val, by omega⟩)
      + ∑ k : Fin 32, f ⟨128 + k.val, by omega⟩ := by
  have h1 : ∑ k, f k = ∑ i : Fin 128, f (Fin.castAdd 32 i) + ∑ i : Fin 32, f (Fin.natAdd 128 i) :=
    Fin.sum_univ_add (a := 128) (b := 32) f
  have h2 : ∑ i : Fin 128, f (Fin.castAdd 32 i)
      = ∑ i : Fin 64, f (Fin.castAdd 32 (Fin.castAdd 64 i)) + ∑ i : Fin 64, f (Fin.castAdd 32 (Fin.natAdd 64 i)) :=
    Fin.sum_univ_add (a := 64) (b := 64) (fun i => f (Fin.castAdd 32 i))
  rw [h1, h2]
  rfl

/-- One lane sum of the kernel: the products of row `r` of `x` with the one-row vector `v`, summed along the row
    from the zero word and kept as a column. -/
theorem lane_dot {a b : Nat} (x : FVec Ideal ⟨2, ![a, b]⟩ .f32) (v : FVec Ideal ⟨2, ![1, b]⟩ .f32)
    (hc1 : (⟨2, ![a, b]⟩ : Shape).ShapeCasts ⟨2, ![a, b]⟩) (hc2 : (⟨2, ![1, b]⟩ : Shape).ShapeCasts ⟨2, ![1, b]⟩)
    (hb : (⟨2, ![1, b]⟩ : Shape).Broadcasts ⟨2, ![a, b]⟩)
    (hr : (⟨2, ![a, b]⟩ : Shape).Reduces [1] ⟨1, ![a]⟩) (hφ : FKind.Formats .f32)
    (hacc : (0x00000000#32 : BitVec 32) = FKind.add.neutral .f32 hφ)
    (hk : (⟨1, ![a]⟩ : Shape).ShapeCasts ⟨2, ![a, 1]⟩) (r : Fin a) (u : Fin 1) :
    shapeCast ⟨2, ![a, 1]⟩
      (multiReduction (F := Ideal) .add [1] ⟨1, ![a]⟩
        (mulf (shapeCast ⟨2, ![a, b]⟩ x hc1) (broadcastTo ⟨2, ![a, b]⟩ (shapeCast ⟨2, ![1, b]⟩ v hc2) hb))
        0x00000000#32 hr hφ hacc) hk (ix2 r u)
      = ∑ k : Fin b, x (ix2 r k) * v (ix2 (0 : Fin 1) k) := by
  rw [ColumnLayout.shapeCast_a_a1_apply, Cert.Lib.AxisSums.multiReduction_add_last_apply]
  refine Finset.sum_congr rfl fun k _ => ?_
  rw [mulf_apply, shapeCast_self, shapeCast_self, broadcastTo_1b_ab_apply]

section Kernel
variable [Cert.KernelIdeal.Facts]

/-- The kernel's last three operations at an index: the activation of the value they read. -/
theorem act_kernel (V : FVec Ideal Cert.KernelIdeal.S4000x1 .f32) (i : Cert.KernelIdeal.S4000x1.Idx) :
    exp (select (cmpf .oge V (broadcast Cert.KernelIdeal.S4000x1 (Scalar.ofBits (F := Ideal) .f32 0x00000000#32))) V
      (mulf (broadcast Cert.KernelIdeal.S4000x1 (Scalar.ofBits (F := Ideal) .f32 0x3E4CCCCD#32)) V)) i = act (V i) := rfl

/-- The kernel's payload at row `r`: the activation of the three lane sums added. -/
theorem kernel_at (x0 : Vec Ideal Cert.KernelIdeal.S4000x64 .f32) (a1 : Vec Ideal Cert.KernelIdeal.S1x64 .f32)
    (x1 : Vec Ideal Cert.KernelIdeal.S4000x64 .f32) (a2 : Vec Ideal Cert.KernelIdeal.S1x64 .f32)
    (x2 : Vec Ideal Cert.KernelIdeal.S4000x32 .f32) (a3 : Vec Ideal Cert.KernelIdeal.S1x32 .f32) (r : Fin 4000) :
    Cert.KernelIdeal.Gen.k1_pay1 (F := Ideal) x0 a1 x1 a2 x2 a3 (ix2 r (0 : Fin 1))
      = act ((∑ k : Fin 64, x0 (ix2 r k) * a1 (ix2 (0 : Fin 1) k)) + (∑ k : Fin 64, x1 (ix2 r k) * a2 (ix2 (0 : Fin 1) k))
          + (∑ k : Fin 32, x2 (ix2 r k) * a3 (ix2 (0 : Fin 1) k))) := by
  unfold Cert.KernelIdeal.Gen.k1_pay1
  dsimp only
  refine (act_kernel _ _).trans (congrArg act ?_)
  rw [addf_apply, addf_apply]
  exact congrArg₂ (· + ·) (congrArg₂ (· + ·) (lane_dot x0 a1 _ _ _ _ _ _ _ r 0) (lane_dot x1 a2 _ _ _ _ _ _ _ r 0))
    (lane_dot x2 a3 _ _ _ _ _ _ _ r 0)

end Kernel

section Reference
variable [Cert.ReferenceIdeal.Facts]

/-- The reference's activation stage at an index: the activation of the logit it reads. -/
theorem act_reference (V : Cert.ReferenceIdeal.Stages.Ten Ideal Cert.ReferenceIdeal.S800000x1 .f32)
    (i : Cert.ReferenceIdeal.S800000x1.Idx) :
    (Cert.ReferenceIdeal.Stages.att (F := Ideal) V : Cert.ReferenceIdeal.S800000x1.Idx → EReal) i = act (V i) := rfl

/-- The concatenation `[hs | hd | f]` along the columns, read at a column of the first piece. -/
theorem concat_at0 (HS HD : Cert.ReferenceIdeal.Stages.Ten Ideal Cert.ReferenceIdeal.S800000x64 .f32)
    (EF : Cert.ReferenceIdeal.Stages.Ten Ideal Cert.ReferenceIdeal.S800000x32 .f32)
    (h : Shape.Concatenates [Cert.ReferenceIdeal.S800000x64, Cert.ReferenceIdeal.S800000x64, Cert.ReferenceIdeal.S800000x32]
      Cert.ReferenceIdeal.S800000x160 1) (q : Fin 800000) (k : Fin 64) :
    concatenate Cert.ReferenceIdeal.S800000x160 1
      [⟨Cert.ReferenceIdeal.S800000x64, HS⟩, ⟨Cert.ReferenceIdeal.S800000x64, HD⟩, ⟨Cert.ReferenceIdeal.S800000x32, EF⟩] h
      (ix2 q (⟨k.val, by omega⟩ : Fin 160)) = HS (ix2 q k) := by
  refine concatenate_apply_piece (t := Cert.ReferenceIdeal.S800000x160) 1
    [⟨Cert.ReferenceIdeal.S800000x64, HS⟩, ⟨Cert.ReferenceIdeal.S800000x64, HD⟩, ⟨Cert.ReferenceIdeal.S800000x32, EF⟩] h _ 0 (by show (0 : Nat) < 3; omega) Cert.ReferenceIdeal.S800000x64 HS rfl rfl 0 rfl (ix2 q k)
    (fun b hb => ?_) (Nat.zero_add _)
  match b with
  | ⟨0, _⟩ => rfl
  | ⟨1, _⟩ => exact absurd rfl hb

/-- The concatenation read at a column of the second piece. -/
theorem concat_at1 (HS HD : Cert.ReferenceIdeal.Stages.Ten Ideal Cert.ReferenceIdeal.S800000x64 .f32)
    (EF : Cert.ReferenceIdeal.Stages.Ten Ideal Cert.ReferenceIdeal.S800000x32 .f32)
    (h : Shape.Concatenates [Cert.ReferenceIdeal.S800000x64, Cert.ReferenceIdeal.S800000x64, Cert.ReferenceIdeal.S800000x32]
      Cert.ReferenceIdeal.S800000x160 1) (q : Fin 800000) (k : Fin 64) :
    concatenate Cert.ReferenceIdeal.S800000x160 1
      [⟨Cert.ReferenceIdeal.S800000x64, HS⟩, ⟨Cert.ReferenceIdeal.S800000x64, HD⟩, ⟨Cert.ReferenceIdeal.S800000x32, EF⟩] h
      (ix2 q (⟨64 + k.val, by omega⟩ : Fin 160)) = HD (ix2 q k) := by
  refine concatenate_apply_piece (t := Cert.ReferenceIdeal.S800000x160) 1
    [⟨Cert.ReferenceIdeal.S800000x64, HS⟩, ⟨Cert.ReferenceIdeal.S800000x64, HD⟩, ⟨Cert.ReferenceIdeal.S800000x32, EF⟩] h _ 1 (by show (1 : Nat) < 3; omega) Cert.ReferenceIdeal.S800000x64 HD rfl rfl 64 rfl (ix2 q k)
    (fun b hb => ?_) rfl
  match b with
  | ⟨0, _⟩ => rfl
  | ⟨1, _⟩ => exact absurd rfl hb

/-- The concatenation read at a column of the third piece. -/
theorem concat_at2 (HS HD : Cert.ReferenceIdeal.Stages.Ten Ideal Cert.ReferenceIdeal.S800000x64 .f32)
    (EF : Cert.ReferenceIdeal.Stages.Ten Ideal Cert.ReferenceIdeal.S800000x32 .f32)
    (h : Shape.Concatenates [Cert.ReferenceIdeal.S800000x64, Cert.ReferenceIdeal.S800000x64, Cert.ReferenceIdeal.S800000x32]
      Cert.ReferenceIdeal.S800000x160 1) (q : Fin 800000) (k : Fin 32) :
    concatenate Cert.ReferenceIdeal.S800000x160 1
      [⟨Cert.ReferenceIdeal.S800000x64, HS⟩, ⟨Cert.ReferenceIdeal.S800000x64, HD⟩, ⟨Cert.ReferenceIdeal.S800000x32, EF⟩] h
      (ix2 q (⟨128 + k.val, by omega⟩ : Fin 160)) = EF (ix2 q k) := by
  refine concatenate_apply_piece (t := Cert.ReferenceIdeal.S800000x160) 1
    [⟨Cert.ReferenceIdeal.S800000x64, HS⟩, ⟨Cert.ReferenceIdeal.S800000x64, HD⟩, ⟨Cert.ReferenceIdeal.S800000x32, EF⟩] h _ 2 (by show (2 : Nat) < 3; omega) Cert.ReferenceIdeal.S800000x32 EF rfl rfl 128 rfl (ix2 q k)
    (fun b hb => ?_) rfl
  match b with
  | ⟨0, _⟩ => rfl
  | ⟨1, _⟩ => exact absurd rfl hb

/-- The reference's logit of edge `q`: the 160 products of the concatenated row with the attention vector, summed. -/
theorem logits_at (HS HD : Cert.ReferenceIdeal.Stages.Ten Ideal Cert.ReferenceIdeal.S800000x64 .f32)
    (EF : Cert.ReferenceIdeal.Stages.Ten Ideal Cert.ReferenceIdeal.S800000x32 .f32)
    (A : Cert.ReferenceIdeal.Stages.Ten Ideal Cert.ReferenceIdeal.S160x1 .f32) (q : Fin 800000) :
    (Cert.ReferenceIdeal.Stages.logitsOf (F := Ideal) HS HD EF A : Cert.ReferenceIdeal.S800000x1.Idx → EReal) (ix2 q (0 : Fin 1))
      = (∑ k : Fin 64, HS (ix2 q k) * A (ix2 (⟨k.val, by omega⟩ : Fin 160) (0 : Fin 1)))
        + (∑ k : Fin 64, HD (ix2 q k) * A (ix2 (⟨64 + k.val, by omega⟩ : Fin 160) (0 : Fin 1)))
        + ∑ k : Fin 32, EF (ix2 q k) * A (ix2 (⟨128 + k.val, by omega⟩ : Fin 160) (0 : Fin 1)) := by
  unfold Cert.ReferenceIdeal.Stages.logitsOf
  refine (Cert.Lib.PlainDotGeneral.dotGeneral_apply Cert.ReferenceIdeal.dot_S800000x160_S160x1_S800000x1_1_0_0_1_n_n
    rfl rfl rfl rfl rfl rfl none _ _ A q (0 : Fin 1)).trans ?_
  rw [sum_split3]
  refine congrArg₂ (· + ·) (congrArg₂ (· + ·) (Finset.sum_congr rfl fun k _ => ?_) (Finset.sum_congr rfl fun k _ => ?_))
    (Finset.sum_congr rfl fun k _ => ?_)
  · rw [concat_at0]
  · rw [concat_at1]
  · rw [concat_at2]

end Reference

section Bridge
variable [Cert.KernelIdeal.Facts] [Cert.ReferenceIdeal.Facts]

/-- The attention kernel's payload at row `r` of a block is the reference's unnormalised attention weight of edge
    `q`, when the block's rows are the edge's rows of `hs`, `hd`, `f` and the three one-row vectors are the three
    stretches of the attention vector: both are the activation of one sum of 160 products, the kernel's grouped as
    64 + 64 + 32. -/
theorem attn_at (x0 : Vec Ideal Cert.KernelIdeal.S4000x64 .f32) (a1 : Vec Ideal Cert.KernelIdeal.S1x64 .f32)
    (x1 : Vec Ideal Cert.KernelIdeal.S4000x64 .f32) (a2 : Vec Ideal Cert.KernelIdeal.S1x64 .f32)
    (x2 : Vec Ideal Cert.KernelIdeal.S4000x32 .f32) (a3 : Vec Ideal Cert.KernelIdeal.S1x32 .f32)
    (HS HD : Cert.ReferenceIdeal.Stages.Ten Ideal Cert.ReferenceIdeal.S800000x64 .f32)
    (EF : Cert.ReferenceIdeal.Stages.Ten Ideal Cert.ReferenceIdeal.S800000x32 .f32)
    (A : Cert.ReferenceIdeal.Stages.Ten Ideal Cert.ReferenceIdeal.S160x1 .f32)
    (r : Fin 4000) (q : Fin 800000)
    (h0 : ∀ k : Fin 64, x0 (ix2 r k) = HS (ix2 q k)) (h1 : ∀ k : Fin 64, x1 (ix2 r k) = HD (ix2 q k))
    (h2 : ∀ k : Fin 32, x2 (ix2 r k) = EF (ix2 q k))
    (ha1 : ∀ k : Fin 64, a1 (ix2 (0 : Fin 1) k) = A (ix2 (⟨k.val, by omega⟩ : Fin 160) (0 : Fin 1)))
    (ha2 : ∀ k : Fin 64, a2 (ix2 (0 : Fin 1) k) = A (ix2 (⟨64 + k.val, by omega⟩ : Fin 160) (0 : Fin 1)))
    (ha3 : ∀ k : Fin 32, a3 (ix2 (0 : Fin 1) k) = A (ix2 (⟨128 + k.val, by omega⟩ : Fin 160) (0 : Fin 1))) :
    Cert.KernelIdeal.Gen.k1_pay1 (F := Ideal) x0 a1 x1 a2 x2 a3 (ix2 r (0 : Fin 1))
      = Cert.ReferenceIdeal.Stages.att (F := Ideal) (Cert.ReferenceIdeal.Stages.logitsOf (F := Ideal) HS HD EF A)
          (ix2 q (0 : Fin 1)) := by
  refine (kernel_at x0 a1 x1 a2 x2 a3 r).trans (Eq.trans (congrArg act ?_) (act_reference _ _).symm)
  rw [logits_at]
  refine congrArg₂ (· + ·) (congrArg₂ (· + ·) (Finset.sum_congr rfl fun k _ => ?_) (Finset.sum_congr rfl fun k _ => ?_))
    (Finset.sum_congr rfl fun k _ => ?_)
  · rw [h0, ha1]
  · rw [h1, ha2]
  · rw [h2, ha3]

end Bridge

end Cert.Bridge

end
-- ==== Proof.RegionAttn.lean ====
/-
  The attention kernel's output array.

  The kernel runs over 200 grid points; point `t` reads rows `4000 t … 4000 t + 3999` of the two gathered row arrays
  and of the repeated edge features, and the three pieces of the attention vector laid out as rows, and writes
  the same rows of the output column: the exponential of the leaky-rectified sum of the three inner products.
  The whole column is therefore the reference's `att (logitsOf …)`.
-/
import proofs.«156379_j75642964017820_2_alg».proof.Proof.Gen.KernelIdeal.Frame
import proofs.«156379_j75642964017820_2_alg».proof.Proof.Stages
import proofs.«156379_j75642964017820_2_alg».proof.Proof.BridgeAttn
import Idealize.ShloMosaic.Lib.Pipeline.Value
import Idealize.ShloMosaic.Lib.ValueIdx

set_option maxRecDepth 16384

noncomputable section

namespace Cert.KernelIdeal.Regions

open Cert.KernelIdeal Cert.KernelIdeal.Gen
open Idealize.ShloMosaic Idealize.ShloMosaic.ValueIdx Idealize.ShloMosaic.TcCoe Idealize.SL.Sem
open Idealize.ShloMosaic.Pipeline (Dat Cfg Window)
open Cert.ReferenceIdeal.Stages

variable [Cert.ReferenceIdeal.Facts]

variable (V : (c : Dev nD) → (b : Ref sig .tc) → Buf (Elt Ideal) ((c : Thread nD τ).loc b))

theorem hz1 : (![0, 0] : Fin 2 → Nat) = fun _ => 0 := funext fun a => by fin_cases a <;> rfl

/-- The seven windows' block indices at a point (the output window first): the three row arrays move with the point,
    the three attention rows are one block each. -/
theorem idx1 : ∀ t : Fin cfg1.N, win1_6.index t (0 : Fin 2) = t.val ∧ win1_6.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

theorem lt1 (t : Fin cfg1.N) : t.val < 200 := lt_of_lt_of_eq t.isLt N_1

/-- What point `t` writes back is block `t` of the attention weights of the arrays the region finds, the three
    attention rows read as the pieces of the attention vector `A`. -/
theorem flushed1 (c : Dev nD) (t : Fin cfg1.N) (A : Ten Ideal Cert.ReferenceIdeal.S160x1 .f32)
    (ha1 : ∀ k : Fin 64, V c main_v25 (ix2 (0 : Fin 1) k) = A (ix2 (⟨k.val, by omega⟩ : Fin 160) (0 : Fin 1)))
    (ha2 : ∀ k : Fin 64, V c main_v27 (ix2 (0 : Fin 1) k) = A (ix2 (⟨64 + k.val, by omega⟩ : Fin 160) (0 : Fin 1)))
    (ha3 : ∀ k : Fin 32, V c main_v29 (ix2 (0 : Fin 1) k) = A (ix2 (⟨128 + k.val, by omega⟩ : Fin 160) (0 : Fin 1))) :
    (dat1 V c).flushed 6 t = ((cfg1.win 6).blk t).view.read (Elt Ideal)
      (att (F := Ideal) (logitsOf (F := Ideal) (V c main_v16) (V c main_v23) (V c main_v5) A)) := by
  show (cfg1.win 6).cut (grid1.coords t) ((dat1 V c).after 6 t) = _
  rw [after1_6]
  unfold out1_6
  rw [View.canon_unit_zero hz1]
  simp only [View.ld_unit_zero (S := S4000x64) hz1, View.ld_unit_zero (S := S1x64) hz1, View.ld_unit_zero (S := S4000x32) hz1,
    View.ld_unit_zero (S := S1x32) hz1]
  obtain ⟨e12, e13, e0, e1, e2, e3, e4, e5, e6, e7, e8, e9, e10, e11⟩ := idx1 t
  have ht := lt1 t
  funext j
  obtain ⟨r, cc, rfl⟩ : ∃ (r : Fin 4000) (cc : Fin 1), j = ix2 r cc := ⟨j 0, j 1, eq_ix2 j⟩
  obtain rfl : cc = 0 := Subsingleton.elim _ _
  have hr : r.val < 4000 := r.isLt
  show k1_pay1 (iblk1 V c 0 t) (iblk1 V c 3 t) (iblk1 V c 1 t) (iblk1 V c 4 t) (iblk1 V c 2 t) (iblk1 V c 5 t) (ix2 r (0 : Fin 1))
      = att (F := Ideal) (logitsOf (F := Ideal) (V c main_v16) (V c main_v23) (V c main_v5) A) (((cfg1.win 6).blk t).view.emb (ix2 r (0 : Fin 1)))
  rw [(show ((cfg1.win 6).blk t).view.emb (ix2 r (0 : Fin 1)) = ix2 (⟨4000 * t.val + r.val, by omega⟩ : Fin 800000) (0 : Fin 1) from by
      funext a; apply Fin.ext
      match a with
      | ⟨0, _⟩ => show win1_6.index t (0 : Fin 2) * 4000 + 1 * r.val = 4000 * t.val + r.val; omega
      | ⟨1, _⟩ => show win1_6.index t (1 : Fin 2) * 1 + 1 * (0 : Fin 1).val = (0 : Fin 1).val; omega)]
  refine Cert.Bridge.attn_at (iblk1 V c 0 t) (iblk1 V c 3 t) (iblk1 V c 1 t) (iblk1 V c 4 t) (iblk1 V c 2 t) (iblk1 V c 5 t)
    (V c main_v16) (V c main_v23) (V c main_v5) A r ⟨4000 * t.val + r.val, by omega⟩ ?_ ?_ ?_ ?_ ?_ ?_
  · intro k
    show V c main_v16 (((cfg1.win 0).blk t).view.emb (ix2 r k)) = _
    rw [(show ((cfg1.win 0).blk t).view.emb (ix2 r k) = ix2 (⟨4000 * t.val + r.val, by omega⟩ : Fin 800000) k from by
      funext a; apply Fin.ext
      match a with
      | ⟨0, _⟩ => show win1_0.index t (0 : Fin 2) * 4000 + 1 * r.val = 4000 * t.val + r.val; omega
      | ⟨1, _⟩ => show win1_0.index t (1 : Fin 2) * 64 + 1 * k.val = k.val; omega)]
  · intro k
    show V c main_v23 (((cfg1.win 1).blk t).view.emb (ix2 r k)) = _
    rw [(show ((cfg1.win 1).blk t).view.emb (ix2 r k) = ix2 (⟨4000 * t.val + r.val, by omega⟩ : Fin 800000) k from by
      funext a; apply Fin.ext
      match a with
      | ⟨0, _⟩ => show win1_1.index t (0 : Fin 2) * 4000 + 1 * r.val = 4000 * t.val + r.val; omega
      | ⟨1, _⟩ => show win1_1.index t (1 : Fin 2) * 64 + 1 * k.val = k.val; omega)]
  · intro k
    show V c main_v5 (((cfg1.win 2).blk t).view.emb (ix2 r k)) = _
    rw [(show ((cfg1.win 2).blk t).view.emb (ix2 r k) = ix2 (⟨4000 * t.val + r.val, by omega⟩ : Fin 800000) k from by
      funext a; apply Fin.ext
      match a with
      | ⟨0, _⟩ => show win1_2.index t (0 : Fin 2) * 4000 + 1 * r.val = 4000 * t.val + r.val; omega
      | ⟨1, _⟩ => show win1_2.index t (1 : Fin 2) * 32 + 1 * k.val = k.val; omega)]
  · intro k
    show V c main_v25 (((cfg1.win 3).blk t).view.emb (ix2 (0 : Fin 1) k)) = _
    rw [(show ((cfg1.win 3).blk t).view.emb (ix2 (0 : Fin 1) k) = ix2 (0 : Fin 1) k from by
      funext a; apply Fin.ext
      match a with
      | ⟨0, _⟩ => show win1_3.index t (0 : Fin 2) * 1 + 1 * (0 : Fin 1).val = (0 : Fin 1).val; omega
      | ⟨1, _⟩ => show win1_3.index t (1 : Fin 2) * 64 + 1 * k.val = k.val; omega)]
    exact ha1 k
  · intro k
    show V c main_v27 (((cfg1.win 4).blk t).view.emb (ix2 (0 : Fin 1) k)) = _
    rw [(show ((cfg1.win 4).blk t).view.emb (ix2 (0 : Fin 1) k) = ix2 (0 : Fin 1) k from by
      funext a; apply Fin.ext
      match a with
      | ⟨0, _⟩ => show win1_4.index t (0 : Fin 2) * 1 + 1 * (0 : Fin 1).val = (0 : Fin 1).val; omega
      | ⟨1, _⟩ => show win1_4.index t (1 : Fin 2) * 64 + 1 * k.val = k.val; omega)]
    exact ha2 k
  · intro k
    show V c main_v29 (((cfg1.win 5).blk t).view.emb (ix2 (0 : Fin 1) k)) = _
    rw [(show ((cfg1.win 5).blk t).view.emb (ix2 (0 : Fin 1) k) = ix2 (0 : Fin 1) k from by
      funext a; apply Fin.ext
      match a with
      | ⟨0, _⟩ => show win1_5.index t (0 : Fin 2) * 1 + 1 * (0 : Fin 1).val = (0 : Fin 1).val; omega
      | ⟨1, _⟩ => show win1_5.index t (1 : Fin 2) * 32 + 1 * k.val = k.val; omega)]
    exact ha3 k

/-- An index is in point `t`'s block iff each coordinate is in the block's range on its axis. -/
theorem mem_blk1 (t : Fin cfg1.N) (i : S800000x1.Idx) :
    i ∈ ((cfg1.win 6).blk t).view.set ↔ ∀ a : Fin 2, win1_6.index t a * S4000x1.size a ≤ (i a).val ∧ (i a).val < win1_6.index t a * S4000x1.size a + S4000x1.size a := by
  show i ∈ ((View.whole main_v30).slice (win1_6.rect t)).set ↔ _
  rw [View.set_slice_whole, Rect.mem_set_unit]
  exact Iff.rfl

/-- Every row of the output lies in the block of the point `row / 4000`. -/
theorem cover1 (i : S800000x1.Idx) : ∃ t : Fin cfg1.N, (cfg1.win 6).flush t = true ∧ i ∈ ((cfg1.win 6).blk t).view.set := by
  have hi0 : (i 0).val < 800000 := (i 0).isLt
  have hi1 : (i 1).val < 1 := (i 1).isLt
  have hN : (i 0).val / 4000 < cfg1.N := by rw [show cfg1.N = 200 from N_1]; omega
  refine ⟨⟨(i 0).val / 4000, hN⟩, flush1_6 _, ?_⟩
  rw [mem_blk1]
  have eR : win1_6.index ⟨(i 0).val / 4000, hN⟩ (0 : Fin 2) = (i 0).val / 4000 := (idx1 ⟨(i 0).val / 4000, hN⟩).1
  have eC : win1_6.index ⟨(i 0).val / 4000, hN⟩ (1 : Fin 2) = 0 := (idx1 ⟨(i 0).val / 4000, hN⟩).2.1
  intro a
  match a with
  | ⟨0, _⟩ => show win1_6.index _ (0 : Fin 2) * 4000 ≤ (i 0).val ∧ (i 0).val < win1_6.index _ (0 : Fin 2) * 4000 + 4000; rw [eR]; omega
  | ⟨1, _⟩ => show win1_6.index _ (1 : Fin 2) * 1 ≤ (i 1).val ∧ (i 1).val < win1_6.index _ (1 : Fin 2) * 1 + 1; rw [eC]; omega

/-- The output column after the region: the attention weights of the arrays the region finds. -/
theorem arr1 (c : Dev nD) (A : Ten Ideal Cert.ReferenceIdeal.S160x1 .f32)
    (ha1 : ∀ k : Fin 64, V c main_v25 (ix2 (0 : Fin 1) k) = A (ix2 (⟨k.val, by omega⟩ : Fin 160) (0 : Fin 1)))
    (ha2 : ∀ k : Fin 64, V c main_v27 (ix2 (0 : Fin 1) k) = A (ix2 (⟨64 + k.val, by omega⟩ : Fin 160) (0 : Fin 1)))
    (ha3 : ∀ k : Fin 32, V c main_v29 (ix2 (0 : Fin 1) k) = A (ix2 (⟨128 + k.val, by omega⟩ : Fin 160) (0 : Fin 1))) :
    (dat1 V c).arrAt 6 cfg1.N = att (F := Ideal) (logitsOf (F := Ideal) (V c main_v16) (V c main_v23) (V c main_v5) A) :=
  (dat1 V c).arrAt_eq_of_cover 6 _ (fun t _ => flushed1 V c t A ha1 ha2 ha3) cover1

end Cert.KernelIdeal.Regions

end
-- ==== Proof.RegionMsg.lean ====
/-
  The message kernel's output array.

  The kernel runs over 200 grid points; point `t` reads rows `4000 t … 4000 t + 3999` of the gathered rows and of the
  attention column and writes the same rows of the output.  Every row of the output therefore ends at the
  product of its row with its column entry: the whole array is `contribOf` of the two arrays the region finds.
-/
import proofs.«156379_j75642964017820_2_alg».proof.Proof.Gen.KernelIdeal.Frame
import proofs.«156379_j75642964017820_2_alg».proof.Proof.Stages
import proofs.«156379_j75642964017820_2_alg».proof.Proof.BridgeProj
import Idealize.ShloMosaic.Lib.Pipeline.Value
import Idealize.ShloMosaic.Lib.ValueIdx

set_option maxRecDepth 16384

noncomputable section

namespace Cert.KernelIdeal.Regions

open Cert.KernelIdeal Cert.KernelIdeal.Gen
open Idealize.ShloMosaic Idealize.ShloMosaic.ValueIdx Idealize.ShloMosaic.TcCoe Idealize.SL.Sem
open Idealize.ShloMosaic.Pipeline (Dat Cfg Window)
open Cert.ReferenceIdeal.Stages

variable [Cert.ReferenceIdeal.Facts]

variable (V : (c : Dev nD) → (b : Ref sig .tc) → Buf (Elt Ideal) ((c : Thread nD τ).loc b))

theorem hz2 : (![0, 0] : Fin 2 → Nat) = fun _ => 0 := funext fun a => by fin_cases a <;> rfl

/-- The three windows' block indices at a point: row block `t`, column block 0 (the output window first). -/
theorem idx2 : ∀ t : Fin cfg2.N, win2_2.index t (0 : Fin 2) = t.val ∧ win2_2.index t (1 : Fin 2) = 0
    ∧ win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

theorem lt2 (t : Fin cfg2.N) : t.val < 200 := lt_of_lt_of_eq t.isLt N_2

/-- What point `t` writes back is block `t` of the product of the two arrays. -/
theorem flushed2 (c : Dev nD) (t : Fin cfg2.N) :
    (dat2 V c).flushed 2 t = ((cfg2.win 2).blk t).view.read (Elt Ideal) (contribOf (F := Ideal) (V c main_v23) (V c main_v42)) := by
  show (cfg2.win 2).cut (grid2.coords t) ((dat2 V c).after 2 t) = _
  rw [after2_2]
  unfold out2_2
  rw [View.canon_unit_zero hz2]
  simp only [View.ld_unit_zero (S := S4000x64) hz2, View.ld_unit_zero (S := S4000x1) hz2]
  obtain ⟨e4, e5, e0, e1, e2, e3⟩ := idx2 t
  have ht := lt2 t
  funext j
  obtain ⟨r, cc, rfl⟩ : ∃ (r : Fin 4000) (cc : Fin 64), j = ix2 r cc := ⟨j 0, j 1, eq_ix2 j⟩
  have hr : r.val < 4000 := r.isLt
  show k2_pay1 (iblk2 V c 0 t) (iblk2 V c 1 t) (ix2 r cc)
      = contribOf (F := Ideal) (V c main_v23) (V c main_v42) (((cfg2.win 2).blk t).view.emb (ix2 r cc))
  rw [(show ((cfg2.win 2).blk t).view.emb (ix2 r cc) = ix2 (⟨4000 * t.val + r.val, by omega⟩ : Fin 800000) cc from by
      funext a; apply Fin.ext
      match a with
      | ⟨0, _⟩ => show win2_2.index t (0 : Fin 2) * 4000 + 1 * r.val = 4000 * t.val + r.val; omega
      | ⟨1, _⟩ => show win2_2.index t (1 : Fin 2) * 64 + 1 * cc.val = cc.val; omega)]
  refine Cert.Bridge.msg_at (iblk2 V c 0 t) (iblk2 V c 1 t) (V c main_v23) (V c main_v42) r ⟨4000 * t.val + r.val, by omega⟩ cc ?_ ?_
  · show V c main_v23 (((cfg2.win 0).blk t).view.emb (ix2 r cc)) = _
    rw [(show ((cfg2.win 0).blk t).view.emb (ix2 r cc) = ix2 (⟨4000 * t.val + r.val, by omega⟩ : Fin 800000) cc from by
      funext a; apply Fin.ext
      match a with
      | ⟨0, _⟩ => show win2_0.index t (0 : Fin 2) * 4000 + 1 * r.val = 4000 * t.val + r.val; omega
      | ⟨1, _⟩ => show win2_0.index t (1 : Fin 2) * 64 + 1 * cc.val = cc.val; omega)]
  · show V c main_v42 (((cfg2.win 1).blk t).view.emb (ix2 r (0 : Fin 1))) = _
    rw [(show ((cfg2.win 1).blk t).view.emb (ix2 r (0 : Fin 1)) = ix2 (⟨4000 * t.val + r.val, by omega⟩ : Fin 800000) (0 : Fin 1) from by
      funext a; apply Fin.ext
      match a with
      | ⟨0, _⟩ => show win2_1.index t (0 : Fin 2) * 4000 + 1 * r.val = 4000 * t.val + r.val; omega
      | ⟨1, _⟩ => show win2_1.index t (1 : Fin 2) * 1 + 1 * (0 : Fin 1).val = (0 : Fin 1).val; omega)]

/-- An index is in point `t`'s block iff each coordinate is in the block's range on its axis. -/
theorem mem_blk2 (t : Fin cfg2.N) (i : S800000x64.Idx) :
    i ∈ ((cfg2.win 2).blk t).view.set ↔ ∀ a : Fin 2, win2_2.index t a * S4000x64.size a ≤ (i a).val ∧ (i a).val < win2_2.index t a * S4000x64.size a + S4000x64.size a := by
  show i ∈ ((View.whole main_v44).slice (win2_2.rect t)).set ↔ _
  rw [View.set_slice_whole, Rect.mem_set_unit]
  exact Iff.rfl

/-- Every row of the output lies in the block of the point `row / 4000`. -/
theorem cover2 (i : S800000x64.Idx) : ∃ t : Fin cfg2.N, (cfg2.win 2).flush t = true ∧ i ∈ ((cfg2.win 2).blk t).view.set := by
  have hi0 : (i 0).val < 800000 := (i 0).isLt
  have hi1 : (i 1).val < 64 := (i 1).isLt
  have hN : (i 0).val / 4000 < cfg2.N := by rw [show cfg2.N = 200 from N_2]; omega
  refine ⟨⟨(i 0).val / 4000, hN⟩, flush2_2 _, ?_⟩
  rw [mem_blk2]
  have eR : win2_2.index ⟨(i 0).val / 4000, hN⟩ (0 : Fin 2) = (i 0).val / 4000 := (idx2 ⟨(i 0).val / 4000, hN⟩).1
  have eC : win2_2.index ⟨(i 0).val / 4000, hN⟩ (1 : Fin 2) = 0 := (idx2 ⟨(i 0).val / 4000, hN⟩).2.1
  intro a
  match a with
  | ⟨0, _⟩ => show win2_2.index _ (0 : Fin 2) * 4000 ≤ (i 0).val ∧ (i 0).val < win2_2.index _ (0 : Fin 2) * 4000 + 4000; rw [eR]; omega
  | ⟨1, _⟩ => show win2_2.index _ (1 : Fin 2) * 64 ≤ (i 1).val ∧ (i 1).val < win2_2.index _ (1 : Fin 2) * 64 + 64; rw [eC]; omega

/-- The output array after the region: the product of the two arrays the region finds. -/
theorem arr2 (c : Dev nD) : (dat2 V c).arrAt 2 cfg2.N = contribOf (F := Ideal) (V c main_v23) (V c main_v42) :=
  (dat2 V c).arrAt_eq_of_cover 2 _ (fun t _ => flushed2 V c t) cover2

end Cert.KernelIdeal.Regions

end
-- ==== Proof.BridgeEmbed.lean ====
/-
  The last stage read at one entry: the row-normalised message next to the node projection.

  For a row with projection entries h₀ … h₆₃ and message entries g₀ … g₆₃ and a scalar s, the stage's row is

      [ h₀ … h₆₃ | gₖ / max (√(Σ g²), ε) · √(Σ h²) · s   (k = 0 … 63) ],

  ε the float word 0x2B8CBCCC, every operation exact on the extended reals. `embedAt` is that row as a function of
  the column. The kernel's payload read at (r, c) is `embedAt` of block row r (`kernel_embed`): a lane sum from the
  zero word is the plain sum over the row, kept as a column and repeated along the row. The reference's stage read at
  (q, c) is `embedAt` of array row q (`host_embed`): a host sum from the zero constant is 0 + the same sum.
  So wherever block row r holds array row q, the two agree entry by entry (`embed_at`).
-/
import proofs.«156379_j75642964017820_2_alg».proof.Proof.Stages
import proofs.«156379_j75642964017820_2_alg».proof.Proof.Gen.KernelIdeal.Skeleton
import proofs.«156379_j75642964017820_2_alg».proof.Proof.LibAxisSums
import proofs.«156379_j75642964017820_2_alg».proof.Proof.LibColumnLayout
import proofs.«156379_j75642964017820_2_alg».proof.Proof.LibHostColumns
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.Bridge

variable [Cert.KernelIdeal.Facts] [Cert.ReferenceIdeal.Facts]

/-- The stage's row at column `c`, from the row's message entries `g`, projection entries `h` and the scalar `s`:
    the projection below column 64, and from column 64 on the message entry over `max (‖g‖, ε)`, times `‖h‖`,
    times `s`. -/
def embedAt (g h : Fin 64 → EReal) (s : EReal) (c : Fin 128) : EReal :=
  if hc : c.val < 64 then h ⟨c.val, hc⟩
  else Ideal.div (g ⟨c.val - 64, by have := c.isLt; omega⟩)
      (max (Ideal.sqrt (∑ k : Fin 64, g k * g k)) (Ideal.ofBits .f32 0x2B8CBCCC#32))
    * Ideal.sqrt (∑ k : Fin 64, h k * h k) * s

/-- The host's square root at an index. -/
theorem hostSqrt_apply {s : Shape} {φ : FTy} (a : FVec Ideal s φ) (i : s.Idx) : Host.sqrt a i = Ideal.sqrt (a i) := rfl

/-- The host's quotient at an index. -/
theorem hostDivf_apply {s : Shape} {φ : FTy} (a b : FVec Ideal s φ) (i : s.Idx) :
    Host.divf a b i = Ideal.div (a i) (b i) := rfl

/-! ## The kernel's side -/

/-- The Euclidean norm of a block row, kept as a column: the lane sum of the squares from the zero word, cast to a
    column, under the square root, is the square root of the sum of the row's squares. -/
theorem kernel_rowNorm (v : FVec Ideal Cert.KernelIdeal.S5000x64 .f32)
    (h : Cert.KernelIdeal.S5000x64.Reduces [1] Cert.KernelIdeal.S5000) (hφ : FKind.Formats .f32)
    (hacc : (0x00000000#32 : BitVec 32) = FKind.add.neutral .f32 hφ)
    (hc : Cert.KernelIdeal.S5000.ShapeCasts Cert.KernelIdeal.S5000x1) (r : Fin 5000) (u : Fin 1) :
    sqrt (shapeCast Cert.KernelIdeal.S5000x1
      (multiReduction (F := Ideal) .add [1] Cert.KernelIdeal.S5000 (mulf v v) 0x00000000#32 h hφ hacc) hc) (ix2 r u)
      = Ideal.sqrt (∑ k : Fin 64, v (ix2 r k) * v (ix2 r k)) := by
  show Ideal.sqrt _ = _
  refine congrArg Ideal.sqrt ?_
  refine (Idealize.ShloMosaic.ColumnLayout.shapeCast_a_a1_apply _ hc r u).trans ?_
  exact Cert.Lib.AxisSums.multiReduction_add_last_apply (mulf v v) _ h hφ hacc r

/-- The kernel's payload at (r, c). -/
theorem kernel_embed (x0 x1 : Vec Ideal Cert.KernelIdeal.S5000x64 .f32) (x2 : Vec Ideal Cert.KernelIdeal.S1x1 .f32)
    (r : Fin 5000) (c : Fin 128) :
    Cert.KernelIdeal.Gen.k3_pay1 (F := Ideal) x0 x1 x2 (ix2 r c)
      = embedAt (fun k => x0 (ix2 r k)) (fun k => x1 (ix2 r k)) (x2 (ix2 (0 : Fin 1) (0 : Fin 1))) c := by
  unfold Cert.KernelIdeal.Gen.k3_pay1 embedAt
  simp only [shapeCast_self]
  by_cases hc : c.val < 64
  · rw [dif_pos hc]
    refine (concatenate_pair_apply_left (t := Cert.KernelIdeal.S5000x128) (s₁ := Cert.KernelIdeal.S5000x64)
      (s₂ := Cert.KernelIdeal.S5000x64) (1 : Fin 2) _ _ _ (ix2 r c) rfl (ix2 r (⟨c.val, hc⟩ : Fin 64)) (fun b => ?_)).trans rfl
    match b with
    | ⟨0, _⟩ => rfl
    | ⟨1, _⟩ => rfl
  · rw [dif_neg hc]
    have hc2 : c.val - 64 < 64 := by have := c.isLt; omega
    refine (concatenate_pair_apply_right (t := Cert.KernelIdeal.S5000x128) (s₁ := Cert.KernelIdeal.S5000x64)
      (s₂ := Cert.KernelIdeal.S5000x64) (1 : Fin 2) _ _ _ (ix2 r c) rfl rfl (ix2 r (⟨c.val - 64, hc2⟩ : Fin 64))
      (fun b hb => ?_) ?_).trans ?_
    · match b with
      | ⟨0, _⟩ => rfl
      | ⟨1, _⟩ => exact absurd rfl hb
    · show c.val - 64 + 64 = c.val
      omega
    · show Ideal.div (x0 _) _ * _ * _ = _
      refine congrArg₂ (· * ·) (congrArg₂ (· * ·) (congrArg₂ Ideal.div rfl ?_) ?_) ?_
      · refine (Idealize.ShloMosaic.ColumnLayout.broadcastTo_a1_ab_apply _ _ r _).trans ?_
        exact congrArg₂ max (kernel_rowNorm x0 _ _ _ _ r 0) rfl
      · refine (Idealize.ShloMosaic.ColumnLayout.broadcastTo_a1_ab_apply _ _ r _).trans ?_
        exact kernel_rowNorm x1 _ _ _ _ r 0
      · show x2 _ = x2 _
        refine congrArg x2 (funext fun a => ?_)
        match a with
        | ⟨0, _⟩ => rfl
        | ⟨1, _⟩ => rfl

/-! ## The reference's side -/

/-- Reference: the norm of a row down a column. -/
theorem host_rowNorm (y : Cert.ReferenceIdeal.Stages.Ten Ideal Cert.ReferenceIdeal.S50000x64 .f32) (q : Fin 50000) (u : Fin 1) :
    Cert.ReferenceIdeal.Stages.rowNorm (F := Ideal) y (ix2 q u) = Ideal.sqrt (∑ k : Fin 64, y (ix2 q k) * y (ix2 q k)) := by
  unfold Cert.ReferenceIdeal.Stages.rowNorm
  refine (hostSqrt_apply _ (ix2 q u)).trans (congrArg Ideal.sqrt ?_)
  refine (Cert.Lib.HostColumns.bcast_a_a1_apply _ _ q u).trans ?_
  unfold Host.reduceAdd
  rw [Ideal.hostReduceAdd_def]
  have hR : Cert.ReferenceIdeal.S50000x64.Reduces [1] Cert.ReferenceIdeal.S50000 := by decide
  rw [Ideal.hostReduceAdd_single _ hR]
  rw [constant_apply, Ideal.ofBits_zero_f32, zero_add]
  refine Finset.sum_congr rfl fun k _ => ?_
  have e : hR.lift (ix1 q) k = ix2 q k :=
    funext fun d => Fin.ext (by match d with | ⟨0, _⟩ => rfl | ⟨1, _⟩ => rfl)
  show y (hR.lift (ix1 q) k) * y (hR.lift (ix1 q) k) = y (ix2 q k) * y (ix2 q k)
  exact congrArg (fun i => y i * y i) e

/-- The reference's last stage at (q, c). -/
theorem host_embed (G H : Cert.ReferenceIdeal.Stages.Ten Ideal Cert.ReferenceIdeal.S50000x64 .f32)
    (s : Cert.ReferenceIdeal.Stages.Ten Ideal Cert.ReferenceIdeal.S_ .f32) (q : Fin 50000) (c : Fin 128) :
    Cert.ReferenceIdeal.Stages.embed (F := Ideal) G H s (ix2 q c)
      = embedAt (fun k => G (ix2 q k)) (fun k => H (ix2 q k)) (s ix0) c := by
  unfold Cert.ReferenceIdeal.Stages.embed embedAt
  by_cases hc : c.val < 64
  · rw [dif_pos hc]
    refine (concatenate_pair_apply_left (t := Cert.ReferenceIdeal.S50000x128) (s₁ := Cert.ReferenceIdeal.S50000x64)
      (s₂ := Cert.ReferenceIdeal.S50000x64) (1 : Fin 2) _ _ _ (ix2 q c) rfl (ix2 q (⟨c.val, hc⟩ : Fin 64)) (fun b => ?_)).trans rfl
    match b with
    | ⟨0, _⟩ => rfl
    | ⟨1, _⟩ => rfl
  · rw [dif_neg hc]
    have hc2 : c.val - 64 < 64 := by have := c.isLt; omega
    refine (concatenate_pair_apply_right (t := Cert.ReferenceIdeal.S50000x128) (s₁ := Cert.ReferenceIdeal.S50000x64)
      (s₂ := Cert.ReferenceIdeal.S50000x64) (1 : Fin 2) _ _ _ (ix2 q c) rfl rfl (ix2 q (⟨c.val - 64, hc2⟩ : Fin 64))
      (fun b hb => ?_) ?_).trans ?_
    · match b with
      | ⟨0, _⟩ => rfl
      | ⟨1, _⟩ => exact absurd rfl hb
    · show c.val - 64 + 64 = c.val
      omega
    · rw [mulf_apply, mulf_apply, hostDivf_apply]
      refine congrArg₂ (· * ·) (congrArg₂ (· * ·) (congrArg₂ Ideal.div rfl ?_) ?_) ?_
      · refine (Cert.Lib.HostColumns.bcast_a1_ab_apply _ _ q _).trans ?_
        rw [maximumf_apply]
        exact congrArg₂ max (host_rowNorm G q 0) rfl
      · exact (Cert.Lib.HostColumns.bcast_a1_ab_apply _ _ q _).trans (host_rowNorm H q 0)
      · show s _ = s _
        exact congrArg s (funext fun a => a.elim0)

/-! ## The two sides agree -/

/-- Where block row `r` of the kernel's two operands holds row `q` of the reference's, and the kernel's one-entry
    block holds the reference's scalar, the kernel's payload at (r, c) is the reference's last stage at (q, c). -/
theorem embed_at (x0 x1 : Vec Ideal Cert.KernelIdeal.S5000x64 .f32) (x2 : Vec Ideal Cert.KernelIdeal.S1x1 .f32)
    (G H : Cert.ReferenceIdeal.Stages.Ten Ideal Cert.ReferenceIdeal.S50000x64 .f32)
    (s : Cert.ReferenceIdeal.Stages.Ten Ideal Cert.ReferenceIdeal.S_ .f32)
    (r : Fin 5000) (q : Fin 50000) (c : Fin 128)
    (h0 : ∀ k : Fin 64, x0 (ix2 r k) = G (ix2 q k)) (h1 : ∀ k : Fin 64, x1 (ix2 r k) = H (ix2 q k))
    (h2 : x2 (ix2 (0 : Fin 1) (0 : Fin 1)) = s ix0) :
    Cert.KernelIdeal.Gen.k3_pay1 (F := Ideal) x0 x1 x2 (ix2 r c)
      = Cert.ReferenceIdeal.Stages.embed (F := Ideal) G H s (ix2 q c) := by
  rw [kernel_embed, host_embed]
  have e0 : (fun k : Fin 64 => x0 (ix2 r k)) = fun k => G (ix2 q k) := funext h0
  have e1 : (fun k : Fin 64 => x1 (ix2 r k)) = fun k => H (ix2 q k) := funext h1
  rw [e0, e1, h2]

end Cert.Bridge

end
-- ==== Proof.RegionEmbed.lean ====
/-
  The last kernel's output array.

  The kernel runs over 10 grid points; point `t` reads rows `5000 t … 5000 t + 4999` of the summed messages and of the
  node projection, and the scale as a 1×1 block, and writes the same rows of the 128-wide output: the node
  projection's row followed by the message row divided by the larger of its norm and ε, times the projection
  row's norm, times the scale.  The whole array is therefore the reference's `embed`.
-/
import proofs.«156379_j75642964017820_2_alg».proof.Proof.Gen.KernelIdeal.Frame
import proofs.«156379_j75642964017820_2_alg».proof.Proof.Stages
import proofs.«156379_j75642964017820_2_alg».proof.Proof.BridgeEmbed
import Idealize.ShloMosaic.Lib.Pipeline.Value
import Idealize.ShloMosaic.Lib.ValueIdx

set_option maxRecDepth 16384

noncomputable section

namespace Cert.KernelIdeal.Regions

open Cert.KernelIdeal Cert.KernelIdeal.Gen
open Idealize.ShloMosaic Idealize.ShloMosaic.ValueIdx Idealize.ShloMosaic.TcCoe Idealize.SL.Sem
open Idealize.ShloMosaic.Pipeline (Dat Cfg Window)
open Cert.ReferenceIdeal.Stages

variable [Cert.ReferenceIdeal.Facts]

variable (V : (c : Dev nD) → (b : Ref sig .tc) → Buf (Elt Ideal) ((c : Thread nD τ).loc b))

theorem hz3 : (![0, 0] : Fin 2 → Nat) = fun _ => 0 := funext fun a => by fin_cases a <;> rfl

/-- The four windows' block indices at a point (the output window first): the two row arrays move with the point, the
    scale is one block. -/
theorem idx3 : ∀ t : Fin cfg3.N, win3_3.index t (0 : Fin 2) = t.val ∧ win3_3.index t (1 : Fin 2) = 0
    ∧ win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0 :=
  (by decide +kernel : ∀ t : Fin grid3.N, _)

theorem lt3 (t : Fin cfg3.N) : t.val < 10 := lt_of_lt_of_eq t.isLt N_3

/-- What point `t` writes back is block `t` of the embedding of the arrays the region finds, the 1×1 block read as
    the scale `s`. -/
theorem flushed3 (c : Dev nD) (t : Fin cfg3.N) (s : Ten Ideal Cert.ReferenceIdeal.S_ .f32)
    (hs : V c main_v48 (ix2 (0 : Fin 1) (0 : Fin 1)) = s ix0) :
    (dat3 V c).flushed 3 t = ((cfg3.win 3).blk t).view.read (Elt Ideal) (embed (F := Ideal) (V c main_v47) (V c main_v1) s) := by
  show (cfg3.win 3).cut (grid3.coords t) ((dat3 V c).after 3 t) = _
  rw [after3_3]
  unfold out3_3
  rw [View.canon_unit_zero hz3]
  simp only [View.ld_unit_zero (S := S5000x64) hz3, View.ld_unit_zero (S := S1x1) hz3]
  obtain ⟨e6, e7, e0, e1, e2, e3, e4, e5⟩ := idx3 t
  have ht := lt3 t
  funext j
  obtain ⟨r, cc, rfl⟩ : ∃ (r : Fin 5000) (cc : Fin 128), j = ix2 r cc := ⟨j 0, j 1, eq_ix2 j⟩
  have hr : r.val < 5000 := r.isLt
  show k3_pay1 (iblk3 V c 0 t) (iblk3 V c 1 t) (iblk3 V c 2 t) (ix2 r cc)
      = embed (F := Ideal) (V c main_v47) (V c main_v1) s (((cfg3.win 3).blk t).view.emb (ix2 r cc))
  rw [(show ((cfg3.win 3).blk t).view.emb (ix2 r cc) = ix2 (⟨5000 * t.val + r.val, by omega⟩ : Fin 50000) cc from by
      funext a; apply Fin.ext
      match a with
      | ⟨0, _⟩ => show win3_3.index t (0 : Fin 2) * 5000 + 1 * r.val = 5000 * t.val + r.val; omega
      | ⟨1, _⟩ => show win3_3.index t (1 : Fin 2) * 128 + 1 * cc.val = cc.val; omega)]
  refine Cert.Bridge.embed_at (iblk3 V c 0 t) (iblk3 V c 1 t) (iblk3 V c 2 t) (V c main_v47) (V c main_v1) s r ⟨5000 * t.val + r.val, by omega⟩ cc ?_ ?_ ?_
  · intro k
    show V c main_v47 (((cfg3.win 0).blk t).view.emb (ix2 r k)) = _
    rw [(show ((cfg3.win 0).blk t).view.emb (ix2 r k) = ix2 (⟨5000 * t.val + r.val, by omega⟩ : Fin 50000) k from by
      funext a; apply Fin.ext
      match a with
      | ⟨0, _⟩ => show win3_0.index t (0 : Fin 2) * 5000 + 1 * r.val = 5000 * t.val + r.val; omega
      | ⟨1, _⟩ => show win3_0.index t (1 : Fin 2) * 64 + 1 * k.val = k.val; omega)]
  · intro k
    show V c main_v1 (((cfg3.win 1).blk t).view.emb (ix2 r k)) = _
    rw [(show ((cfg3.win 1).blk t).view.emb (ix2 r k) = ix2 (⟨5000 * t.val + r.val, by omega⟩ : Fin 50000) k from by
      funext a; apply Fin.ext
      match a with
      | ⟨0, _⟩ => show win3_1.index t (0 : Fin 2) * 5000 + 1 * r.val = 5000 * t.val + r.val; omega
      | ⟨1, _⟩ => show win3_1.index t (1 : Fin 2) * 64 + 1 * k.val = k.val; omega)]
  · show V c main_v48 (((cfg3.win 2).blk t).view.emb (ix2 (0 : Fin 1) (0 : Fin 1))) = _
    rw [(show ((cfg3.win 2).blk t).view.emb (ix2 (0 : Fin 1) (0 : Fin 1)) = ix2 (0 : Fin 1) (0 : Fin 1) from by
      funext a; apply Fin.ext
      match a with
      | ⟨0, _⟩ => show win3_2.index t (0 : Fin 2) * 1 + 1 * (0 : Fin 1).val = (0 : Fin 1).val; omega
      | ⟨1, _⟩ => show win3_2.index t (1 : Fin 2) * 1 + 1 * (0 : Fin 1).val = (0 : Fin 1).val; omega)]
    exact hs

/-- An index is in point `t`'s block iff each coordinate is in the block's range on its axis. -/
theorem mem_blk3 (t : Fin cfg3.N) (i : S50000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v49).slice (win3_3.rect t)).set ↔ _
  rw [View.set_slice_whole, Rect.mem_set_unit]
  exact Iff.rfl

/-- Every row of the output lies in the block of the point `row / 5000`. -/
theorem cover3 (i : S50000x128.Idx) : ∃ t : Fin cfg3.N, (cfg3.win 3).flush t = true ∧ i ∈ ((cfg3.win 3).blk t).view.set := by
  have hi0 : (i 0).val < 50000 := (i 0).isLt
  have hi1 : (i 1).val < 128 := (i 1).isLt
  have hN : (i 0).val / 5000 < cfg3.N := by rw [show cfg3.N = 10 from N_3]; omega
  refine ⟨⟨(i 0).val / 5000, hN⟩, flush3_3 _, ?_⟩
  rw [mem_blk3]
  have eR : win3_3.index ⟨(i 0).val / 5000, hN⟩ (0 : Fin 2) = (i 0).val / 5000 := (idx3 ⟨(i 0).val / 5000, hN⟩).1
  have eC : win3_3.index ⟨(i 0).val / 5000, hN⟩ (1 : Fin 2) = 0 := (idx3 ⟨(i 0).val / 5000, hN⟩).2.1
  intro a
  match a with
  | ⟨0, _⟩ => show win3_3.index _ (0 : Fin 2) * 5000 ≤ (i 0).val ∧ (i 0).val < win3_3.index _ (0 : Fin 2) * 5000 + 5000; rw [eR]; omega
  | ⟨1, _⟩ => show win3_3.index _ (1 : Fin 2) * 128 ≤ (i 1).val ∧ (i 1).val < win3_3.index _ (1 : Fin 2) * 128 + 128; rw [eC]; omega

/-- The output array after the region: the embedding of the arrays the region finds. -/
theorem arr3 (c : Dev nD) (s : Ten Ideal Cert.ReferenceIdeal.S_ .f32)
    (hs : V c main_v48 (ix2 (0 : Fin 1) (0 : Fin 1)) = s ix0) :
    (dat3 V c).arrAt 3 cfg3.N = embed (F := Ideal) (V c main_v47) (V c main_v1) s :=
  (dat3 V c).arrAt_eq_of_cover 3 _ (fun t _ => flushed3 V c t s hs) cover3

end Cert.KernelIdeal.Regions

end
-- ==== Proof.LayoutReads.lean ====
/-
  Five layout reads at coordinates, for any element type: a vector cast to a unit row, a run of rows of a column
  cut out and cast to a unit row, and a scalar cast to a one-by-one array. A cast keeps the row-major position, and
  a cut shifts the cut coordinate by its offset, so the unit row `[1, a]` made from rows `o … o + a - 1` of a
  column reads, at `(0, k)`, the column at row `o + k`.
-/
import proofs.«156379_j75642964017820_2_alg».proof.Proof.Gen.KernelIdeal
import Idealize.ShloMosaic.Lib.Pipeline.Value
import Idealize.ShloMosaic.Lib.ValueIdx
import Idealize.ShloMosaic.Lib.ValueLayout

noncomputable section

namespace Cert.Bridge

open Idealize.ShloMosaic Idealize.ShloMosaic.ValueIdx

variable {α : Type}

/-- A column `[a, 1]` cast to the unit row `[1, a]` reads, at `(u, i)`, the column at row `i`: the two row-major
    positions are `i * 1 + 0` and `u * a + i` with `u = 0`. -/
theorem shapeCast_a1_1a_apply {a : ℕ} (x : (⟨2, ![a, 1]⟩ : Shape).Idx → α)
    (h : (⟨2, ![a, 1]⟩ : Shape).ShapeCasts ⟨2, ![1, a]⟩) (u : Fin 1) (i : Fin a) :
    shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- The bias vector cast to a unit row, at `(0, k)`. -/
theorem bias_row_at (b : Cert.KernelIdeal.S64.Idx → α) (k : Fin 64) :
    (fun i => shapeCast Cert.KernelIdeal.S1x64 b Cert.KernelIdeal.Facts₀.shapeCasts_S64_S1x64 i) (ix2 (0 : Fin 1) k)
      = b (ix1 k) :=
  shapeCast_a_1a_apply b _ (0 : Fin 1) k

/-- Rows `0 … 63` of the attention column as a unit row, at `(0, k)`. -/
theorem a1_row_at (A : Cert.KernelIdeal.S160x1.Idx → α) (k : Fin 64) :
    (fun i => shapeCast Cert.KernelIdeal.S1x64
        (extractStridedSlice Cert.KernelIdeal.S64x1 ![0, 0] A Cert.KernelIdeal.Facts₀.slices_S160x1_S64x1_0_0)
        Cert.KernelIdeal.Facts₀.shapeCasts_S64x1_S1x64 i) (ix2 (0 : Fin 1) k)
      = A (ix2 (⟨k.val, by omega⟩ : Fin 160) (0 : Fin 1)) :=
  (shapeCast_a1_1a_apply _ _ (0 : Fin 1) k).trans
    (slice2_axis0_apply 0 A _ k (0 : Fin 1) _ (Nat.zero_add _).symm)

/-- Rows `64 … 127` of the attention column as a unit row, at `(0, k)`. -/
theorem a2_row_at (A : Cert.KernelIdeal.S160x1.Idx → α) (k : Fin 64) :
    (fun i => shapeCast Cert.KernelIdeal.S1x64
        (extractStridedSlice Cert.KernelIdeal.S64x1 ![64, 0] A Cert.KernelIdeal.Facts₀.slices_S160x1_S64x1_64_0)
        Cert.KernelIdeal.Facts₀.shapeCasts_S64x1_S1x64 i) (ix2 (0 : Fin 1) k)
      = A (ix2 (⟨64 + k.val, by omega⟩ : Fin 160) (0 : Fin 1)) :=
  (shapeCast_a1_1a_apply _ _ (0 : Fin 1) k).trans
    (slice2_axis0_apply 64 A _ k (0 : Fin 1) _ rfl)

/-- Rows `128 … 159` of the attention column as a unit row, at `(0, k)`. -/
theorem a3_row_at (A : Cert.KernelIdeal.S160x1.Idx → α) (k : Fin 32) :
    (fun i => shapeCast Cert.KernelIdeal.S1x32
        (extractStridedSlice Cert.KernelIdeal.S32x1 ![128, 0] A Cert.KernelIdeal.Facts₀.slices_S160x1_S32x1_128_0)
        Cert.KernelIdeal.Facts₀.shapeCasts_S32x1_S1x32 i) (ix2 (0 : Fin 1) k)
      = A (ix2 (⟨128 + k.val, by omega⟩ : Fin 160) (0 : Fin 1)) :=
  (shapeCast_a1_1a_apply _ _ (0 : Fin 1) k).trans
    (slice2_axis0_apply 128 A _ k (0 : Fin 1) _ rfl)

/-- A scalar cast to a one-by-one array, at `(0, 0)`: a rank-zero array has one index. -/
theorem scale_at (s : Cert.KernelIdeal.S_.Idx → α) :
    (fun i => shapeCast Cert.KernelIdeal.S1x1 s Cert.KernelIdeal.Facts₀.shapeCasts_S_S1x1 i) (ix2 (0 : Fin 1) (0 : Fin 1))
      = s ix0 := by
  unfold shapeCast
  exact congrArg s (eq_ix0 _)

end Cert.Bridge

end
-- ==== Proof.Fold.lean ====
/-
  The idealized kernel's two results as functions of its arguments.

  The contents of the device buffers at the nine segment boundaries of the program are followed from the launch to
  the return.  A stretch of host operations leaves the reference's stage of the buffers it reads; a kernel region
  leaves, in its output array, the reference's stage of the arrays it finds (the four region modules), its input
  arrays and every other buffer untouched.  Composed:

    node projection  →  gathered rows, edge features, attention rows  →  attention weights
      →  normalised log attention and its variance  →  per-edge messages  →  messages summed per node
      →  the embedding,

  which is the reference's first result, and the variance is its second.
-/
import proofs.«156379_j75642964017820_2_alg».proof.Proof.Gen.KernelIdeal.Frame
import proofs.«156379_j75642964017820_2_alg».proof.Proof.Stages
import proofs.«156379_j75642964017820_2_alg».proof.Proof.HostStretches
import proofs.«156379_j75642964017820_2_alg».proof.Proof.RegionProj
import proofs.«156379_j75642964017820_2_alg».proof.Proof.RegionAttn
import proofs.«156379_j75642964017820_2_alg».proof.Proof.RegionMsg
import proofs.«156379_j75642964017820_2_alg».proof.Proof.RegionEmbed
import proofs.«156379_j75642964017820_2_alg».proof.Proof.LayoutReads

set_option maxRecDepth 16384

noncomputable section

namespace Cert.KernelIdeal.Fold

open Cert.KernelIdeal Cert.KernelIdeal.Gen
open Idealize.ShloMosaic Idealize.ShloMosaic.ValueIdx Idealize.ShloMosaic.TcCoe Idealize.SL.Sem Idealize.ShloMosaic.StableHlo
open Idealize.ShloMosaic.Pipeline (Dat Cfg Window)
open Cert.ReferenceIdeal.Stages

variable [Cert.ReferenceIdeal.Facts]
variable (m : (ℓ : Loc nD τ sig) → Buf (Elt Ideal) ℓ) (ρ : Dev nD → PrngReg) (c : Dev nD)

/-- An argument array as launched. -/
abbrev arg (b : Ref sig .tc) : Buf (Elt Ideal) ((c : Thread nD τ).loc b) := m ((c : Thread nD τ).loc b)

/-! ## Before and through the projection kernel -/

theorem w1_v0 : V1 m ρ c main_v0 = fun i => shapeCast S1x64 (arg m c main_arg4) Facts₀.shapeCasts_S64_S1x64 i :=
  Stretches.bias_row (W0 m ρ c)
theorem w1_arg0 : V1 m ρ c main_arg0 = arg m c main_arg0 := Stretches.keep0_arg0 (W0 m ρ c)
theorem w1_arg3 : V1 m ρ c main_arg3 = arg m c main_arg3 := Stretches.keep0_arg3 (W0 m ρ c)

/-- The projection kernel leaves the node projection. -/
theorem w2_v1 : W2 m ρ c (Proc.devRef .tc main_v1) = hv (F := Ideal) (arg m c main_arg0) (arg m c main_arg3) (arg m c main_arg4) := by
  refine (W2_arr m ρ c 3).trans ((Regions.arr0 (V1 m ρ) c (arg m c main_arg4) ?_).trans ?_)
  · intro k
    rw [w1_v0]
    exact Cert.Bridge.bias_row_at _ k
  · rw [w1_arg0, w1_arg3]

theorem w2_arg1 : W2 m ρ c (Proc.devRef .tc main_arg1) = arg m c main_arg1 :=
  (W2_of_ne m ρ c main_arg1 (by decide)).trans (Stretches.keep0_arg1 (W0 m ρ c))
theorem w2_arg2 : W2 m ρ c (Proc.devRef .tc main_arg2) = arg m c main_arg2 :=
  (W2_of_ne m ρ c main_arg2 (by decide)).trans (Stretches.keep0_arg2 (W0 m ρ c))
theorem w2_arg5 : W2 m ρ c (Proc.devRef .tc main_arg5) = arg m c main_arg5 :=
  (W2_of_ne m ρ c main_arg5 (by decide)).trans (Stretches.keep0_arg5 (W0 m ρ c))
theorem w2_arg6 : W2 m ρ c (Proc.devRef .tc main_arg6) = arg m c main_arg6 :=
  (W2_of_ne m ρ c main_arg6 (by decide)).trans (Stretches.keep0_arg6 (W0 m ρ c))

/-! ## Up to and through the attention kernel -/

/-- The node projection, named. -/
abbrev H : Ten Ideal Cert.ReferenceIdeal.S50000x64 .f32 := hv (F := Ideal) (arg m c main_arg0) (arg m c main_arg3) (arg m c main_arg4)
/-- The source nodes, named. -/
abbrev Sr : Ten Ideal Cert.ReferenceIdeal.S800000 .i32 := src (F := Ideal) (arg m c main_arg2)

theorem w3_v7 : W3 m ρ c (Proc.devRef .tc main_v7) = Sr m c :=
  (Stretches.src_buf (W2 m ρ c)).trans (by rw [w2_arg2])
theorem w3_v16 : W3 m ρ c (Proc.devRef .tc main_v16) = rows (H m c) (wrap (Sr m c)) :=
  (Stretches.hsrc_buf (W2 m ρ c)).trans (by rw [w2_v1, w2_arg2])
theorem w3_v23 : W3 m ρ c (Proc.devRef .tc main_v23) = rows (H m c) (wrap (dst (F := Ideal) (arg m c main_arg2))) :=
  (Stretches.hdst_buf (W2 m ρ c)).trans (by rw [w2_v1, w2_arg2])
theorem w3_v5 : W3 m ρ c (Proc.devRef .tc main_v5) = efu (F := Ideal) (arg m c main_arg1) :=
  (Stretches.efu_buf (W2 m ρ c)).trans (by rw [w2_arg1])
theorem w3_v1 : W3 m ρ c (Proc.devRef .tc main_v1) = H m c :=
  (Stretches.keep1_v1 (W2 m ρ c)).trans (w2_v1 m ρ c)
theorem w3_arg6 : W3 m ρ c (Proc.devRef .tc main_arg6) = arg m c main_arg6 :=
  (Stretches.keep1_arg6 (W2 m ρ c)).trans (w2_arg6 m ρ c)

/-- The attention weights, named. -/
abbrev Att : Ten Ideal Cert.ReferenceIdeal.S800000x1 .f32 :=
  att (F := Ideal) (logitsOf (F := Ideal) (rows (H m c) (wrap (Sr m c))) (rows (H m c) (wrap (dst (F := Ideal) (arg m c main_arg2))))
    (efu (F := Ideal) (arg m c main_arg1)) (arg m c main_arg5))

/-- The attention kernel leaves the attention weights. -/
theorem w4_v30 : W4 m ρ c (Proc.devRef .tc main_v30) = Att m c := by
  refine (W4_arr m ρ c 6).trans ((Regions.arr1 (V3 m ρ) c (arg m c main_arg5) ?_ ?_ ?_).trans ?_)
  · intro k
    rw [show V3 m ρ c main_v25 = _ from Stretches.a1_buf (W2 m ρ c), w2_arg5]
    exact Cert.Bridge.a1_row_at _ k
  · intro k
    rw [show V3 m ρ c main_v27 = _ from Stretches.a2_buf (W2 m ρ c), w2_arg5]
    exact Cert.Bridge.a2_row_at _ k
  · intro k
    rw [show V3 m ρ c main_v29 = _ from Stretches.a3_buf (W2 m ρ c), w2_arg5]
    exact Cert.Bridge.a3_row_at _ k
  · rw [show V3 m ρ c main_v16 = _ from w3_v16 m ρ c, show V3 m ρ c main_v23 = _ from w3_v23 m ρ c,
      show V3 m ρ c main_v5 = _ from w3_v5 m ρ c]

theorem w4_v7 : W4 m ρ c (Proc.devRef .tc main_v7) = Sr m c :=
  (W4_of_ne m ρ c main_v7 (by decide)).trans (w3_v7 m ρ c)
theorem w4_v1 : W4 m ρ c (Proc.devRef .tc main_v1) = H m c :=
  (W4_of_ne m ρ c main_v1 (by decide)).trans (w3_v1 m ρ c)
theorem w4_arg6 : W4 m ρ c (Proc.devRef .tc main_arg6) = arg m c main_arg6 :=
  (W4_of_ne m ρ c main_arg6 (by decide)).trans (w3_arg6 m ρ c)
/-- The gathered destination rows are an input of the attention kernel: it leaves them as it found them. -/
theorem w4_v23 : W4 m ρ c (Proc.devRef .tc main_v23) = rows (H m c) (wrap (dst (F := Ideal) (arg m c main_arg2))) :=
  ((W4_arr m ρ c 1).trans (((dat1 (V3 m ρ) c).arrAt_in 1 rfl _).trans (A_eq1 (V3 m ρ) c 1))).trans (w3_v23 m ρ c)

/-! ## Up to and through the message kernel -/

/-- The normalised log attention, named. -/
abbrev An : Ten Ideal Cert.ReferenceIdeal.S800000x1 .f32 := attNormOf (F := Ideal) (Att m c) (Sr m c)

theorem w6_v42 : W6 m ρ c (Proc.devRef .tc main_v42) = An m c :=
  (Stretches.attNorm_buf (W4 m ρ c)).trans (by rw [w4_v30, w4_v7])
theorem w6_v43 : W6 m ρ c (Proc.devRef .tc main_v43) = variance (F := Ideal) (An m c) :=
  (Stretches.variance_buf (W4 m ρ c)).trans (by rw [w4_v30, w4_v7])
theorem w6_v23 : W6 m ρ c (Proc.devRef .tc main_v23) = rows (H m c) (wrap (dst (F := Ideal) (arg m c main_arg2))) :=
  (Stretches.keep2_v23 (W4 m ρ c)).trans (w4_v23 m ρ c)
theorem w6_v7 : W6 m ρ c (Proc.devRef .tc main_v7) = Sr m c := (Stretches.keep2_v7 (W4 m ρ c)).trans (w4_v7 m ρ c)
theorem w6_v1 : W6 m ρ c (Proc.devRef .tc main_v1) = H m c := (Stretches.keep2_v1 (W4 m ρ c)).trans (w4_v1 m ρ c)
theorem w6_arg6 : W6 m ρ c (Proc.devRef .tc main_arg6) = arg m c main_arg6 :=
  (Stretches.keep2_arg6 (W4 m ρ c)).trans (w4_arg6 m ρ c)

/-- The message kernel leaves the per-edge messages. -/
theorem w7_v44 : W7 m ρ c (Proc.devRef .tc main_v44)
    = contribOf (F := Ideal) (rows (H m c) (wrap (dst (F := Ideal) (arg m c main_arg2)))) (An m c) := by
  refine (W7_arr m ρ c 2).trans ((Regions.arr2 (V6 m ρ) c).trans ?_)
  rw [show V6 m ρ c main_v23 = _ from w6_v23 m ρ c, show V6 m ρ c main_v42 = _ from w6_v42 m ρ c]

theorem w7_v7 : W7 m ρ c (Proc.devRef .tc main_v7) = Sr m c := (W7_of_ne m ρ c main_v7 (by decide)).trans (w6_v7 m ρ c)
theorem w7_v1 : W7 m ρ c (Proc.devRef .tc main_v1) = H m c := (W7_of_ne m ρ c main_v1 (by decide)).trans (w6_v1 m ρ c)
theorem w7_v43 : W7 m ρ c (Proc.devRef .tc main_v43) = variance (F := Ideal) (An m c) :=
  (W7_of_ne m ρ c main_v43 (by decide)).trans (w6_v43 m ρ c)
theorem w7_arg6 : W7 m ρ c (Proc.devRef .tc main_arg6) = arg m c main_arg6 :=
  (W7_of_ne m ρ c main_arg6 (by decide)).trans (w6_arg6 m ρ c)

/-! ## Up to and through the last kernel -/

theorem w8_v47 : W8 m ρ c (Proc.devRef .tc main_v47)
    = msgOf (F := Ideal) (contribOf (F := Ideal) (rows (H m c) (wrap (dst (F := Ideal) (arg m c main_arg2)))) (An m c)) (Sr m c) :=
  (Stretches.msg_buf (W7 m ρ c)).trans (by rw [w7_v44, w7_v7])
theorem w8_v48 : W8 m ρ c (Proc.devRef .tc main_v48) = fun i => shapeCast S1x1 (arg m c main_arg6) Facts₀.shapeCasts_S_S1x1 i :=
  (Stretches.scale_buf (W7 m ρ c)).trans (by rw [w7_arg6])
theorem w8_v1 : W8 m ρ c (Proc.devRef .tc main_v1) = H m c := (Stretches.keep3_v1 (W7 m ρ c)).trans (w7_v1 m ρ c)
theorem w8_v43 : W8 m ρ c (Proc.devRef .tc main_v43) = variance (F := Ideal) (An m c) :=
  (Stretches.keep3_v43 (W7 m ρ c)).trans (w7_v43 m ρ c)

/-- The first result: the embedding, which is the reference's first result of the same arguments. -/
theorem result0_eq : W9 m ρ c (Proc.devRef .tc main_v49)
    = result0 (F := Ideal) (arg m c main_arg0) (arg m c main_arg1) (arg m c main_arg2) (arg m c main_arg3) (arg m c main_arg4)
        (arg m c main_arg5) (arg m c main_arg6) := by
  refine (W9_arr m ρ c 3).trans ((Regions.arr3 (V8 m ρ) c (arg m c main_arg6) ?_).trans ?_)
  · rw [show V8 m ρ c main_v48 = _ from w8_v48 m ρ c]
    exact Cert.Bridge.scale_at _
  · rw [show V8 m ρ c main_v47 = _ from w8_v47 m ρ c, show V8 m ρ c main_v1 = _ from w8_v1 m ρ c]
    rfl

/-- The second result: the variance, which is the reference's second result of the same arguments. -/
theorem result1_eq : W9 m ρ c (Proc.devRef .tc main_v43)
    = result1 (F := Ideal) (arg m c main_arg0) (arg m c main_arg1) (arg m c main_arg2) (arg m c main_arg3) (arg m c main_arg4)
        (arg m c main_arg5) :=
  ((W9_of_ne m ρ c main_v43 (by decide)).trans (w8_v43 m ρ c)).trans rfl

end Cert.KernelIdeal.Fold

end
-- ==== Proof.LibTypedRefCasts.lean ====
/-
  Typed references to host buffers: contents carried to the buffer's own type and back.

  A host operation of a called function is spelt over typed references: each operand's contents are carried from the
  buffer's type to the value's type on the way in, and the result back on the way out. When such operations are
  composed, every intermediate value appears carried out and straight back in. That round trip is the identity, for
  any signature, any element values and any buffer type; rewriting with it leaves the composed operations bare.
-/
import Idealize.ShloMosaic.Lib.StableHlo

namespace Cert.Lib.TypedRefCasts

open Idealize.ShloMosaic Idealize.ShloMosaic.StableHlo

/-- Contents carried to a typed reference's buffer type and back are the contents: `x.ofBuf (x.toBuf v) = v`.
    Use it as a rewrite rule (`simp only [ofBuf_toBuf]`) on the composed term of a list of typed-reference host
    operations, before comparing that term with anything: it removes every paired transport and leaves only the
    transports at the argument buffers and at the result. -/
theorem ofBuf_toBuf {sig : RefSig} {Val : EltTy → Type} {T : BufTy} (x : TRef sig T) (v : T.Contents Val) :
    x.ofBuf (x.toBuf v) = v := by
  obtain ⟨r, rfl, _, _⟩ := x
  rfl

end Cert.Lib.TypedRefCasts
-- ==== Proof.LibAfterAppend.lean ====
/-
  Folding a line of host operations that is given as two lines joined.

  The buffer contents after `l₁ ++ l₂` are those after `l₂` from the contents after `l₁`; and a property that
  holds of every operation of both lines holds of every operation of the joined line. With these a long @main
  can be cut into stretches, each folded and read by itself. A buffer that no operation of a line writes keeps its
  contents through it; `not_written` decides that side condition for a literal line.
-/
import Idealize.ShloMosaic.Lib.StableHlo.Run

namespace Cert.Lib.AfterAppend

open Idealize.ShloMosaic Idealize.ShloMosaic.StableHlo

variable {τ : Topo} {sig : RefSig} {Val : EltTy → Type}

/-- The contents after two lines run one after the other. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- What holds of every element of two lists holds of every element of their concatenation. -/
theorem forall_append {α : Type*} {p : α → Prop} {l₁ l₂ : List α} (h₁ : l₁.Forall p) (h₂ : l₂.Forall p) :
    (l₁ ++ l₂).Forall p :=
  List.forall_iff_forall_mem.mpr fun a ha =>
    (List.mem_append.mp ha).elim (List.forall_iff_forall_mem.mp h₁ a) (List.forall_iff_forall_mem.mp h₂ a)

/-- A buffer that none of a line's operations writes keeps its contents through the line. -/
theorem after_kept (ops : List (HloOp τ sig Val)) (V : Valuation τ sig Val) (b : Ref sig .tc)
    (h : ∀ op ∈ ops, Proc.devRef (τ := τ) .tc b ∉ op.writes) :
    after ops V (Proc.devRef .tc b) = V (Proc.devRef .tc b) :=
  after_of_forall_not_mem ops V h

end Cert.Lib.AfterAppend

/-- Closes `∀ op ∈ ops, Proc.devRef .tc b ∉ op.writes` for a literal line of the builders' operations, each of which writes
    one buffer, none of them `b`: the membership is decided operation by operation. -/
macro "not_written" : tactic =>
  `(tactic| (refine List.forall_iff_forall_mem.mp ?_
             simp only [List.Forall, Idealize.ShloMosaic.StableHlo.nullary_writes, Idealize.ShloMosaic.StableHlo.unary_writes,
               Idealize.ShloMosaic.StableHlo.binary_writes, Idealize.ShloMosaic.StableHlo.ternary_writes,
               Idealize.ShloMosaic.StableHlo.reshape_writes, Finset.mem_singleton]
             repeat' apply And.intro
             all_goals exact Idealize.ShloMosaic.StableHlo.devRef_ne_of_ne (by decide)))
-- ==== Proof.RefRun.lean ====
/-
  The reference program's run, as a straight line of host operations.

  The reference's `main` is eighty statements, four of them calls of functions of the module (the leaky rectifier, which
  calls the selection; the variance, which calls the scalar selection; the row norm, twice). Each call's body is listed
  here at its call site over the buffers that call names, so that `main` is one line of 112 operations. The line is cut
  at the boundaries of the mathematical stages: the node projection and the two edge columns; the attention weights;
  their normalisation by source node; the variance and the destination index; the messages and the embedding. Each
  stretch is folded by itself: the buffers a later stretch reads are the stage functions of the buffers the stretch
  reads, and every other buffer it does not write is kept. Composed, the two results are the stage functions
  `Stages.result0` and `Stages.result1` of the arguments, and the arguments are unchanged.
-/
import proofs.«156379_j75642964017820_2_alg».proof.Proof.Stages
import proofs.«156379_j75642964017820_2_alg».proof.Proof.LibTypedRefCasts
import proofs.«156379_j75642964017820_2_alg».proof.Proof.LibAfterAppend
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F] [Facts]

/-! ## The operations -/

/-- The edge list doubled and split into its two columns, the edge features doubled, the node projection: statements 1 … 12. -/
abbrev opsA : List (HloOp τ sig (Elt F)) :=
  [ StableHlo.reshape main_arg2 main_v0 rfl shapeCasts_S2x400000_S400000x2,
    StableHlo.unary main_v0 main_v1 (Host.reverse [1] : (⟨S400000x2, .i32⟩ : BufTy).Contents (Elt F) → (⟨S400000x2, .i32⟩ : BufTy).Contents (Elt F)),
    StableHlo.binary main_v0 main_v1 main_v2 ((fun a b => concatenate S800000x2 0 [⟨S400000x2, a⟩, ⟨S400000x2, b⟩] concatenates_S400000x2_S400000x2_S800000x2_d0) : (⟨S400000x2, .i32⟩ : BufTy).Contents (Elt F) → (⟨S400000x2, .i32⟩ : BufTy).Contents (Elt F) → (⟨S800000x2, .i32⟩ : BufTy).Contents (Elt F)),
    StableHlo.binary main_arg1 main_arg1 main_v3 ((fun a b => concatenate S800000x32 0 [⟨S400000x32, a⟩, ⟨S400000x32, b⟩] concatenates_S400000x32_S400000x32_S800000x32_d0) : (⟨S400000x32, .f32⟩ : BufTy).Contents (Elt F) → (⟨S400000x32, .f32⟩ : BufTy).Contents (Elt F) → (⟨S800000x32, .f32⟩ : BufTy).Contents (Elt F)),
    StableHlo.unary main_v2 main_v4 ((extractStridedSlice S800000x1 ![0, 0] · slices_S800000x2_S800000x1_0_0) : (⟨S800000x2, .i32⟩ : BufTy).Contents (Elt F) → (⟨S800000x1, .i32⟩ : BufTy).Contents (Elt F)),
    StableHlo.reshape main_v4 main_v5 rfl shapeCasts_S800000x1_S800000,
    StableHlo.unary main_v2 main_v6 ((extractStridedSlice S800000x1 ![0, 1] · slices_S800000x2_S800000x1_0_1) : (⟨S800000x2, .i32⟩ : BufTy).Contents (Elt F) → (⟨S800000x1, .i32⟩ : BufTy).Contents (Elt F)),
    StableHlo.reshape main_v6 main_v7 rfl shapeCasts_S800000x1_S800000,
    StableHlo.binary main_arg0 main_arg3 main_v8 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg4 main_v9 (broadcastInDim S1x64 ![1] bcast_S64_S1x64_1 : (⟨S64, .f32⟩ : BufTy).Contents (Elt F) → (⟨S1x64, .f32⟩ : BufTy).Contents (Elt F)),
    StableHlo.unary main_v9 main_v10 (broadcastInDim S50000x64 ![0, 1] bcast_S1x64_S50000x64_0_1 : (⟨S1x64, .f32⟩ : BufTy).Contents (Elt F) → (⟨S50000x64, .f32⟩ : BufTy).Contents (Elt F)),
    StableHlo.binary main_v8 main_v10 main_v11 (addf : (⟨S50000x64, .f32⟩ : BufTy).Contents (Elt F) → (⟨S50000x64, .f32⟩ : BufTy).Contents (Elt F) → (⟨S50000x64, .f32⟩ : BufTy).Contents (Elt F)) ]

/-- The two gathers of projected rows, the contraction with the attention vector, the leaky rectifier (its call listed inline) and the exponential. -/
abbrev opsB : List (HloOp τ sig (Elt F)) :=
  [ StableHlo.nullary main_c (constantI S_ 32 0#32),
    StableHlo.unary main_c main_v12 (broadcastInDim S800000 ![] bcast_S_S800000 : (⟨S_, .i32⟩ : BufTy).Contents (Elt F) → (⟨S800000, .i32⟩ : BufTy).Contents (Elt F)),
    StableHlo.binary main_v5 main_v12 main_v13 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v14 (broadcastInDim S800000 ![] bcast_S_S800000 : (⟨S_, .i32⟩ : BufTy).Contents (Elt F) → (⟨S800000, .i32⟩ : BufTy).Contents (Elt F)),
    StableHlo.binary main_v5 main_v14 main_v15 (addi : (⟨S800000, .i32⟩ : BufTy).Contents (Elt F) → (⟨S800000, .i32⟩ : BufTy).Contents (Elt F) → (⟨S800000, .i32⟩ : BufTy).Contents (Elt F)),
    StableHlo.ternary main_v13 main_v15 main_v5 main_v16 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v16 main_v17 (broadcastInDim S800000x1 ![0] bcast_S800000_S800000x1_0 : (⟨S800000, .i32⟩ : BufTy).Contents (Elt F) → (⟨S800000x1, .i32⟩ : BufTy).Contents (Elt F)),
    StableHlo.binary main_v11 main_v17 main_v18 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_c_1 (constantI S_ 32 0#32),
    StableHlo.unary main_c_1 main_v19 (broadcastInDim S800000 ![] bcast_S_S800000 : (⟨S_, .i32⟩ : BufTy).Contents (Elt F) → (⟨S800000, .i32⟩ : BufTy).Contents (Elt F)),
    StableHlo.binary main_v7 main_v19 main_v20 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 50000#32),
    StableHlo.unary main_c_2 main_v21 (broadcastInDim S800000 ![] bcast_S_S800000 : (⟨S_, .i32⟩ : BufTy).Contents (Elt F) → (⟨S800000, .i32⟩ : BufTy).Contents (Elt F)),
    StableHlo.binary main_v7 main_v21 main_v22 (addi : (⟨S800000, .i32⟩ : BufTy).Contents (Elt F) → (⟨S800000, .i32⟩ : BufTy).Contents (Elt F) → (⟨S800000, .i32⟩ : BufTy).Contents (Elt F)),
    StableHlo.ternary main_v20 main_v22 main_v7 main_v23 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v23 main_v24 (broadcastInDim S800000x1 ![0] bcast_S800000_S800000x1_0 : (⟨S800000, .i32⟩ : BufTy).Contents (Elt F) → (⟨S800000x1, .i32⟩ : BufTy).Contents (Elt F)),
    StableHlo.binary main_v11 main_v24 main_v25 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nary ![main_v18, main_v25, main_v3] main_v26 (fun u => concatenate S800000x160 1 [⟨S800000x64, u 0⟩, ⟨S800000x64, u 1⟩, ⟨S800000x32, u 2⟩] concatenates_S800000x64_S800000x64_S800000x32_S800000x160_d1),
    StableHlo.binary main_v26 main_arg5 main_v27 ((fun l r => Host.dotGeneral dot_S800000x160_S160x1_S800000x1_1_0_0_1_n_n none l r) : (⟨S800000x160, .f32⟩ : BufTy).Contents (Elt F) → (⟨S160x1, .f32⟩ : BufTy).Contents (Elt F) → (⟨S800000x1, .f32⟩ : BufTy).Contents (Elt F)),
    StableHlo.nullary main_cst (constant S_ .f32 0x3E4CCCCD#32),
    StableHlo.TRef.nullary main_call0.cst (constant S_ .f32 0x00000000#32),
    StableHlo.TRef.unary main_call0.cst main_call0.v0 (broadcastInDim S800000x1 ![] bcast_S_S800000x1),
    StableHlo.TRef.binary (.of main_v27 : StableHlo.TRef sig ⟨S800000x1, .f32⟩) main_call0.v0 main_call0.v1 (cmpf .oge),
    StableHlo.TRef.unary (.of main_cst : StableHlo.TRef sig ⟨S_, .f32⟩) main_call0.v2 id,
    StableHlo.TRef.unary main_call0.v2 main_call0.v3 (broadcastInDim S800000x1 ![] bcast_S_S800000x1),
    StableHlo.TRef.binary main_call0.v3 (.of main_v27 : StableHlo.TRef sig ⟨S800000x1, .f32⟩) main_call0.v4 mulf,
    StableHlo.TRef.ternary main_call0.v1 (.of main_v27 : StableHlo.TRef sig ⟨S800000x1, .f32⟩) main_call0.v4 main_call0.call0.v0 select,
    StableHlo.unary main_v28 main_v29 (Host.exp : (⟨S800000x1, .f32⟩ : BufTy).Contents (Elt F) → (⟨S800000x1, .f32⟩ : BufTy).Contents (Elt F)) ]

/-- The segment sum of the weights over the source nodes, gathered back, the quotient and its logarithm. -/
abbrev opsC : List (HloOp τ sig (Elt F)) :=
  [ StableHlo.nullary main_cst_3 (constant S_ .f32 0x00000000#32),
    StableHlo.unary main_cst_3 main_v30 (broadcastInDim S50000x1 ![] bcast_S_S50000x1 : (⟨S_, .f32⟩ : BufTy).Contents (Elt F) → (⟨S50000x1, .f32⟩ : BufTy).Contents (Elt F)),
    StableHlo.unary main_v5 main_v31 (broadcastInDim S800000x1 ![0] bcast_S800000_S800000x1_0 : (⟨S800000, .i32⟩ : BufTy).Contents (Elt F) → (⟨S800000x1, .i32⟩ : BufTy).Contents (Elt F)),
    StableHlo.ternary main_v30 main_v31 main_v29 main_v32 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    StableHlo.nullary main_c_4 (constantI S_ 32 0#32),
    StableHlo.unary main_c_4 main_v33 (broadcastInDim S800000 ![] bcast_S_S800000 : (⟨S_, .i32⟩ : BufTy).Contents (Elt F) → (⟨S800000, .i32⟩ : BufTy).Contents (Elt F)),
    StableHlo.binary main_v5 main_v33 main_v34 (cmpi .slt : (⟨S800000, .i32⟩ : BufTy).Contents (Elt F) → (⟨S800000, .i32⟩ : BufTy).Contents (Elt F) → (⟨S800000, .i1⟩ : BufTy).Contents (Elt F)),
    StableHlo.nullary main_c_5 (constantI S_ 32 50000#32),
    StableHlo.unary main_c_5 main_v35 (broadcastInDim S800000 ![] bcast_S_S800000 : (⟨S_, .i32⟩ : BufTy).Contents (Elt F) → (⟨S800000, .i32⟩ : BufTy).Contents (Elt F)),
    StableHlo.binary main_v5 main_v35 main_v36 (addi : (⟨S800000, .i32⟩ : BufTy).Contents (Elt F) → (⟨S800000, .i32⟩ : BufTy).Contents (Elt F) → (⟨S800000, .i32⟩ : BufTy).Contents (Elt F)),
    StableHlo.ternary main_v34 main_v36 main_v5 main_v37 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v37 main_v38 (broadcastInDim S800000x1 ![0] bcast_S800000_S800000x1_0 : (⟨S800000, .i32⟩ : BufTy).Contents (Elt F) → (⟨S800000x1, .i32⟩ : BufTy).Contents (Elt F)),
    StableHlo.binary main_v32 main_v38 main_v39 ((fun x i => Host.gather gather_S50000x1_S800000x1_S800000x1_1_0_n_n_0_1_11 x i) : (⟨S50000x1, .f32⟩ : BufTy).Contents (Elt F) → (⟨S800000x1, .i32⟩ : BufTy).Contents (Elt F) → (⟨S800000x1, .f32⟩ : BufTy).Contents (Elt F)),
    StableHlo.binary main_v29 main_v39 main_v40 (Host.divf : (⟨S800000x1, .f32⟩ : BufTy).Contents (Elt F) → (⟨S800000x1, .f32⟩ : BufTy).Contents (Elt F) → (⟨S800000x1, .f32⟩ : BufTy).Contents (Elt F)),
    StableHlo.unary main_v40 main_v41 (Host.log : (⟨S800000x1, .f32⟩ : BufTy).Contents (Elt F) → (⟨S800000x1, .f32⟩ : BufTy).Contents (Elt F)) ]

/-- The variance of the normalised weights (its call listed inline) and the destination index down a column. -/
abbrev opsD : List (HloOp τ sig (Elt F)) :=
  [ StableHlo.nullary main_c_6 (constantI S_ 32 1#32),
    StableHlo.TRef.nullary main_call1.cst (constant S_ .f32 0x00000000#32),
    StableHlo.TRef.binary (.of main_v41 : StableHlo.TRef sig ⟨S800000x1, .f32⟩) main_call1.cst main_call1.v0 (fun x v => Host.reduceAdd x v reducesTo_S800000x1_S_d0_1 h_S_),
    StableHlo.TRef.unary main_call1.v0 main_call1.v1 (broadcastInDim S1x1 ![] bcast_S_S1x1),
    StableHlo.TRef.nullary main_call1.cst_0 (constant S_ .f32 0x49435000#32),
    StableHlo.TRef.unary main_call1.cst_0 main_call1.v2 (broadcastInDim S1x1 ![] bcast_S_S1x1),
    StableHlo.TRef.binary main_call1.v1 main_call1.v2 main_call1.v3 Host.divf,
    StableHlo.TRef.unary main_call1.v3 main_call1.v4 (broadcastInDim S800000x1 ![0, 1] bcast_S1x1_S800000x1_0_1),
    StableHlo.TRef.binary (.of main_v41 : StableHlo.TRef sig ⟨S800000x1, .f32⟩) main_call1.v4 main_call1.v5 subf,
    StableHlo.TRef.binary main_call1.v5 main_call1.v5 main_call1.v6 mulf,
    StableHlo.TRef.unary (.of main_c_6 : StableHlo.TRef sig ⟨S_, .i32⟩) main_call1.v7 (sitofp .f32),
    StableHlo.TRef.nullary main_call1.cst_1 (constant S_ .f32 0x49435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S800000x1_S_d0_1 h_S_),
    StableHlo.TRef.binary main_call1.v9 main_call1.v8 main_call1.v10 Host.divf,
    StableHlo.TRef.nullary main_call1.cst_3 (constant S_ .f32 0x00000000#32),
    StableHlo.TRef.binary main_call1.v8 main_call1.cst_3 main_call1.v11 (cmpf .ogt),
    StableHlo.TRef.nullary main_call1.cst_4 (constant S_ .f32 0x7FC00000#32),
    StableHlo.TRef.unary main_call1.cst_4 main_call1.call0.v0 id,
    StableHlo.TRef.ternary main_call1.v11 main_call1.v10 main_call1.call0.v0 main_call1.call0.v1 select,
    StableHlo.nullary main_c_7 (constantI S_ 32 0#32),
    StableHlo.unary main_c_7 main_v43 (broadcastInDim S800000 ![] bcast_S_S800000 : (⟨S_, .i32⟩ : BufTy).Contents (Elt F) → (⟨S800000, .i32⟩ : BufTy).Contents (Elt F)),
    StableHlo.binary main_v7 main_v43 main_v44 (cmpi .slt : (⟨S800000, .i32⟩ : BufTy).Contents (Elt F) → (⟨S800000, .i32⟩ : BufTy).Contents (Elt F) → (⟨S800000, .i1⟩ : BufTy).Contents (Elt F)),
    StableHlo.nullary main_c_8 (constantI S_ 32 50000#32),
    StableHlo.unary main_c_8 main_v45 (broadcastInDim S800000 ![] bcast_S_S800000 : (⟨S_, .i32⟩ : BufTy).Contents (Elt F) → (⟨S800000, .i32⟩ : BufTy).Contents (Elt F)),
    StableHlo.binary main_v7 main_v45 main_v46 (addi : (⟨S800000, .i32⟩ : BufTy).Contents (Elt F) → (⟨S800000, .i32⟩ : BufTy).Contents (Elt F) → (⟨S800000, .i32⟩ : BufTy).Contents (Elt F)),
    StableHlo.ternary main_v44 main_v46 main_v7 main_v47 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v47 main_v48 (broadcastInDim S800000x1 ![0] bcast_S800000_S800000x1_0 : (⟨S800000, .i32⟩ : BufTy).Contents (Elt F) → (⟨S800000x1, .i32⟩ : BufTy).Contents (Elt F)) ]

/-- The messages, their segment sum, the two row norms (their calls listed inline) and the embedding: statements 61 … 80. -/
abbrev opsE : List (HloOp τ sig (Elt F)) :=
  [ StableHlo.binary main_v11 main_v48 main_v49 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.unary main_v41 main_v50 (broadcastInDim S800000x64 ![0, 1] bcast_S800000x1_S800000x64_0_1 : (⟨S800000x1, .f32⟩ : BufTy).Contents (Elt F) → (⟨S800000x64, .f32⟩ : BufTy).Contents (Elt F)),
    StableHlo.binary main_v49 main_v50 main_v51 (mulf : (⟨S800000x64, .f32⟩ : BufTy).Contents (Elt F) → (⟨S800000x64, .f32⟩ : BufTy).Contents (Elt F) → (⟨S800000x64, .f32⟩ : BufTy).Contents (Elt F)),
    StableHlo.nullary main_cst_9 (constant S_ .f32 0x00000000#32),
    StableHlo.unary main_cst_9 main_v52 (broadcastInDim S50000x64 ![] bcast_S_S50000x64 : (⟨S_, .f32⟩ : BufTy).Contents (Elt F) → (⟨S50000x64, .f32⟩ : BufTy).Contents (Elt F)),
    StableHlo.unary main_v5 main_v53 (broadcastInDim S800000x1 ![0] bcast_S800000_S800000x1_0 : (⟨S800000, .i32⟩ : BufTy).Contents (Elt F) → (⟨S800000x1, .i32⟩ : BufTy).Contents (Elt F)),
    StableHlo.ternary main_v52 main_v53 main_v51 main_v54 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.TRef.binary (.of main_v54 : StableHlo.TRef sig ⟨S50000x64, .f32⟩) (.of main_v54 : StableHlo.TRef sig ⟨S50000x64, .f32⟩) main_call2.v0 mulf,
    StableHlo.TRef.nullary main_call2.cst (constant S_ .f32 0x00000000#32),
    StableHlo.TRef.binary main_call2.v0 main_call2.cst main_call2.v1 (fun x v => Host.reduceAdd x v reducesTo_S50000x64_S50000_d1 h_S_),
    StableHlo.TRef.unary main_call2.v1 main_call2.v2 (broadcastInDim S50000x1 ![0] bcast_S50000_S50000x1_0),
    StableHlo.TRef.unary main_call2.v2 main_call2.v3 Host.sqrt,
    StableHlo.nullary main_cst_10 (constant S_ .f32 0x2B8CBCCC#32),
    StableHlo.unary main_cst_10 main_v56 (broadcastInDim S50000x1 ![] bcast_S_S50000x1 : (⟨S_, .f32⟩ : BufTy).Contents (Elt F) → (⟨S50000x1, .f32⟩ : BufTy).Contents (Elt F)),
    StableHlo.binary main_v55 main_v56 main_v57 (maximumf : (⟨S50000x1, .f32⟩ : BufTy).Contents (Elt F) → (⟨S50000x1, .f32⟩ : BufTy).Contents (Elt F) → (⟨S50000x1, .f32⟩ : BufTy).Contents (Elt F)),
    StableHlo.unary main_v57 main_v58 (broadcastInDim S50000x64 ![0, 1] bcast_S50000x1_S50000x64_0_1 : (⟨S50000x1, .f32⟩ : BufTy).Contents (Elt F) → (⟨S50000x64, .f32⟩ : BufTy).Contents (Elt F)),
    StableHlo.binary main_v54 main_v58 main_v59 (Host.divf : (⟨S50000x64, .f32⟩ : BufTy).Contents (Elt F) → (⟨S50000x64, .f32⟩ : BufTy).Contents (Elt F) → (⟨S50000x64, .f32⟩ : BufTy).Contents (Elt F)),
    StableHlo.TRef.binary (.of main_v11 : StableHlo.TRef sig ⟨S50000x64, .f32⟩) (.of main_v11 : StableHlo.TRef sig ⟨S50000x64, .f32⟩) main_call3.v0 mulf,
    StableHlo.TRef.nullary main_call3.cst (constant S_ .f32 0x00000000#32),
    StableHlo.TRef.binary main_call3.v0 main_call3.cst main_call3.v1 (fun x v => Host.reduceAdd x v reducesTo_S50000x64_S50000_d1 h_S_),
    StableHlo.TRef.unary main_call3.v1 main_call3.v2 (broadcastInDim S50000x1 ![0] bcast_S50000_S50000x1_0),
    StableHlo.TRef.unary main_call3.v2 main_call3.v3 Host.sqrt,
    StableHlo.unary main_v60 main_v61 (broadcastInDim S50000x64 ![0, 1] bcast_S50000x1_S50000x64_0_1 : (⟨S50000x1, .f32⟩ : BufTy).Contents (Elt F) → (⟨S50000x64, .f32⟩ : BufTy).Contents (Elt F)),
    StableHlo.binary main_v59 main_v61 main_v62 (mulf : (⟨S50000x64, .f32⟩ : BufTy).Contents (Elt F) → (⟨S50000x64, .f32⟩ : BufTy).Contents (Elt F) → (⟨S50000x64, .f32⟩ : BufTy).Contents (Elt F)),
    StableHlo.unary main_arg6 main_v63 (broadcastInDim S50000x64 ![] bcast_S_S50000x64 : (⟨S_, .f32⟩ : BufTy).Contents (Elt F) → (⟨S50000x64, .f32⟩ : BufTy).Contents (Elt F)),
    StableHlo.binary main_v62 main_v63 main_v64 (mulf : (⟨S50000x64, .f32⟩ : BufTy).Contents (Elt F) → (⟨S50000x64, .f32⟩ : BufTy).Contents (Elt F) → (⟨S50000x64, .f32⟩ : BufTy).Contents (Elt F)),
    StableHlo.binary main_v11 main_v64 main_v65 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)) ]

/-- The operations of statements 1 … 60. -/
abbrev ops0 : List (HloOp τ sig (Elt F)) := opsA ++ (opsB ++ (opsC ++ opsD))

/-- The reference's 112 operations, in order. -/
abbrev ops : List (HloOp τ sig (Elt F)) := ops0 ++ opsE

/-! ## `main` is that line -/

set_option maxRecDepth 8192 in
set_option maxHeartbeats 4000000 in
theorem main_part0_eq (c : Dev nD) : main_part0 (F := F) c = seq ops0 := by
  simp only [main_part0, fn_leaky_relu.body, fn_where.body, fn_var.body, fn_where_0.body, bind_assoc, pure_bind]
  rfl

set_option maxRecDepth 8192 in
set_option maxHeartbeats 4000000 in
theorem main_part1_eq (c : Dev nD) : main_part1 (F := F) c = seq opsE := by
  simp only [main_part1, fn_norm.body, bind_assoc, pure_bind]
  rfl

theorem main_eq (c : Dev nD) : main (F := F) c = seq ops := by
  simp only [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨reshape_bufs_sub .., unary_bufs_sub .., binary_bufs_sub .., binary_bufs_sub .., unary_bufs_sub .., reshape_bufs_sub .., unary_bufs_sub .., reshape_bufs_sub .., binary_bufs_sub .., unary_bufs_sub .., unary_bufs_sub .., binary_bufs_sub ..⟩

theorem opsB_sub : (opsB : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., binary_bufs_sub .., nullary_bufs_sub .., nullary_bufs_sub .., unary_bufs_sub .., binary_bufs_sub .., unary_bufs_sub .., unary_bufs_sub .., binary_bufs_sub .., ternary_bufs_sub .., unary_bufs_sub ..⟩

theorem opsC_sub : (opsC : List (HloOp τ sig (Elt F))).Forall fun op => op.bufs ⊆ tcRefs τ sig :=
  ⟨nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub ..⟩

theorem opsD_sub : (opsD : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., binary_bufs_sub .., nullary_bufs_sub .., binary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub ..⟩

theorem opsE_sub : (opsE : List (HloOp τ sig (Elt F))).Forall fun op => op.bufs ⊆ tcRefs τ sig :=
  ⟨binary_bufs_sub .., unary_bufs_sub .., binary_bufs_sub .., nullary_bufs_sub .., unary_bufs_sub .., unary_bufs_sub .., ternary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., unary_bufs_sub .., binary_bufs_sub .., unary_bufs_sub .., binary_bufs_sub .., binary_bufs_sub ..⟩

theorem ops_sub : (ops : List (HloOp τ sig (Elt F))).Forall fun op => op.bufs ⊆ tcRefs τ sig :=
  Cert.Lib.AfterAppend.forall_append
    (Cert.Lib.AfterAppend.forall_append opsA_sub
      (Cert.Lib.AfterAppend.forall_append opsB_sub (Cert.Lib.AfterAppend.forall_append opsC_sub opsD_sub)))
    opsE_sub

/-! ## Each stretch folded

For each stretch: the buffers it writes, that every other buffer keeps its contents through it, and what the buffers a
later stretch reads hold after it — a stage function of what the buffers it reads held before. -/

/-- The buffers that `opsA` writes. -/
abbrev opsA_W : List (Ref sig .tc) := [main_v0, main_v1, main_v2, main_v3, main_v4, main_v5, main_v6, main_v7, main_v8, main_v9, main_v10, main_v11]
set_option maxRecDepth 8192 in
theorem opsA_writes : (opsA : List (HloOp τ sig (Elt F))).Forall fun op =>
    op.writes ⊆ (opsA_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩
/-- A buffer that `opsA` does not write keeps its contents through it. -/
theorem opsA_keep (W : Valuation τ sig (Elt F)) (r : Ref sig .tc) (h : r ∉ opsA_W) :
    after opsA W (Proc.devRef .tc r) = W (Proc.devRef .tc r) :=
  after_of_writes_sub opsA _ opsA_writes h

/-- The buffers that `opsB` writes. -/
abbrev opsB_W : List (Ref sig .tc) := [main_c, main_v12, main_v13, main_c_0, main_v14, main_v15, main_v16, main_v17, main_v18, main_c_1, main_v19, main_v20, main_c_2, main_v21, main_v22, main_v23, main_v24, main_v25, main_v26, main_v27, main_cst, main_call0.cst.ref, main_call0.v0.ref, main_call0.v1.ref, main_call0.v2.ref, main_call0.v3.ref, main_call0.v4.ref, main_call0.call0.v0.ref, main_v29]
set_option maxRecDepth 8192 in
theorem opsB_writes : (opsB : List (HloOp τ sig (Elt F))).Forall fun op =>
    op.writes ⊆ (opsB_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩
/-- A buffer that `opsB` does not write keeps its contents through it. -/
theorem opsB_keep (W : Valuation τ sig (Elt F)) (r : Ref sig .tc) (h : r ∉ opsB_W) :
    after opsB W (Proc.devRef .tc r) = W (Proc.devRef .tc r) :=
  after_of_writes_sub opsB _ opsB_writes h

/-- The buffers that `opsC` writes. -/
abbrev opsC_W : List (Ref sig .tc) := [main_cst_3, main_v30, main_v31, main_v32, main_c_4, main_v33, main_v34, main_c_5, main_v35, main_v36, main_v37, main_v38, main_v39, main_v40, main_v41]
set_option maxRecDepth 8192 in
theorem opsC_writes : (opsC : List (HloOp τ sig (Elt F))).Forall fun op =>
    op.writes ⊆ (opsC_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩
/-- A buffer that `opsC` does not write keeps its contents through it. -/
theorem opsC_keep (W : Valuation τ sig (Elt F)) (r : Ref sig .tc) (h : r ∉ opsC_W) :
    after opsC W (Proc.devRef .tc r) = W (Proc.devRef .tc r) :=
  after_of_writes_sub opsC _ opsC_writes h

/-- The buffers that `opsD` writes. -/
abbrev opsD_W : List (Ref sig .tc) := [main_c_6, main_call1.cst.ref, main_call1.v0.ref, main_call1.v1.ref, main_call1.cst_0.ref, main_call1.v2.ref, main_call1.v3.ref, main_call1.v4.ref, main_call1.v5.ref, main_call1.v6.ref, main_call1.v7.ref, main_call1.cst_1.ref, main_call1.v8.ref, main_call1.cst_2.ref, main_call1.v9.ref, main_call1.v10.ref, main_call1.cst_3.ref, main_call1.v11.ref, main_call1.cst_4.ref, main_call1.call0.v0.ref, main_call1.call0.v1.ref, main_c_7, main_v43, main_v44, main_c_8, main_v45, main_v46, main_v47, main_v48]
set_option maxRecDepth 8192 in
theorem opsD_writes : (opsD : List (HloOp τ sig (Elt F))).Forall fun op =>
    op.writes ⊆ (opsD_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩
/-- A buffer that `opsD` does not write keeps its contents through it. -/
theorem opsD_keep (W : Valuation τ sig (Elt F)) (r : Ref sig .tc) (h : r ∉ opsD_W) :
    after opsD W (Proc.devRef .tc r) = W (Proc.devRef .tc r) :=
  after_of_writes_sub opsD _ opsD_writes h

/-- The buffers that `opsE` writes. -/
abbrev opsE_W : List (Ref sig .tc) := [main_v49, main_v50, main_v51, main_cst_9, main_v52, main_v53, main_v54, main_call2.v0.ref, main_call2.cst.ref, main_call2.v1.ref, main_call2.v2.ref, main_call2.v3.ref, main_cst_10, main_v56, main_v57, main_v58, main_v59, main_call3.v0.ref, main_call3.cst.ref, main_call3.v1.ref, main_call3.v2.ref, main_call3.v3.ref, main_v61, main_v62, main_v63, main_v64, main_v65]
set_option maxRecDepth 8192 in
theorem opsE_writes : (opsE : List (HloOp τ sig (Elt F))).Forall fun op =>
    op.writes ⊆ (opsE_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩
/-- A buffer that `opsE` does not write keeps its contents through it. -/
theorem opsE_keep (W : Valuation τ sig (Elt F)) (r : Ref sig .tc) (h : r ∉ opsE_W) :
    after opsE W (Proc.devRef .tc r) = W (Proc.devRef .tc r) :=
  after_of_writes_sub opsE _ opsE_writes h

set_option maxRecDepth 8192 in
/-- After the first stretch the buffer of %5 holds the source column of the doubled edge list. -/
theorem opsA_v5 (W : Valuation τ sig (Elt F)) :
    after opsA W (main_v5 : DevRef τ sig) = Stages.src (W (main_arg2 : DevRef τ sig)) := by
  simp only [opsA]
  after_results_simp
  unfold Stages.src Stages.pairs
  rfl

set_option maxRecDepth 8192 in
/-- … the buffer of %7 its destination column. -/
theorem opsA_v7 (W : Valuation τ sig (Elt F)) :
    after opsA W (main_v7 : DevRef τ sig) = Stages.dst (W (main_arg2 : DevRef τ sig)) := by
  simp only [opsA]
  after_results_simp
  unfold Stages.dst Stages.pairs
  rfl

set_option maxRecDepth 8192 in
/-- … the buffer of %3 the edge features once per direction. -/
theorem opsA_v3 (W : Valuation τ sig (Elt F)) :
    after opsA W (main_v3 : DevRef τ sig) = Stages.efu (W (main_arg1 : DevRef τ sig)) := by
  simp only [opsA]
  after_results_simp
  unfold Stages.efu
  rfl

set_option maxRecDepth 8192 in
/-- … the buffer of %11 the node projection. -/
theorem opsA_v11 (W : Valuation τ sig (Elt F)) :
    after opsA W (main_v11 : DevRef τ sig) = Stages.hv (W (main_arg0 : DevRef τ sig)) (W (main_arg3 : DevRef τ sig)) (W (main_arg4 : DevRef τ sig)) := by
  simp only [opsA]
  after_results_simp
  unfold Stages.hv
  rfl

set_option maxRecDepth 8192 in
set_option maxHeartbeats 1000000 in
/-- After the second stretch the buffer of %29 holds the attention weights: the exponential of the leaky rectifier of
    the contraction of `[h[src] | h[dst] | ef]` with the attention vector. -/
theorem opsB_v29 (W : Valuation τ sig (Elt F)) :
    after opsB W (main_v29 : DevRef τ sig)
      = Stages.att (Stages.logitsOf (Stages.rows (W (main_v11 : DevRef τ sig)) (Stages.wrap (W (main_v5 : DevRef τ sig))))
          (Stages.rows (W (main_v11 : DevRef τ sig)) (Stages.wrap (W (main_v7 : DevRef τ sig)))) (W (main_v3 : DevRef τ sig)) (W (main_arg5 : DevRef τ sig))) := by
  simp only [opsB]
  after_results_simp
  try dsimp only [Matrix.cons_val]
  try after_results_simp
  try simp only [Cert.Lib.TypedRefCasts.ofBuf_toBuf]
  unfold Stages.att Stages.leaky Stages.logitsOf Stages.rows Stages.wrap
  rfl

set_option maxRecDepth 8192 in
/-- After the third stretch the buffer of %41 holds the weights normalised over their source node, in logarithm. -/
theorem opsC_v41 (W : Valuation τ sig (Elt F)) :
    after opsC W (main_v41 : DevRef τ sig) = Stages.attNormOf (W (main_v29 : DevRef τ sig)) (W (main_v5 : DevRef τ sig)) := by
  simp only [opsC]
  after_results_simp
  unfold Stages.attNormOf Stages.col Stages.wrap
  rfl

set_option maxRecDepth 8192 in
set_option maxHeartbeats 1000000 in
/-- After the fourth stretch the buffer of %42 holds the variance of the normalised weights. -/
theorem opsD_v42 (W : Valuation τ sig (Elt F)) :
    after opsD W (main_v42 : DevRef τ sig) = Stages.variance (W (main_v41 : DevRef τ sig)) := by
  simp only [opsD]
  after_results_simp
  try simp only [Cert.Lib.TypedRefCasts.ofBuf_toBuf]
  unfold Stages.variance
  rfl

set_option maxRecDepth 8192 in
/-- … and the buffer of %48 the destination index down a column. -/
theorem opsD_v48 (W : Valuation τ sig (Elt F)) :
    after opsD W (main_v48 : DevRef τ sig) = Stages.wrap (W (main_v7 : DevRef τ sig)) := by
  simp only [opsD]
  after_results_simp
  unfold Stages.wrap
  rfl

set_option maxRecDepth 8192 in
set_option maxHeartbeats 1000000 in
/-- After the last stretch the buffer of %65 holds the embedding of the summed messages beside the node projection. -/
theorem opsE_v65 (W : Valuation τ sig (Elt F)) :
    after opsE W (main_v65 : DevRef τ sig)
      = Stages.embed (Stages.msgOf (Stages.contribOf (Stages.rows (W (main_v11 : DevRef τ sig)) (W (main_v48 : DevRef τ sig))) (W (main_v41 : DevRef τ sig))) (W (main_v5 : DevRef τ sig)))
          (W (main_v11 : DevRef τ sig)) (W (main_arg6 : DevRef τ sig)) := by
  simp only [opsE]
  after_results_simp
  try simp only [Cert.Lib.TypedRefCasts.ofBuf_toBuf]
  unfold Stages.embed Stages.rowNorm Stages.msgOf Stages.contribOf Stages.rows Stages.col
  rfl

/-! ## The line folded -/

/-- The contents after the whole line: the five stretches one after the other. -/
theorem after_ops (V : Valuation τ sig (Elt F)) :
    after ops V = after opsE (after opsD (after opsC (after opsB (after opsA V)))) := by
  simp only [ops, ops0, Cert.Lib.AfterAppend.after_append]

/-- The first result. -/
theorem out0_eq (V : Valuation τ sig (Elt F)) :
    after ops V (main_v65 : DevRef τ sig)
      = Stages.result0 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) := by
  rw [after_ops, opsE_v65,
    opsD_keep _ main_v11 (by decide), opsD_v48, opsD_keep _ main_v41 (by decide), opsD_keep _ main_v5 (by decide), opsD_keep _ main_arg6 (by decide),
    opsC_keep _ main_v11 (by decide), opsC_keep _ main_v7 (by decide), opsC_v41, opsC_keep _ main_v5 (by decide), opsC_keep _ main_arg6 (by decide),
    opsB_keep _ main_v11 (by decide), opsB_keep _ main_v7 (by decide), opsB_v29, opsB_keep _ main_v5 (by decide), opsB_keep _ main_arg6 (by decide),
    opsA_v11, opsA_v7, opsA_v5, opsA_v3, opsA_keep _ main_arg5 (by decide), opsA_keep _ main_arg6 (by decide)]
  unfold Stages.result0 Stages.msg Stages.contrib Stages.attNorm Stages.logits
  rfl

/-- The second result. -/
theorem out1_eq (V : Valuation τ sig (Elt F)) :
    after ops V (main_v42 : DevRef τ sig)
      = Stages.result1 (V (main_arg0 : DevRef τ sig)) (V (main_arg1 : DevRef τ sig)) (V (main_arg2 : DevRef τ sig)) (V (main_arg3 : DevRef τ sig)) (V (main_arg4 : DevRef τ sig)) (V (main_arg5 : DevRef τ sig)) := by
  rw [after_ops, opsE_keep _ main_v42 (by decide), opsD_v42, opsC_v41,
    opsB_v29, opsB_keep _ main_v5 (by decide), opsA_v11, opsA_v7, opsA_v5, opsA_v3, opsA_keep _ main_arg5 (by decide)]
  unfold Stages.result1 Stages.attNorm Stages.logits
  rfl

/-- An argument's buffer is written by no operation. -/
theorem arg_eq (V : Valuation τ sig (Elt F)) (r : Ref sig .tc)
    (hA : r ∉ opsA_W) (hB : r ∉ opsB_W) (hC : r ∉ opsC_W) (hD : r ∉ opsD_W) (hE : r ∉ opsE_W) :
    after ops V (Proc.devRef .tc r) = V (Proc.devRef .tc r) := by
  rw [after_ops, opsE_keep _ r hE, opsD_keep _ r hD, opsC_keep _ r hC, opsB_keep _ r hB, opsA_keep _ r hA]

/-! ## The run -/

/-- On every device, for any float values, from any memory with zero counters: every weakly fair execution of the
    reference's `main` terminates with its two results at the stage functions of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v65) = Stages.result0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v42) = Stages.result1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v65).trans (out0_eq _), (h c main_v42).trans (out1_eq _),
      (h c main_arg0).trans (arg_eq _ main_arg0 (by decide) (by decide) (by decide) (by decide) (by decide)),
      (h c main_arg1).trans (arg_eq _ main_arg1 (by decide) (by decide) (by decide) (by decide) (by decide)),
      (h c main_arg2).trans (arg_eq _ main_arg2 (by decide) (by decide) (by decide) (by decide) (by decide)),
      (h c main_arg3).trans (arg_eq _ main_arg3 (by decide) (by decide) (by decide) (by decide) (by decide)),
      (h c main_arg4).trans (arg_eq _ main_arg4 (by decide) (by decide) (by decide) (by decide) (by decide)),
      (h c main_arg5).trans (arg_eq _ main_arg5 (by decide) (by decide) (by decide) (by decide) (by decide)),
      (h c main_arg6).trans (arg_eq _ main_arg6 (by decide) (by decide) (by decide) (by decide) (by decide))⟩)
    (run_seq scopedRefs_eq scopedSems_eq defs main (fun _ => ops) main_eq (fun _ => ops_sub) m ρ)

end Cert.ReferenceIdeal.RefRun

end
-- ==== Proof.lean ====
/-
  The certificate of the node-attention kernel against its reference, over the extended reals.

  The kernel program computes, in four kernel regions among host operations, and the reference computes, in host
  operations alone:

    h   = x W + b                                         (node projection)
    s_e = [h[src e] | h[dst e] | ef_e] · a                (attention logit of each directed edge)
    w_e = exp (leaky_relu s_e)
    z_e = log (w_e / Σ_{e' : src e' = src e} w_e')        (normalised log attention), and its unbiased variance
    g_v = Σ_{e : src e = v} h[dst e] · z_e                (messages summed per node)
    out = [h | g / max (‖g‖, ε) · ‖h‖ · scale].

  The two programs differ in three places, all identities on the extended reals that need no finiteness: the
  projection is a matrix product into a zero accumulator after a change of float format (the identity here) against
  a plain contraction; the logit is three lane sums added against one 160-wide contraction of the concatenation
  (a finite sum regrouped); the last stage is the same arithmetic with kernel and host spellings of the row sums
  and the broadcasts.  Everything else is the same host operation on both sides.

  The frames of the two kernel programs are the generated ones; the reference's frame is its run with the results
  dropped.  The idealization ledger is empty.  The value claim pairs the kernel's run, read through its nine segment
  boundaries (`Fold`), with the reference's run (`RefRun`), both stated over the reference's stages (`Stages`).
-/
import proofs.«156379_j75642964017820_2_alg».proof.Defs
import proofs.«156379_j75642964017820_2_alg».proof.Proof.Gen.Kernel
import proofs.«156379_j75642964017820_2_alg».proof.Proof.Gen.Kernel.Frame
import proofs.«156379_j75642964017820_2_alg».proof.Proof.Gen.KernelIdeal
import proofs.«156379_j75642964017820_2_alg».proof.Proof.Gen.KernelIdeal.Frame
import proofs.«156379_j75642964017820_2_alg».proof.Proof.Gen.ReferenceIdeal
import proofs.«156379_j75642964017820_2_alg».proof.Proof.Gen.Pre_finite_inputs
import proofs.«156379_j75642964017820_2_alg».proof.Proof.KernelRun
import proofs.«156379_j75642964017820_2_alg».proof.Proof.Fold
import proofs.«156379_j75642964017820_2_alg».proof.Proof.RefRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the two results dropped. -/
theorem frame_ri : Cert.frame_ReferenceIdeal := fun m ρ _ =>
  (θ_run Cert.ReferenceIdeal.defs _ _).mono (fun _ h c => (h c).2.2) (Cert.ReferenceIdeal.RefRun.run (F := Ideal) m ρ)

/-- The ideal pass rewrote nothing. -/
theorem preserves : Cert.preserves_Kernel_KernelIdeal := trivial

/-- Both programs end with the reference's two stage compositions of the (agreeing) arguments. -/
theorem algebraic : Cert.algebraic_KernelIdeal_ReferenceIdeal := by
  intro m ρ m' ρ' _ hagree
  refine ⟨fun c => Cert.ReferenceIdeal.Stages.result0 (F := Ideal)
            (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4))
            (m ((c.tc : Thread Cert.KernelIdeal.nD Cert.KernelIdeal.τ).loc Cert.KernelIdeal.main_arg5))
            (m ((c.tc : Thread Cert.KernelIdeal.nD Cert.KernelIdeal.τ).loc Cert.KernelIdeal.main_arg6)),
          fun c => Cert.ReferenceIdeal.Stages.result1 (F := Ideal)
            (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4))
            (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Fold.result0_eq m ρ c),
        (h c).2.1.trans (Cert.KernelIdeal.Fold.result1_eq m ρ c), (h c).2.2⟩)
      (Cert.KernelIdeal.ValueRun.run_values (F := Ideal) m ρ)
  · refine (θ_run Cert.ReferenceIdeal.defs _ _).mono (fun _ h c => ⟨(h c).1.trans ?_, (h c).2.1.trans ?_, (h c).2.2⟩)
      (Cert.ReferenceIdeal.RefRun.run (F := Ideal) m' ρ')
    · obtain ⟨e0, e1, e2, e3, e4, e5, e6⟩ := hagree c
      rw [e0, e1, e2, e3, e4, e5, e6]
    · obtain ⟨e0, e1, e2, e3, e4, e5, e6⟩ := hagree c
      rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
